-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v126) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S64x128 .f32) (main_arg13 : FVec F S128 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x128 .f32) (main_arg13 : FVec F S128 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x128 .f32) (main_arg13 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 169
  | .vmem => 72
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x128, .f32⟩
  | 13 => ⟨S128, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S1700000x1, .i32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x64, .f32⟩
  | 13 => ⟨S1700000x1, .f32⟩
  | 14 => ⟨S1700000x64, .f32⟩
  | 15 => ⟨S1700000x64, .f32⟩
  | 16 => ⟨S_, .f32⟩
  | 17 => ⟨S100000x64, .f32⟩
  | 18 => ⟨S1700000x1, .i32⟩
  | 19 => ⟨S100000x64, .f32⟩
  | 20 => ⟨S1x64, .f32⟩
  | 21 => ⟨S100000x64, .f32⟩
  | 22 => ⟨S100000x128, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000x128, .f32⟩
  | 32 => ⟨S1700000x1, .f32⟩
  | 33 => ⟨S1700000x128, .f32⟩
  | 34 => ⟨S1700000x128, .f32⟩
  | 35 => ⟨S_, .f32⟩
  | 36 => ⟨S100000x128, .f32⟩
  | 37 => ⟨S1700000x1, .i32⟩
  | 38 => ⟨S100000x128, .f32⟩
  | 39 => ⟨S1x128, .f32⟩
  | 40 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S64x128, .f32⟩
  | .local _ .vmem, ⟨63, _⟩ => ⟨S10000x128, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S10000x128, .f32⟩
  | .local _ .vmem, ⟨69, _⟩ => ⟨S1x128, .f32⟩
  | .local _ .vmem, ⟨70, _⟩ => ⟨S10000x128, .f32⟩
  | .local _ .vmem, ⟨71, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_15 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_17 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_18 : Ref sig .tc := ⟨.hbm, 132, rfl⟩
abbrev main_v96 : Ref sig .tc := ⟨.hbm, 133, rfl⟩
abbrev main_v97 : Ref sig .tc := ⟨.hbm, 134, rfl⟩
abbrev main_c_19 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_20 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_21 : Ref sig .tc := ⟨.hbm, 151, rfl⟩
abbrev main_v112 : Ref sig .tc := ⟨.hbm, 152, rfl⟩
abbrev main_v113 : Ref sig .tc := ⟨.hbm, 153, rfl⟩
abbrev main_c_22 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_23 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg3_0 : Ref sig .tc := ⟨.vmem, 58, rfl⟩
abbrev cc9_stg3_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg1_1 : Ref sig .tc := ⟨.vmem, 68, rfl⟩
abbrev cc11_stg2_0 : Ref sig .tc := ⟨.vmem, 69, rfl⟩
abbrev cc11_stg3_0 : Ref sig .tc := ⟨.vmem, 70, rfl⟩
abbrev cc11_stg3_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem3_0 : DmaSem sig := 58
abbrev cc9_sem3_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem2_1 : DmaSem sig := 64
abbrev cc11_sem0_0 : DmaSem sig := 65
abbrev cc11_sem0_1 : DmaSem sig := 66
abbrev cc11_sem1_0 : DmaSem sig := 67
abbrev cc11_sem1_1 : DmaSem sig := 68
abbrev cc11_sem2_0 : DmaSem sig := 69
abbrev cc11_sem3_0 : DmaSem sig := 70
abbrev cc11_sem3_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S10000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x128.size a ≤ S64x128.size a
  hwx10_1 : ∀ i : grid10.Coords, EltTy.bits .f32 = 32 ∨ (Rect.block (s := S64x128) S64x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x128.size a ≤ S100000x128.size a
  hwx10_2 : ∀ i : grid10.Coords, EltTy.bits .f32 = 32 ∨ (Rect.block (s := S100000x128) S10000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x128.size a ≤ S100000x128.size a
  hwx11_0 : ∀ i : grid11.Coords, EltTy.bits .f32 = 32 ∨ (Rect.block (s := S100000x128) S10000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x128.size a ≤ S100000x128.size a
  hwx11_1 : ∀ i : grid11.Coords, EltTy.bits .f32 = 32 ∨ (Rect.block (s := S100000x128) S10000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S10000x128.size a ≤ S100000x128.size a
  hwx11_3 : ∀ i : grid11.Coords, EltTy.bits .f32 = 32 ∨ (Rect.block (s := S100000x128) S10000x128.size (cc11_transform_3 i) (hinb11_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v78) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v79) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v79) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v94) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v95) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v108) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v109) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v110) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v110) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S64x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v111) S10000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v111) S10000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v124) S10000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v125) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v126) S10000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 229
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x128, .f32⟩
  | 13 => ⟨S128, .f32⟩
  | 14 => ⟨S100000, .i32⟩
  | 15 => ⟨S1x1600000, .i32⟩
  | 16 => ⟨S1600000, .i32⟩
  | 17 => ⟨S1700000, .i32⟩
  | 18 => ⟨S1x1600000, .i32⟩
  | 19 => ⟨S1600000, .i32⟩
  | 20 => ⟨S1700000, .i32⟩
  | 21 => ⟨S_, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000x64, .f32⟩
  | 95 => ⟨S1700000x1, .f32⟩
  | 96 => ⟨S1700000x64, .f32⟩
  | 97 => ⟨S1700000x64, .f32⟩
  | 98 => ⟨S_, .f32⟩
  | 99 => ⟨S100000x64, .f32⟩
  | 100 => ⟨S1700000x1, .i32⟩
  | 101 => ⟨S100000x64, .f32⟩
  | 102 => ⟨S_, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x128, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S_, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S100000x64, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000x64, .f32⟩
  | 24 => ⟨S1700000x1, .f32⟩
  | 25 => ⟨S1700000x64, .f32⟩
  | 26 => ⟨S1700000x64, .f32⟩
  | 27 => ⟨S_, .f32⟩
  | 28 => ⟨S100000x64, .f32⟩
  | 29 => ⟨S1700000x1, .i32⟩
  | 30 => ⟨S100000x64, .f32⟩
  | 31 => ⟨S_, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S_, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_call1_cst : Ref sig .tc := ⟨.hbm, 82, rfl⟩
abbrev main_call1_v0 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_call2_cst : Ref sig .tc := ⟨.hbm, 112, rfl⟩
abbrev main_call2_v0 : Ref sig .tc := ⟨.hbm, 113, rfl⟩
abbrev main_v76 : Ref sig .tc := ⟨.hbm, 114, rfl⟩
abbrev main_v77 : Ref sig .tc := ⟨.hbm, 115, rfl⟩
abbrev main_c_16 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_18 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_21 : Ref sig .tc := ⟨.hbm, 143, rfl⟩
abbrev main_v100 : Ref sig .tc := ⟨.hbm, 144, rfl⟩
abbrev main_v101 : Ref sig .tc := ⟨.hbm, 145, rfl⟩
abbrev main_c_22 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_23 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_24 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call3_cst : Ref sig .tc := ⟨.hbm, 169, rfl⟩
abbrev main_call3_v0 : Ref sig .tc := ⟨.hbm, 170, rfl⟩
abbrev main_v121 : Ref sig .tc := ⟨.hbm, 171, rfl⟩
abbrev main_v122 : Ref sig .tc := ⟨.hbm, 172, rfl⟩
abbrev main_c_26 : Ref sig .tc := ⟨.hbm, 173, rfl⟩
abbrev main_v123 : Ref sig .tc := ⟨.hbm, 174, rfl⟩
abbrev main_v124 : Ref sig .tc := ⟨.hbm, 175, rfl⟩
abbrev main_c_27 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_28 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_29 : Ref sig .tc := ⟨.hbm, 189, rfl⟩
abbrev main_v136 : Ref sig .tc := ⟨.hbm, 190, rfl⟩
abbrev main_v137 : Ref sig .tc := ⟨.hbm, 191, rfl⟩
abbrev main_cst_30 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_call4_cst : Ref sig .tc := ⟨.hbm, 199, rfl⟩
abbrev main_call4_v0 : Ref sig .tc := ⟨.hbm, 200, rfl⟩
abbrev main_v144 : Ref sig .tc := ⟨.hbm, 201, rfl⟩
abbrev main_v145 : Ref sig .tc := ⟨.hbm, 202, rfl⟩
abbrev main_c_31 : Ref sig .tc := ⟨.hbm, 203, rfl⟩
abbrev main_v146 : Ref sig .tc := ⟨.hbm, 204, rfl⟩
abbrev main_v147 : Ref sig .tc := ⟨.hbm, 205, rfl⟩
abbrev main_c_32 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_cst_33 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_34 : Ref sig .tc := ⟨.hbm, 219, rfl⟩
abbrev main_v159 : Ref sig .tc := ⟨.hbm, 220, rfl⟩
abbrev main_v160 : Ref sig .tc := ⟨.hbm, 221, rfl⟩
abbrev main_cst_35 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, with its two results named.

  @main is twenty-one segments: nine stretches of host operations and twelve kernel regions. The contents of the
  core's buffers at each boundary are a fold from the launch memory (a host stretch rewrites the buffers its operations
  write; a region rewrites its output array with what its grid points write back), and every weakly fair execution
  ends with every unscoped buffer at the last boundary's contents. Here that final state is read at the two result
  buffers as well as at the arguments: the embedding and the reconstruction end at the last boundary's contents
  `W21`, which the later modules compute.
-/
import proofs.«162297_j20255065768607_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the embedding and the reconstruction end at the
    last boundary's contents and the arguments as launched. -/
theorem run : θ_run defs (onTc (τ := τ) (main (F := F))) ⟨m, fun _ => 0, ρ⟩ (fun r => ∀ c : Dev nD,
      r.2.mem ((c.tc : Thread nD τ).loc main_v78) = W21 m ρ c (Proc.devRef .tc main_v78)
      ∧ r.2.mem ((c.tc : Thread nD τ).loc main_v126) = W21 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v78 (by decide)),
       h c _ (mem_uc main_v126 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c)⟩)

end Cert.KernelIdeal.Results

end
-- ==== Proof.Spec.lean ====
/-
  The layer functions both programs compute, written once over whole arrays.

  A graph convolution layer on N = 100000 nodes with E = 1600000 edges and a self loop per node:
    hw   = h · W                                      (a dense product, [N, a] × [a, b])
    agg  = segment_sum over target nodes of  hw[source] · norm         (gather, scale, scatter-add)
    out  = c₁ · hw + c₂ · agg + bias                  (then max with 0 on the hidden layers)
  with norm[e] = dinv[source e] · 1 · dinv[target e], dinv = where(deg > 0, rsqrt deg, 0), deg the number of edges
  into a node. The encoder's three layers have (c₁, c₂) = (0, 1), the decoder's three (½, ½); the hidden layers
  (all but the encoder's last and the decoder's last) end in the max with 0.

  Every function here is the host operations' own composition, generic in the float instance: nothing is
  evaluated, and the irregular parts (gather, scatter-add, rsqrt) are never opened.
-/
import proofs.«162297_j20255065768607_1_alg».proof.Proof.Gen.ReferenceIdeal
import Idealize.ShloMosaic.Lib.StableHlo.Run

noncomputable section

namespace Cert.Spec

open Cert.ReferenceIdeal Cert.ReferenceIdeal.Gen Idealize.ShloMosaic Idealize.ShloMosaic.TcCoe Idealize.SL.Sem Idealize.ShloMosaic.StableHlo

variable (F : FTy → Type) [FloatOps F]

/-- An array of shape `s` and element type `e`. -/
abbrev Arr (s : Shape) (e : EltTy) := (⟨s, e⟩ : BufTy).Contents (Elt F)

/-- The source node of every edge: row 0 of the edge list, then one self loop per node. -/
def src (ei : Arr F S2x1600000 .i32) : Arr F S1700000 .i32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The target node of every edge: row 1 of the edge list, then one self loop per node. -/
def tgt (ei : Arr F S2x1600000 .i32) : Arr F S1700000 .i32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node index made a gather's start index: a negative one counted from the end, then a column. -/
def wrapIdx (v : Arr F S1700000 .i32) : Arr F S1700000x1 .i32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The degree of every node: ones scattered along the targets `t`. -/
def degOf (t : Arr F S1700000 .i32) : Arr F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 t) (broadcastInDim S1700000 ![] bcast_S_S1700000 (constant S_ .f32 0x3F800000#32))

/-- deg^(-1/2) where the degree is positive, 0 elsewhere. -/
def dinvOf (t : Arr F S1700000 .i32) : Arr F S100000 .f32 :=
  select (cmpf .ogt (degOf F t) (broadcastInDim S100000 ![] bcast_S_S100000 (constant S_ .f32 0x00000000#32))) (Host.rsqrt (degOf F t)) (broadcastInDim S100000 ![] bcast_S_S100000 (id (constant S_ .f32 0x00000000#32)))

/-- The symmetric normalisation of every edge from its source `s` to its target `t`: dinv[source] · 1 · dinv[target]. -/
def normOf (s t : Arr F S1700000 .i32) : Arr F S1700000 .f32 :=
  mulf (mulf (Host.gather gather_S100000_S1700000x1_S1700000_n_0_n_n_0_1_1 (dinvOf F t) (wrapIdx F s)) (broadcastInDim S1700000 ![] bcast_S_S1700000 (constant S_ .f32 0x3F800000#32))) (Host.gather gather_S100000_S1700000x1_S1700000_n_0_n_n_0_1_1 (dinvOf F t) (wrapIdx F t))

/-- The normalisation of the edge list's own edges and self loops. -/
def norm (ei : Arr F S2x1600000 .i32) : Arr F S1700000 .f32 := normOf F (src F ei) (tgt F ei)

/-- Message passing on 64 features along edges with sources `s`, targets `t` and weights `nrm`: the rows of `hw` at the
    sources, scaled by the edge's weight, summed at the targets. -/
def aggOf64 (s t : Arr F S1700000 .i32) (nrm : Arr F S1700000 .f32) (hw : Arr F S100000x64 .f32) : Arr F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 t) (mulf (Host.gather gather_S100000x64_S1700000x1_S1700000x64_1_0_n_n_0_1_164 hw (wrapIdx F s)) (broadcastInDim S1700000x64 ![0, 1] bcast_S1700000x1_S1700000x64_0_1 (broadcastInDim S1700000x1 ![0] bcast_S1700000_S1700000x1_0 nrm)))

/-- Message passing on 128 features. -/
def aggOf128 (s t : Arr F S1700000 .i32) (nrm : Arr F S1700000 .f32) (hw : Arr F S100000x128 .f32) : Arr F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 t) (mulf (Host.gather gather_S100000x128_S1700000x1_S1700000x128_1_0_n_n_0_1_1128 hw (wrapIdx F s)) (broadcastInDim S1700000x128 ![0, 1] bcast_S1700000x1_S1700000x128_0_1 (broadcastInDim S1700000x1 ![0] bcast_S1700000_S1700000x1_0 nrm)))

/-- Message passing along the edge list's own edges and self loops. -/
def agg64 (ei : Arr F S2x1600000 .i32) (hw : Arr F S100000x64 .f32) : Arr F S100000x64 .f32 :=
  aggOf64 F (src F ei) (tgt F ei) (norm F ei) hw
def agg128 (ei : Arr F S2x1600000 .i32) (hw : Arr F S100000x128 .f32) : Arr F S100000x128 .f32 :=
  aggOf128 F (src F ei) (tgt F ei) (norm F ei) hw

/-- c₁ · hw + c₂ · agg + bias on 64 features, the bias a row added to every node. -/
def comb64 (c1 c2 : BitVec 32) (hw agg : Arr F S100000x64 .f32) (b : Arr F S64 .f32) : Arr F S100000x64 .f32 :=
  addf (addf (mulf (broadcastInDim S100000x64 ![] bcast_S_S100000x64 (constant S_ .f32 c1)) hw) (mulf (broadcastInDim S100000x64 ![] bcast_S_S100000x64 (constant S_ .f32 c2)) agg)) (broadcastInDim S100000x64 ![0, 1] bcast_S1x64_S100000x64_0_1 (broadcastInDim S1x64 ![1] bcast_S64_S1x64_1 b))

/-- c₁ · hw + c₂ · agg + bias on 128 features. -/
def comb128 (c1 c2 : BitVec 32) (hw agg : Arr F S100000x128 .f32) (b : Arr F S128 .f32) : Arr F S100000x128 .f32 :=
  addf (addf (mulf (broadcastInDim S100000x128 ![] bcast_S_S100000x128 (constant S_ .f32 c1)) hw) (mulf (broadcastInDim S100000x128 ![] bcast_S_S100000x128 (constant S_ .f32 c2)) agg)) (broadcastInDim S100000x128 ![0, 1] bcast_S1x128_S100000x128_0_1 (broadcastInDim S1x128 ![1] bcast_S128_S1x128_1 b))

/-- max with 0, entry by entry. -/
def relu64 (x : Arr F S100000x64 .f32) : Arr F S100000x64 .f32 :=
  maximumf x (broadcastInDim S100000x64 ![] bcast_S_S100000x64 (constant S_ .f32 0x00000000#32))

/-- The dense products of the three shapes. -/
def lin128x64 (x : Arr F S100000x128 .f32) (w : Arr F S128x64 .f32) : Arr F S100000x64 .f32 :=
  Host.dotGeneral dot_S100000x128_S128x64_S100000x64_1_0_0_1_n_n none x w
def lin64x64 (x : Arr F S100000x64 .f32) (w : Arr F S64x64 .f32) : Arr F S100000x64 .f32 :=
  Host.dotGeneral dot_S100000x64_S64x64_S100000x64_1_0_0_1_n_n none x w
def lin64x128 (x : Arr F S100000x64 .f32) (w : Arr F S64x128 .f32) : Arr F S100000x128 .f32 :=
  Host.dotGeneral dot_S100000x64_S64x128_S100000x128_1_0_0_1_n_n none x w

/-- One convolution from the dense product `hw` along given edges: c₁ · hw + c₂ · (message passing of hw) + bias. -/
def convOf64 (c1 c2 : BitVec 32) (s t : Arr F S1700000 .i32) (nrm : Arr F S1700000 .f32) (hw : Arr F S100000x64 .f32) (b : Arr F S64 .f32) : Arr F S100000x64 .f32 :=
  comb64 F c1 c2 hw (aggOf64 F s t nrm hw) b
def convOf128 (c1 c2 : BitVec 32) (s t : Arr F S1700000 .i32) (nrm : Arr F S1700000 .f32) (hw : Arr F S100000x128 .f32) (b : Arr F S128 .f32) : Arr F S100000x128 .f32 :=
  comb128 F c1 c2 hw (aggOf128 F s t nrm hw) b

/-- The same along the edge list's own edges and self loops. -/
def conv64 (c1 c2 : BitVec 32) (ei : Arr F S2x1600000 .i32) (hw : Arr F S100000x64 .f32) (b : Arr F S64 .f32) : Arr F S100000x64 .f32 :=
  convOf64 F c1 c2 (src F ei) (tgt F ei) (norm F ei) hw b
def conv128 (c1 c2 : BitVec 32) (ei : Arr F S2x1600000 .i32) (hw : Arr F S100000x128 .f32) (b : Arr F S128 .f32) : Arr F S100000x128 .f32 :=
  convOf128 F c1 c2 (src F ei) (tgt F ei) (norm F ei) hw b

section Net
variable (x : Arr F S100000x128 .f32) (ei : Arr F S2x1600000 .i32)
  (we0 : Arr F S128x64 .f32) (be0 : Arr F S64 .f32) (we1 : Arr F S64x64 .f32) (be1 : Arr F S64 .f32)
  (we2 : Arr F S64x64 .f32) (be2 : Arr F S64 .f32) (wd0 : Arr F S64x64 .f32) (bd0 : Arr F S64 .f32)
  (wd1 : Arr F S64x64 .f32) (bd1 : Arr F S64 .f32) (wd2 : Arr F S64x128 .f32) (bd2 : Arr F S128 .f32)

/-- The encoder: two hidden layers and the embedding layer, each with (c₁, c₂) = (0, 1). -/
def enc1 : Arr F S100000x64 .f32 := relu64 F (conv64 F 0x00000000#32 0x3F800000#32 ei (lin128x64 F x we0) be0)
def enc2 : Arr F S100000x64 .f32 := relu64 F (conv64 F 0x00000000#32 0x3F800000#32 ei (lin64x64 F (enc1 F x ei we0 be0) we1) be1)
/-- The embedding: the first result. -/
def embed : Arr F S100000x64 .f32 := conv64 F 0x00000000#32 0x3F800000#32 ei (lin64x64 F (enc2 F x ei we0 be0 we1 be1) we2) be2

/-- The decoder: two hidden layers and the reconstruction layer, each with (c₁, c₂) = (½, ½). -/
def dec1 : Arr F S100000x64 .f32 := relu64 F (conv64 F 0x3F000000#32 0x3F000000#32 ei (lin64x64 F (embed F x ei we0 be0 we1 be1 we2 be2) wd0) bd0)
def dec2 : Arr F S100000x64 .f32 := relu64 F (conv64 F 0x3F000000#32 0x3F000000#32 ei (lin64x64 F (dec1 F x ei we0 be0 we1 be1 we2 be2 wd0 bd0) wd1) bd1)
/-- The reconstruction: the second result. -/
def recon : Arr F S100000x128 .f32 := conv128 F 0x3F000000#32 0x3F000000#32 ei (lin64x128 F (dec2 F x ei we0 be0 we1 be1 we2 be2 wd0 bd0 wd1 bd1) wd2) bd2
end Net

end Cert.Spec

end
-- ==== Proof.KernelHost.lean ====
/-
  The idealized kernel's host operations, read stretch by stretch.

  Between its twelve kernel regions the kernel's @main runs the same host operations as the reference: first the
  41 operations that build the graph's normalisation (three stretches of 18, 3 and 20), then before each combine region
  a stretch of 17 — the gather of the dense product's rows at the edges' sources, their scaling by the edges' weights, the
  scatter-add at the targets, and the bias vector reshaped to one row. Each stretch's results are stated for ANY contents
  of the buffers it reads, as the same functions the reference's layers are made of; a buffer a stretch does not write
  keeps its contents through it.
-/
import proofs.«162297_j20255065768607_1_alg».proof.Proof.Gen.KernelIdeal.Launch
import proofs.«162297_j20255065768607_1_alg».proof.Proof.Spec
import Idealize.ShloMosaic.Lib.StableHlo.Run

noncomputable section

namespace Cert.KernelIdeal.HostLines

open Cert.KernelIdeal Cert.KernelIdeal.Gen Idealize.ShloMosaic Idealize.ShloMosaic.TcCoe Idealize.SL.Sem Idealize.ShloMosaic.StableHlo

variable {F : FTy → Type} [FloatOps F]

/-- The three stretches before the first region, as one line of 41 operations. -/
abbrev prepOps : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v7 main_v22 (mulf : (⟨S1700000, .f32⟩ : BufTy).Contents (Elt F) → (⟨S1700000, .f32⟩ : BufTy).Contents (Elt F) → (⟨S1700000, .f32⟩ : BufTy).Contents (Elt F)),
    StableHlo.nullary main_c_4 (constantI S_ 32 0#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v25 (broadcastInDim S1700000 ![] bcast_S_S1700000 : (⟨S_, .i32⟩ : BufTy).Contents (Elt F) → (⟨S1700000, .i32⟩ : BufTy).Contents (Elt F)),
    StableHlo.binary main_v6 main_v25 main_v26 (addi : (⟨S1700000, .i32⟩ : BufTy).Contents (Elt F) → (⟨S1700000, .i32⟩ : BufTy).Contents (Elt F) → (⟨S1700000, .i32⟩ : BufTy).Contents (Elt F)),
    StableHlo.ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v27 main_v28 (broadcastInDim S1700000x1 ![0] bcast_S1700000_S1700000x1_0 : (⟨S1700000, .i32⟩ : BufTy).Contents (Elt F) → (⟨S1700000x1, .i32⟩ : BufTy).Contents (Elt F)),
    StableHlo.binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v22 main_v29 main_v30 (mulf : (⟨S1700000, .f32⟩ : BufTy).Contents (Elt F) → (⟨S1700000, .f32⟩ : BufTy).Contents (Elt F) → (⟨S1700000, .f32⟩ : BufTy).Contents (Elt F)) ]

theorem prepOps_eq : (prepOps : List (HloOp τ sig (Elt F))) = hostOps0 ++ (hostOps0_1 ++ hostOps0_2) := rfl

/-- The buffers the stretch writes. -/
abbrev prepOps_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_v22, main_c_4, main_v23, main_v24, main_c_5, main_v25, main_v26, main_v27, main_v28, main_v29, main_v30]
set_option maxRecDepth 8192 in
theorem prepOps_writes : (prepOps : List (HloOp τ sig (Elt F))).Forall fun op => op.writes ⊆ (prepOps_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem prepOps_keep (V : Valuation τ sig (Elt F)) (r : Ref sig .tc) (h : r ∉ prepOps_W) :
    after prepOps V (Proc.devRef .tc r) = V (Proc.devRef .tc r) :=
  after_of_writes_sub prepOps _ prepOps_writes h

/-- The buffers the stretch writes. -/
abbrev hostOps1_W : List (Ref sig .tc) := [main_c_6, main_v32, main_v33, main_c_7, main_v34, main_v35, main_v36, main_v37, main_v38, main_v39, main_v40, main_v41, main_cst_8, main_v42, main_v43, main_v44, main_v45]
set_option maxRecDepth 8192 in
theorem hostOps1_writes : (hostOps1 : List (HloOp τ sig (Elt F))).Forall fun op => op.writes ⊆ (hostOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps1_keep (V : Valuation τ sig (Elt F)) (r : Ref sig .tc) (h : r ∉ hostOps1_W) :
    after hostOps1 V (Proc.devRef .tc r) = V (Proc.devRef .tc r) :=
  after_of_writes_sub hostOps1 _ hostOps1_writes h

/-- The buffers the stretch writes. -/
abbrev hostOps3_W : List (Ref sig .tc) := [main_c_9, main_v48, main_v49, main_c_10, main_v50, main_v51, main_v52, main_v53, main_v54, main_v55, main_v56, main_v57, main_cst_11, main_v58, main_v59, main_v60, main_v61]
set_option maxRecDepth 8192 in
theorem hostOps3_writes : (hostOps3 : List (HloOp τ sig (Elt F))).Forall fun op => op.writes ⊆ (hostOps3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps3_keep (V : Valuation τ sig (Elt F)) (r : Ref sig .tc) (h : r ∉ hostOps3_W) :
    after hostOps3 V (Proc.devRef .tc r) = V (Proc.devRef .tc r) :=
  after_of_writes_sub hostOps3 _ hostOps3_writes h

/-- The buffers the stretch writes. -/
abbrev hostOps5_W : List (Ref sig .tc) := [main_c_12, main_v64, main_v65, main_c_13, main_v66, main_v67, main_v68, main_v69, main_v70, main_v71, main_v72, main_v73, main_cst_14, main_v74, main_v75, main_v76, main_v77]
set_option maxRecDepth 8192 in
theorem hostOps5_writes : (hostOps5 : List (HloOp τ sig (Elt F))).Forall fun op => op.writes ⊆ (hostOps5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps5_keep (V : Valuation τ sig (Elt F)) (r : Ref sig .tc) (h : r ∉ hostOps5_W) :
    after hostOps5 V (Proc.devRef .tc r) = V (Proc.devRef .tc r) :=
  after_of_writes_sub hostOps5 _ hostOps5_writes h

/-- The buffers the stretch writes. -/
abbrev hostOps7_W : List (Ref sig .tc) := [main_c_15, main_v80, main_v81, main_c_16, main_v82, main_v83, main_v84, main_v85, main_v86, main_v87, main_v88, main_v89, main_cst_17, main_v90, main_v91, main_v92, main_v93]
set_option maxRecDepth 8192 in
theorem hostOps7_writes : (hostOps7 : List (HloOp τ sig (Elt F))).Forall fun op => op.writes ⊆ (hostOps7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps7_keep (V : Valuation τ sig (Elt F)) (r : Ref sig .tc) (h : r ∉ hostOps7_W) :
    after hostOps7 V (Proc.devRef .tc r) = V (Proc.devRef .tc r) :=
  after_of_writes_sub hostOps7 _ hostOps7_writes h

/-- The buffers the stretch writes. -/
abbrev hostOps9_W : List (Ref sig .tc) := [main_c_18, main_v96, main_v97, main_c_19, main_v98, main_v99, main_v100, main_v101, main_v102, main_v103, main_v104, main_v105, main_cst_20, main_v106, main_v107, main_v108, main_v109]
set_option maxRecDepth 8192 in
theorem hostOps9_writes : (hostOps9 : List (HloOp τ sig (Elt F))).Forall fun op => op.writes ⊆ (hostOps9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps9_keep (V : Valuation τ sig (Elt F)) (r : Ref sig .tc) (h : r ∉ hostOps9_W) :
    after hostOps9 V (Proc.devRef .tc r) = V (Proc.devRef .tc r) :=
  after_of_writes_sub hostOps9 _ hostOps9_writes h

/-- The buffers the stretch writes. -/
abbrev hostOps11_W : List (Ref sig .tc) := [main_c_21, main_v112, main_v113, main_c_22, main_v114, main_v115, main_v116, main_v117, main_v118, main_v119, main_v120, main_v121, main_cst_23, main_v122, main_v123, main_v124, main_v125]
set_option maxRecDepth 8192 in
theorem hostOps11_writes : (hostOps11 : List (HloOp τ sig (Elt F))).Forall fun op => op.writes ⊆ (hostOps11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps11_keep (V : Valuation τ sig (Elt F)) (r : Ref sig .tc) (h : r ∉ hostOps11_W) :
    after hostOps11 V (Proc.devRef .tc r) = V (Proc.devRef .tc r) :=
  after_of_writes_sub hostOps11 _ hostOps11_writes h

/-! ## What each stretch computes, from any contents of the buffers it reads -/

set_option maxRecDepth 8192 in
set_option maxHeartbeats 4000000 in
/-- The sources of the edges. -/
theorem prep_src (V : Valuation τ sig (Elt F)) : after prepOps V (no_index (Proc.devRef .tc main_v3)) = Spec.src F (V (Proc.devRef .tc main_arg1)) := by
  simp only [prepOps]
  after_results_simp
  try dsimp only [Matrix.cons_val]
  try after_results_simp
  try simp only [TRef.toBuf, TRef.ofBuf, cast_eq]
  rfl

set_option maxRecDepth 8192 in
set_option maxHeartbeats 4000000 in
/-- The targets of the edges. -/
theorem prep_tgt (V : Valuation τ sig (Elt F)) : after prepOps V (no_index (Proc.devRef .tc main_v6)) = Spec.tgt F (V (Proc.devRef .tc main_arg1)) := by
  simp only [prepOps]
  after_results_simp
  try dsimp only [Matrix.cons_val]
  try after_results_simp
  try simp only [TRef.toBuf, TRef.ofBuf, cast_eq]
  rfl

set_option maxRecDepth 8192 in
set_option maxHeartbeats 4000000 in
/-- The edges' weights. -/
theorem prep_norm (V : Valuation τ sig (Elt F)) : after prepOps V (no_index (Proc.devRef .tc main_v30)) = Spec.norm F (V (Proc.devRef .tc main_arg1)) := by
  simp only [prepOps]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v31`. -/
theorem hostOps1_agg (V : Valuation τ sig (Elt F)) : after hostOps1 V (no_index (Proc.devRef .tc main_v44)) = Spec.aggOf64 F (V (Proc.devRef .tc main_v3)) (V (Proc.devRef .tc main_v6)) (V (Proc.devRef .tc main_v30)) (V (Proc.devRef .tc main_v31)) := by
  simp only [hostOps1]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps1_bias (V : Valuation τ sig (Elt F)) : after hostOps1 V (no_index (Proc.devRef .tc main_v45)) = shapeCast S1x64 (V (Proc.devRef .tc main_arg3)) shapeCasts_S64_S1x64 := by
  simp only [hostOps1]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v47`. -/
theorem hostOps3_agg (V : Valuation τ sig (Elt F)) : after hostOps3 V (no_index (Proc.devRef .tc main_v60)) = Spec.aggOf64 F (V (Proc.devRef .tc main_v3)) (V (Proc.devRef .tc main_v6)) (V (Proc.devRef .tc main_v30)) (V (Proc.devRef .tc main_v47)) := by
  simp only [hostOps3]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps3_bias (V : Valuation τ sig (Elt F)) : after hostOps3 V (no_index (Proc.devRef .tc main_v61)) = shapeCast S1x64 (V (Proc.devRef .tc main_arg5)) shapeCasts_S64_S1x64 := by
  simp only [hostOps3]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v63`. -/
theorem hostOps5_agg (V : Valuation τ sig (Elt F)) : after hostOps5 V (no_index (Proc.devRef .tc main_v76)) = Spec.aggOf64 F (V (Proc.devRef .tc main_v3)) (V (Proc.devRef .tc main_v6)) (V (Proc.devRef .tc main_v30)) (V (Proc.devRef .tc main_v63)) := by
  simp only [hostOps5]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps5_bias (V : Valuation τ sig (Elt F)) : after hostOps5 V (no_index (Proc.devRef .tc main_v77)) = shapeCast S1x64 (V (Proc.devRef .tc main_arg7)) shapeCasts_S64_S1x64 := by
  simp only [hostOps5]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v79`. -/
theorem hostOps7_agg (V : Valuation τ sig (Elt F)) : after hostOps7 V (no_index (Proc.devRef .tc main_v92)) = Spec.aggOf64 F (V (Proc.devRef .tc main_v3)) (V (Proc.devRef .tc main_v6)) (V (Proc.devRef .tc main_v30)) (V (Proc.devRef .tc main_v79)) := by
  simp only [hostOps7]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps7_bias (V : Valuation τ sig (Elt F)) : after hostOps7 V (no_index (Proc.devRef .tc main_v93)) = shapeCast S1x64 (V (Proc.devRef .tc main_arg9)) shapeCasts_S64_S1x64 := by
  simp only [hostOps7]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v95`. -/
theorem hostOps9_agg (V : Valuation τ sig (Elt F)) : after hostOps9 V (no_index (Proc.devRef .tc main_v108)) = Spec.aggOf64 F (V (Proc.devRef .tc main_v3)) (V (Proc.devRef .tc main_v6)) (V (Proc.devRef .tc main_v30)) (V (Proc.devRef .tc main_v95)) := by
  simp only [hostOps9]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps9_bias (V : Valuation τ sig (Elt F)) : after hostOps9 V (no_index (Proc.devRef .tc main_v109)) = shapeCast S1x64 (V (Proc.devRef .tc main_arg11)) shapeCasts_S64_S1x64 := by
  simp only [hostOps9]
  after_results_simp
  try dsimp only [Matrix.cons_val]
  try after_results_simp
  try simp only [TRef.toBuf, TRef.ofBuf, cast_eq]
  rfl

set_option maxRecDepth 8192 in
set_option maxHeartbeats 4000000 in
/-- The aggregated messages of the dense product in `main_v111`. -/
theorem hostOps11_agg (V : Valuation τ sig (Elt F)) : after hostOps11 V (no_index (Proc.devRef .tc main_v124)) = Spec.aggOf128 F (V (Proc.devRef .tc main_v3)) (V (Proc.devRef .tc main_v6)) (V (Proc.devRef .tc main_v30)) (V (Proc.devRef .tc main_v111)) := by
  simp only [hostOps11]
  after_results_simp
  try dsimp only [Matrix.cons_val]
  try after_results_simp
  try simp only [TRef.toBuf, TRef.ofBuf, cast_eq]
  rfl

set_option maxRecDepth 8192 in
set_option maxHeartbeats 4000000 in
/-- The bias vector as one row. -/
theorem hostOps11_bias (V : Valuation τ sig (Elt F)) : after hostOps11 V (no_index (Proc.devRef .tc main_v125)) = shapeCast S1x128 (V (Proc.devRef .tc main_arg13)) shapeCasts_S128_S1x128 := by
  simp only [hostOps11]
  after_results_simp
  try dsimp only [Matrix.cons_val]
  try after_results_simp
  try simp only [TRef.toBuf, TRef.ofBuf, cast_eq]
  rfl

end Cert.KernelIdeal.HostLines

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«162297_j20255065768607_1_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibConvBlocks.lean ====
/-
  GENERAL LEMMAS: the two bodies of a graph-convolution kernel tiled over blocks of rows, read at the ideal values
  against the host's whole-array spelling.

  For any sizes (a block of `r` rows of an `R × K` array; `K` and `N` features):
  * `dense_block` / `dense_block_cast`: entry `j` of a block's `matmul` into the zero accumulator, both operands cut
    to a shorter float format, is entry `i` of the host's `dot_general` of the whole arrays, as soon as the block's
    row is the array's row and the weights' column is the same column;
  * `combine_block` / `combine_relu_block`: entry `j` of the block's `c₁ · hw + c₂ · agg + bias row` (with or without a
    final max with the zero word) is entry `i` of the host's `c₁ · HW + c₂ · AGG + bias` written with rank-0 splats and
    two `broadcast_in_dim`s of the bias vector.

  * The dense body loads a block of rows `x` and the weights `w`, cuts both to a shorter float format (the identity on
    extended reals) and multiplies them into a zero accumulator: the plain product `x · w`.
  * The combine body is entry by entry: at row `p`, column `q` it is `c₁ · hw + c₂ · agg + bias q`, the bias a single
    row spread over all rows. The host writes the same with two `broadcast_in_dim`s of a length-`K` bias vector.
  Nothing here needs a finiteness hypothesis: the two spellings are the same expression of the same entries.
-/
import proofs.«162297_j20255065768607_1_alg».proof.Proof.LibMatProd
import proofs.«162297_j20255065768607_1_alg».proof.Proof.LibRowBlock
import Idealize.ShloMosaic.Lib.ValueLayout
import Idealize.ShloMosaic.Lib.Pipeline.Value

noncomputable section

open scoped BigOperators

namespace Cert.Layers

open Idealize.ShloMosaic Idealize.ShloMosaic.ValueIdx Cert.Linear

/-- A rank-0 shape and a length-`K` vector's shape. -/
abbrev Sc : Shape := ⟨0, ![]⟩
abbrev Vc (K : Nat) : Shape := ⟨1, ![K]⟩

/-- The dense body: both operands cut to a shorter format and multiplied into the zero accumulator are `x · w`. -/
theorem dense_body {r K N : Nat} {d : DotDims (Mat r K) (Mat K N) (Mat r N)} (h : Contracts d)
    (x : FVec Ideal (Mat r K) .f32) (w : FVec Ideal (Mat K N) .f32) (hb : FTy.bits .bf16 < FTy.bits .f32) :
    FloatOps.matmul d none (truncf .bf16 x hb) (truncf .bf16 w hb) (constant (F := Ideal) (Mat r N) .f32 0x00000000#32)
      = matProd x w :=
  matmul_zero_eq h none (truncf .bf16 x hb) (truncf .bf16 w hb)

/-- The same with the block first cast to its own shape. -/
theorem dense_body_cast {r K N : Nat} {d : DotDims (Mat r K) (Mat K N) (Mat r N)} (h : Contracts d)
    (x : FVec Ideal (Mat r K) .f32) (w : FVec Ideal (Mat K N) .f32) (hb : FTy.bits .bf16 < FTy.bits .f32)
    (hs : (Mat r K).ShapeCasts (Mat r K)) :
    FloatOps.matmul d none (truncf .bf16 (shapeCast (Mat r K) x hs) hb) (truncf .bf16 w hb)
        (constant (F := Ideal) (Mat r N) .f32 0x00000000#32)
      = matProd x w := by
  rw [shapeCast_self]; exact dense_body h x w hb

/-- The combination `c₁ · a + c₂ · g + β` of three extended reals, the coefficients given by their float words. -/
def mix (c1 c2 : BitVec 32) (a g β : EReal) : EReal :=
  (Ideal.ofBits .f32 c1 * a + Ideal.ofBits .f32 c2 * g) + β

/-- The combine body at row `p`, column `q` of its block. -/
theorem combine_body_apply {r K : Nat} (c1 c2 : BitVec 32) (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (p : Fin r) (q : Fin K) :
    addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3) (ix2 p q)
      = mix c1 c2 (x0 (ix2 p q)) (x1 (ix2 p q)) (x2 (ix2 (0 : Fin 1) q)) := by
  rw [shapeCast_self, shapeCast_self, shapeCast_self, shapeCast_self]
  show (Ideal.ofBits .f32 c1 * x0 (ix2 p q) + Ideal.ofBits .f32 c2 * x1 (ix2 p q)) + broadcastTo (Mat r K) x2 h3 (ix2 p q) = _
  rw [broadcastTo_1b_ab_apply x2 h3 p q]; rfl

/-- The host's spelling of the same combination at row `p`, column `q`: the coefficients splat from rank-0 constants,
    the bias a length-`K` vector made one row and then all rows. -/
theorem combine_host_apply {R K : Nat} (c1 c2 : BitVec 32) (hw agg : FVec Ideal (Mat R K) .f32) (b : FVec Ideal (Vc K) .f32)
    (h0 : Sc.BroadcastsInDim (Mat R K) ![]) (h1 : (Vc K).BroadcastsInDim (Mat 1 K) ![1])
    (h2 : (Mat 1 K).BroadcastsInDim (Mat R K) ![0, 1]) (p : Fin R) (q : Fin K) :
    addf (addf (mulf (broadcastInDim (Mat R K) ![] h0 (constant (F := Ideal) Sc .f32 c1)) hw)
          (mulf (broadcastInDim (Mat R K) ![] h0 (constant (F := Ideal) Sc .f32 c2)) agg))
        (broadcastInDim (Mat R K) ![0, 1] h2 (broadcastInDim (Mat 1 K) ![1] h1 b)) (ix2 p q)
      = mix c1 c2 (hw (ix2 p q)) (agg (ix2 p q)) (b (ix1 q)) := by
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : ∀ c : BitVec 32, broadcastInDim (Mat R K) ![] h0 (constant (F := Ideal) Sc .f32 c) (ix2 p q) = Ideal.ofBits .f32 c :=
    fun c => broadcastInDim_apply ![] h0 _ (ix2 p q) ix0 fun a => a.elim0
  show (broadcastInDim (Mat R K) ![] h0 (constant (F := Ideal) Sc .f32 c1) (ix2 p q) * hw (ix2 p q)
        + broadcastInDim (Mat R K) ![] h0 (constant (F := Ideal) Sc .f32 c2) (ix2 p q) * agg (ix2 p q))
      + broadcastInDim (Mat R K) ![0, 1] h2 (broadcastInDim (Mat 1 K) ![1] h1 b) (ix2 p q) = _
  rw [e2, e1, e3, e3]; rfl

/-- The max with the zero word, at an index, in the body's spelling and in the host's. -/
theorem relu_body_apply {r K : Nat} (y : FVec Ideal (Mat r K) .f32) (i : (Mat r K).Idx) :
    maximumf y (broadcast (Mat r K) (FloatOps.ofBits (F := Ideal) .f32 0x00000000#32)) i = max (y i) (Ideal.ofBits .f32 0x00000000#32) := rfl

theorem relu_host_apply {R K : Nat} (y : FVec Ideal (Mat R K) .f32) (h0 : Sc.BroadcastsInDim (Mat R K) ![]) (i : (Mat R K).Idx) :
    maximumf y (broadcastInDim (Mat R K) ![] h0 (constant (F := Ideal) Sc .f32 0x00000000#32)) i
      = max (y i) (Ideal.ofBits .f32 0x00000000#32) := by
  show max (y i) (broadcastInDim (Mat R K) ![] h0 (constant (F := Ideal) Sc .f32 0x00000000#32) i) = _
  rw [broadcastInDim_apply ![] h0 _ i ix0 fun a => a.elim0]; rfl

/-- A block of rows of the dense body against the whole product: entry `j` of the block's body is entry `i` of the
    host's `dot_general` of the whole operands, as soon as row `j 0` of the block is row `i 0` of the whole left operand
    and column `j 1` of the block's weights is column `i 1` of the whole right operand. -/
theorem dense_block {R r K N : Nat} {d : DotDims (Mat r K) (Mat K N) (Mat r N)} {D : DotDims (Mat R K) (Mat K N) (Mat R N)}
    (h : Contracts d) (H : Contracts D) (sched : HostSchedule)
    (X : FVec Ideal (Mat R K) .f32) (W : FVec Ideal (Mat K N) .f32)
    (x : FVec Ideal (Mat r K) .f32) (w : FVec Ideal (Mat K N) .f32) (hb : FTy.bits .bf16 < FTy.bits .f32)
    (j : (Mat r N).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := N) k (j 1)) = W (ix2 (n0 := K) (n1 := N) k (i 1))) :
    FloatOps.matmul d none (truncf .bf16 x hb) (truncf .bf16 w hb) (constant (F := Ideal) (Mat r N) .f32 0x00000000#32) j
      = FloatOps.dotGeneral D none sched X W i := by
  rw [dense_body h x w hb, dotGeneral_eq H none sched X W]
  exact matProd_of_rows X W x w j i hx hw

/-- The same with the block first cast to its own shape. -/
theorem dense_block_cast {R r K N : Nat} {d : DotDims (Mat r K) (Mat K N) (Mat r N)} {D : DotDims (Mat R K) (Mat K N) (Mat R N)}
    (h : Contracts d) (H : Contracts D) (sched : HostSchedule)
    (X : FVec Ideal (Mat R K) .f32) (W : FVec Ideal (Mat K N) .f32)
    (x : FVec Ideal (Mat r K) .f32) (w : FVec Ideal (Mat K N) .f32) (hb : FTy.bits .bf16 < FTy.bits .f32)
    (hs : (Mat r K).ShapeCasts (Mat r K)) (j : (Mat r N).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := N) k (j 1)) = W (ix2 (n0 := K) (n1 := N) k (i 1))) :
    FloatOps.matmul d none (truncf .bf16 (shapeCast (Mat r K) x hs) hb) (truncf .bf16 w hb)
        (constant (F := Ideal) (Mat r N) .f32 0x00000000#32) j
      = FloatOps.dotGeneral D none sched X W i := by
  rw [shapeCast_self]; exact dense_block h H sched X W x w hb j i hx hw

/-- A block of rows of the combine body against the host's whole-array spelling: entry `j` of the block's body is entry
    `i` of the host's combination as soon as the block's entries at `j` are the arrays' at `i` and the bias row's entry in
    column `j 1` is the bias vector's in column `i 1`. -/
theorem combine_block {R r K : Nat} (c1 c2 : BitVec 32) (HW AGG : FVec Ideal (Mat R K) .f32) (b : FVec Ideal (Vc K) .f32)
    (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (g0 : Sc.BroadcastsInDim (Mat R K) ![]) (g1 : (Vc K).BroadcastsInDim (Mat 1 K) ![1])
    (g2 : (Mat 1 K).BroadcastsInDim (Mat R K) ![0, 1])
    (j : (Mat r K).Idx) (i : (Mat R K).Idx) (e0 : x0 j = HW i) (e1 : x1 j = AGG i)
    (e2 : x2 (ix2 (0 : Fin 1) (j 1)) = b (ix1 (i 1))) :
    addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3) j
      = addf (addf (mulf (broadcastInDim (Mat R K) ![] g0 (constant (F := Ideal) Sc .f32 c1)) HW)
          (mulf (broadcastInDim (Mat R K) ![] g0 (constant (F := Ideal) Sc .f32 c2)) AGG))
        (broadcastInDim (Mat R K) ![0, 1] g2 (broadcastInDim (Mat 1 K) ![1] g1 b)) i := by
  obtain ⟨p, q, rfl⟩ : ∃ (p : Fin r) (q : Fin K), j = ix2 p q := ⟨j 0, j 1, eq_ix2 j⟩
  obtain ⟨P, Q, rfl⟩ : ∃ (P : Fin R) (Q : Fin K), i = ix2 P Q := ⟨i 0, i 1, eq_ix2 i⟩
  rw [combine_body_apply, combine_host_apply, e0, e1]
  exact congrArg (mix c1 c2 (HW (ix2 P Q)) (AGG (ix2 P Q))) e2

/-- The same with the final max with the zero word on both sides. -/
theorem combine_relu_block {R r K : Nat} (c1 c2 : BitVec 32) (HW AGG : FVec Ideal (Mat R K) .f32) (b : FVec Ideal (Vc K) .f32)
    (x0 x1 : FVec Ideal (Mat r K) .f32) (x2 : FVec Ideal (Mat 1 K) .f32)
    (h1 : (Mat r K).ShapeCasts (Mat r K)) (h2 : (Mat 1 K).ShapeCasts (Mat 1 K)) (h3 : (Mat 1 K).Broadcasts (Mat r K))
    (g0 : Sc.BroadcastsInDim (Mat R K) ![]) (g1 : (Vc K).BroadcastsInDim (Mat 1 K) ![1])
    (g2 : (Mat 1 K).BroadcastsInDim (Mat R K) ![0, 1])
    (j : (Mat r K).Idx) (i : (Mat R K).Idx) (e0 : x0 j = HW i) (e1 : x1 j = AGG i)
    (e2 : x2 (ix2 (0 : Fin 1) (j 1)) = b (ix1 (i 1))) :
    maximumf (addf (addf (mulf (broadcast (Mat r K) (FloatOps.ofBits (F := Ideal) .f32 c1)) (shapeCast (Mat r K) x0 h1))
          (mulf (broadcast (Mat r K) (FloatOps.ofBits (F := Ideal) .f32 c2)) (shapeCast (Mat r K) x1 h1)))
        (broadcastTo (Mat r K) (shapeCast (Mat 1 K) (shapeCast (Mat 1 K) x2 h2) h2) h3))
        (broadcast (Mat r K) (FloatOps.ofBits (F := Ideal) .f32 0x00000000#32)) j
      = maximumf (addf (addf (mulf (broadcastInDim (Mat R K) ![] g0 (constant (F := Ideal) Sc .f32 c1)) HW)
          (mulf (broadcastInDim (Mat R K) ![] g0 (constant (F := Ideal) Sc .f32 c2)) AGG))
        (broadcastInDim (Mat R K) ![0, 1] g2 (broadcastInDim (Mat 1 K) ![1] g1 b)))
        (broadcastInDim (Mat R K) ![] g0 (constant (F := Ideal) Sc .f32 0x00000000#32)) i := by
  rw [relu_body_apply, relu_host_apply, combine_block c1 c2 HW AGG b x0 x1 x2 h1 h2 h3 g0 g1 g2 j i e0 e1 e2]

/-- A bias vector made one row by a reshape, read in the row's column `q`. -/
theorem bias_row_apply {K : Nat} (b : FVec Ideal (Vc K) .f32) (h : (Vc K).ShapeCasts (Mat 1 K)) (q : Fin K) :
    shapeCast (Mat 1 K) b h (ix2 (0 : Fin 1) q) = b (ix1 q) := shapeCast_a_1a_apply b h 0 q

end Cert.Layers

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«162297_j20255065768607_1_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.Region0.lean ====
/-
  Region 0: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x128_S128x64_S10000x64_1_0_0_1_n_n : DotDims (Mat 10000 128) (Mat 128 64) (Mat 10000 64)) := contracts_of_lists _ rfl rfl rfl rfl rfl rfl
theorem hD : Contracts (Cert.ReferenceIdeal.dot_S100000x128_S128x64_S100000x64_1_0_0_1_n_n : DotDims (Mat 100000 128) (Mat 128 64) (Mat 100000 64)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x128 .f32) (W : Vec Ideal S128x64 .f32) (x0 : Vec Ideal S10000x128 .f32) (x1 : Vec Ideal S128x64 .f32)
    (j : S10000x64.Idx) (i : S100000x64.Idx)
    (hx : ∀ q : Fin 128, x0 (ix2 (j 0) q) = X (ix2 (i 0) q)) (hw : ∀ q : Fin 128, x1 (ix2 q (j 1)) = W (ix2 q (i 1))) :
    k0_pay1 x0 x1 j = Spec.lin128x64 Ideal X W i := by
  unfold k0_pay1 Spec.lin128x64
  exact dense_block hd hD _ X W x0 x1 _ j i hx hw

/-- The printed index maps, decided over the grid: the feature block and the result block are block `t` of their arrays'
    rows, the weights are fetched whole. -/
theorem idx_rows : ∀ t : Fin cfg0.N, win0_2.index t (0 : Fin 2) = t.val := (by decide +kernel : ∀ t : Fin grid0.N, _)
theorem idx_cols : ∀ t : Fin cfg0.N, win0_2.index t (1 : Fin 2) = 0 := (by decide +kernel : ∀ t : Fin grid0.N, _)
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (Spec.lin128x64 Ideal (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4⟩ := idx_facts t
  funext j
  show k0_pay1 (iblk0 V c 0 t) (iblk0 V c 1 t) j = Spec.lin128x64 Ideal (V c main_arg0) (V c main_arg2) (((cfg0.win 2).blk t).view.emb j)
  refine block_eq (V c main_arg0) (V c main_arg2) (iblk0 V c 0 t) (iblk0 V c 1 t) j _ (fun q => ?_) (fun q => ?_)
  · show V c main_arg0 (((cfg0.win 0).blk t).view.emb (ix2 (j 0) q)) = V c main_arg0 (ix2 ((((cfg0.win 2).blk t).view.emb j) 0) q)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * q.val = q.val; omega
  · show V c main_arg2 (((cfg0.win 1).blk t).view.emb (ix2 q (j 1))) = V c main_arg2 (ix2 q ((((cfg0.win 2).blk t).view.emb j) 1))
    refine congrArg _ (funext fun a => Fin.ext ?_)
    match a with
    | ⟨0, _⟩ => show win0_1.index t (0 : Fin 2) * 128 + 1 * q.val = q.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every row of the output array is in the block of the point its row number divided by 10000 names. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < 10 := by omega
  refine ⟨⟨(i 0).val / 10000, ht⟩, flush0_2 _, ?_⟩
  rw [mem_blk]
  have hr := (idx_rows ⟨(i 0).val / 10000, ht⟩)
  have hc := (idx_cols ⟨(i 0).val / 10000, ht⟩)
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [hc]; omega

/-- The result array after the region: the host's product of the node features and the weights as the region finds them. -/
theorem final (c : Dev nD) : (dat0 V c).arrAt 2 cfg0.N = Spec.lin128x64 Ideal (V c main_arg0) (V c main_arg2) :=
  (dat0 V c).arrAt_eq_of_cover 2 _ (fun t _ => flushed_eq V c t) cover

end Cert.KernelIdeal.Region0

end
-- ==== Proof.Region1.lean ====
/-
  Region 1: the combination c₁ · hw + c₂ · agg + bias, then the max with 0, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x64 .f32) (b : Vec Ideal S64 .f32) (x0 x1 : Vec Ideal S10000x64 .f32) (x2 : Vec Ideal S1x64 .f32)
    (j : S10000x64.Idx) (i : S100000x64.Idx) (e0 : x0 j = HW i) (e1 : x1 j = AGG i)
    (e2 : x2 (ix2 (0 : Fin 1) (j 1)) = b (ix1 (i 1))) :
    k1_pay1 x0 x1 x2 j = Spec.relu64 Ideal (Spec.comb64 Ideal 0x00000000#32 0x3F800000#32 HW AGG b) i := by
  unfold k1_pay1 Spec.relu64 Spec.comb64
  exact combine_relu_block 0x00000000#32 0x3F800000#32 HW AGG b x0 x1 x2 _ _ _ _ _ _ j i e0 e1 e2

/-- The printed index maps, decided over the grid: the two input blocks and the result block are block `t` of their
    arrays' rows, the bias row is fetched whole. -/
theorem idx_rows : ∀ t : Fin cfg1.N, win1_3.index t (0 : Fin 2) = t.val := (by decide +kernel : ∀ t : Fin grid1.N, _)
theorem idx_cols : ∀ t : Fin cfg1.N, win1_3.index t (1 : Fin 2) = 0 := (by decide +kernel : ∀ t : Fin grid1.N, _)
theorem idx_facts : ∀ t : Fin cfg1.N, win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = 0 ∧ win1_2.index t (1 : Fin 2) = 0 ∧ win1_3.index t (1 : Fin 2) = 0 :=
  (by decide +kernel : ∀ t : Fin grid1.N, _)

/-- What point `t` writes back is block `t` of the host's combination of the arrays as the region finds them, the bias
    row being the reshaped bias vector `bv`. -/
theorem flushed_eq (c : Dev nD) (bv : Vec Ideal S64 .f32) (hsc : S64.ShapeCasts S1x64)
    (hB : V c main_v45 = shapeCast S1x64 bv hsc) (t : Fin cfg1.N) :
    (dat1 V c).flushed 3 t = ((cfg1.win 3).blk t).view.read (Elt Ideal) (Spec.relu64 Ideal (Spec.comb64 Ideal 0x00000000#32 0x3F800000#32 (V c main_v31) (V c main_v44) bv)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  obtain ⟨e0, e1, e2, e3, e4, e5, e6⟩ := idx_facts t
  funext j
  show k1_pay1 (iblk1 V c 0 t) (iblk1 V c 1 t) (iblk1 V c 2 t) j = (Spec.relu64 Ideal (Spec.comb64 Ideal 0x00000000#32 0x3F800000#32 (V c main_v31) (V c main_v44) bv)) (((cfg1.win 3).blk t).view.emb j)
  refine block_eq (V c main_v31) (V c main_v44) bv (iblk1 V c 0 t) (iblk1 V c 1 t) (iblk1 V c 2 t) j _ ?_ ?_ ?_
  · show V c main_v31 (((cfg1.win 0).blk t).view.emb j) = V c main_v31 (((cfg1.win 3).blk t).view.emb j)
    refine congrArg _ (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_v44 (((cfg1.win 1).blk t).view.emb j) = V c main_v44 (((cfg1.win 3).blk t).view.emb j)
    refine congrArg _ (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * (j 1).val = win1_3.index t (1 : Fin 2) * 64 + 1 * (j 1).val; omega
  · show V c main_v45 (((cfg1.win 2).blk t).view.emb (ix2 (0 : Fin 1) (j 1))) = bv (ix1 ((((cfg1.win 3).blk t).view.emb j) 1))
    have ea : ((cfg1.win 2).blk t).view.emb (ix2 (0 : Fin 1) (j 1)) = ix2 (0 : Fin 1) ((((cfg1.win 3).blk t).view.emb j) 1) :=
      funext fun a => Fin.ext (by
        match a with
        | ⟨0, _⟩ => show win1_2.index t (0 : Fin 2) * 1 + 1 * (0 : Fin 1).val = (0 : Fin 1).val; omega
        | ⟨1, _⟩ => show win1_2.index t (1 : Fin 2) * 64 + 1 * (j 1).val = win1_3.index t (1 : Fin 2) * 64 + 1 * (j 1).val; omega)
    rw [ea, hB]
    exact bias_row_apply bv hsc _

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v46).slice (win1_3.rect t)).set ↔ _
  rw [View.set_slice_whole, Rect.mem_set_unit]
  exact Iff.rfl

/-- Every row of the output array is in the block of the point its row number divided by 10000 names. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have ht : (i 0).val / 10000 < 10 := by omega
  refine ⟨⟨(i 0).val / 10000, ht⟩, flush1_3 _, ?_⟩
  rw [mem_blk]
  have hr := (idx_rows ⟨(i 0).val / 10000, ht⟩)
  have hc := (idx_cols ⟨(i 0).val / 10000, ht⟩)
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [hc]; omega

/-- The result array after the region: the host's combination of the arrays as the region finds them. -/
theorem final (c : Dev nD) (bv : Vec Ideal S64 .f32) (hsc : S64.ShapeCasts S1x64) (hB : V c main_v45 = shapeCast S1x64 bv hsc) :
    (dat1 V c).arrAt 3 cfg1.N = Spec.relu64 Ideal (Spec.comb64 Ideal 0x00000000#32 0x3F800000#32 (V c main_v31) (V c main_v44) bv) :=
  (dat1 V c).arrAt_eq_of_cover 3 _ (fun t _ => flushed_eq V c bv hsc hB t) cover

end Cert.KernelIdeal.Region1

end
-- ==== Proof.Region2.lean ====
/-
  Region 2: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x64_S64x64_S10000x64_1_0_0_1_n_n : DotDims (Mat 10000 64) (Mat 64 64) (Mat 10000 64)) := contracts_of_lists _ rfl rfl rfl rfl rfl rfl
theorem hD : Contracts (Cert.ReferenceIdeal.dot_S100000x64_S64x64_S100000x64_1_0_0_1_n_n : DotDims (Mat 100000 64) (Mat 64 64) (Mat 100000 64)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x64 .f32) (W : Vec Ideal S64x64 .f32) (x0 : Vec Ideal S10000x64 .f32) (x1 : Vec Ideal S64x64 .f32)
    (j : S10000x64.Idx) (i : S100000x64.Idx)
    (hx : ∀ q : Fin 64, x0 (ix2 (j 0) q) = X (ix2 (i 0) q)) (hw : ∀ q : Fin 64, x1 (ix2 q (j 1)) = W (ix2 q (i 1))) :
    k2_pay1 x0 x1 j = Spec.lin64x64 Ideal X W i := by
  unfold k2_pay1 Spec.lin64x64
  exact dense_block_cast hd hD _ X W x0 x1 _ _ j i hx hw

/-- The printed index maps, decided over the grid: the feature block and the result block are block `t` of their arrays'
    rows, the weights are fetched whole. -/
theorem idx_rows : ∀ t : Fin cfg2.N, win2_2.index t (0 : Fin 2) = t.val := (by decide +kernel : ∀ t : Fin grid2.N, _)
theorem idx_cols : ∀ t : Fin cfg2.N, win2_2.index t (1 : Fin 2) = 0 := (by decide +kernel : ∀ t : Fin grid2.N, _)
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- What point `t` writes back is block `t` of the whole product of the arrays as the region finds them. -/
theorem flushed_eq (c : Dev nD) (t : Fin cfg2.N) :
    (dat2 V c).flushed 2 t = ((cfg2.win 2).blk t).view.read (Elt Ideal) (Spec.lin64x64 Ideal (V c main_v46) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4⟩ := idx_facts t
  funext j
  show k2_pay1 (iblk2 V c 0 t) (iblk2 V c 1 t) j = Spec.lin64x64 Ideal (V c main_v46) (V c main_arg4) (((cfg2.win 2).blk t).view.emb j)
  refine block_eq (V c main_v46) (V c main_arg4) (iblk2 V c 0 t) (iblk2 V c 1 t) j _ (fun q => ?_) (fun q => ?_)
  · show V c main_v46 (((cfg2.win 0).blk t).view.emb (ix2 (j 0) q)) = V c main_v46 (ix2 ((((cfg2.win 2).blk t).view.emb j) 0) q)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * q.val = q.val; omega
  · show V c main_arg4 (((cfg2.win 1).blk t).view.emb (ix2 q (j 1))) = V c main_arg4 (ix2 q ((((cfg2.win 2).blk t).view.emb j) 1))
    refine congrArg _ (funext fun a => Fin.ext ?_)
    match a with
    | ⟨0, _⟩ => show win2_1.index t (0 : Fin 2) * 64 + 1 * q.val = q.val; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Every row of the output array is in the block of the point its row number divided by 10000 names. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < 10 := by omega
  refine ⟨⟨(i 0).val / 10000, ht⟩, flush2_2 _, ?_⟩
  rw [mem_blk]
  have hr := (idx_rows ⟨(i 0).val / 10000, ht⟩)
  have hc := (idx_cols ⟨(i 0).val / 10000, ht⟩)
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [hc]; omega

/-- The result array after the region: the host's product of the node features and the weights as the region finds them. -/
theorem final (c : Dev nD) : (dat2 V c).arrAt 2 cfg2.N = Spec.lin64x64 Ideal (V c main_v46) (V c main_arg4) :=
  (dat2 V c).arrAt_eq_of_cover 2 _ (fun t _ => flushed_eq V c t) cover

end Cert.KernelIdeal.Region2

end
-- ==== Proof.Region3.lean ====
/-
  Region 3: the combination c₁ · hw + c₂ · agg + bias, then the max with 0, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x64 .f32) (b : Vec Ideal S64 .f32) (x0 x1 : Vec Ideal S10000x64 .f32) (x2 : Vec Ideal S1x64 .f32)
    (j : S10000x64.Idx) (i : S100000x64.Idx) (e0 : x0 j = HW i) (e1 : x1 j = AGG i)
    (e2 : x2 (ix2 (0 : Fin 1) (j 1)) = b (ix1 (i 1))) :
    k3_pay1 x0 x1 x2 j = Spec.relu64 Ideal (Spec.comb64 Ideal 0x00000000#32 0x3F800000#32 HW AGG b) i := by
  unfold k3_pay1 Spec.relu64 Spec.comb64
  exact combine_relu_block 0x00000000#32 0x3F800000#32 HW AGG b x0 x1 x2 _ _ _ _ _ _ j i e0 e1 e2

/-- The printed index maps, decided over the grid: the two input blocks and the result block are block `t` of their
    arrays' rows, the bias row is fetched whole. -/
theorem idx_rows : ∀ t : Fin cfg3.N, win3_3.index t (0 : Fin 2) = t.val := (by decide +kernel : ∀ t : Fin grid3.N, _)
theorem idx_cols : ∀ t : Fin cfg3.N, win3_3.index t (1 : Fin 2) = 0 := (by decide +kernel : ∀ t : Fin grid3.N, _)
theorem idx_facts : ∀ t : Fin cfg3.N, win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = win3_3.index t (1 : Fin 2)
    ∧ win3_2.index t (0 : Fin 2) = 0 ∧ win3_2.index t (1 : Fin 2) = 0 ∧ win3_3.index t (1 : Fin 2) = 0 :=
  (by decide +kernel : ∀ t : Fin grid3.N, _)

/-- What point `t` writes back is block `t` of the host's combination of the arrays as the region finds them, the bias
    row being the reshaped bias vector `bv`. -/
theorem flushed_eq (c : Dev nD) (bv : Vec Ideal S64 .f32) (hsc : S64.ShapeCasts S1x64)
    (hB : V c main_v61 = shapeCast S1x64 bv hsc) (t : Fin cfg3.N) :
    (dat3 V c).flushed 3 t = ((cfg3.win 3).blk t).view.read (Elt Ideal) (Spec.relu64 Ideal (Spec.comb64 Ideal 0x00000000#32 0x3F800000#32 (V c main_v47) (V c main_v60) bv)) := by
  show (cfg3.win 3).cut (grid3.coords t) ((dat3 V c).after 3 t) = _
  rw [after3_3]
  unfold out3_3
  rw [View.canon_unit_zero hz]
  simp only [View.ld_unit_zero (S := S10000x64) hz, View.ld_unit_zero (S := S1x64) hz]
  obtain ⟨e0, e1, e2, e3, e4, e5, e6⟩ := idx_facts t
  funext j
  show k3_pay1 (iblk3 V c 0 t) (iblk3 V c 1 t) (iblk3 V c 2 t) j = (Spec.relu64 Ideal (Spec.comb64 Ideal 0x00000000#32 0x3F800000#32 (V c main_v47) (V c main_v60) bv)) (((cfg3.win 3).blk t).view.emb j)
  refine block_eq (V c main_v47) (V c main_v60) bv (iblk3 V c 0 t) (iblk3 V c 1 t) (iblk3 V c 2 t) j _ ?_ ?_ ?_
  · show V c main_v47 (((cfg3.win 0).blk t).view.emb j) = V c main_v47 (((cfg3.win 3).blk t).view.emb j)
    refine congrArg _ (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  · show V c main_v60 (((cfg3.win 1).blk t).view.emb j) = V c main_v60 (((cfg3.win 3).blk t).view.emb j)
    refine congrArg _ (funext fun a => Fin.ext ?_)
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 64 + 1 * (j 1).val = win3_3.index t (1 : Fin 2) * 64 + 1 * (j 1).val; omega
  · show V c main_v61 (((cfg3.win 2).blk t).view.emb (ix2 (0 : Fin 1) (j 1))) = bv (ix1 ((((cfg3.win 3).blk t).view.emb j) 1))
    have ea : ((cfg3.win 2).blk t).view.emb (ix2 (0 : Fin 1) (j 1)) = ix2 (0 : Fin 1) ((((cfg3.win 3).blk t).view.emb j) 1) :=
      funext fun a => Fin.ext (by
        match a with
        | ⟨0, _⟩ => show win3_2.index t (0 : Fin 2) * 1 + 1 * (0 : Fin 1).val = (0 : Fin 1).val; omega
        | ⟨1, _⟩ => show win3_2.index t (1 : Fin 2) * 64 + 1 * (j 1).val = win3_3.index t (1 : Fin 2) * 64 + 1 * (j 1).val; omega)
    rw [ea, hB]
    exact bias_row_apply bv hsc _

/-- An index of the output array is in point `t`'s block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v62).slice (win3_3.rect t)).set ↔ _
  rw [View.set_slice_whole, Rect.mem_set_unit]
  exact Iff.rfl

/-- Every row of the output array is in the block of the point its row number divided by 10000 names. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have ht : (i 0).val / 10000 < 10 := by omega
  refine ⟨⟨(i 0).val / 10000, ht⟩, flush3_3 _, ?_⟩
  rw [mem_blk]
  have hr := (idx_rows ⟨(i 0).val / 10000, ht⟩)
  have hc := (idx_cols ⟨(i 0).val / 10000, ht⟩)
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [hc]; omega

/-- The result array after the region: the host's combination of the arrays as the region finds them. -/
theorem final (c : Dev nD) (bv : Vec Ideal S64 .f32) (hsc : S64.ShapeCasts S1x64) (hB : V c main_v61 = shapeCast S1x64 bv hsc) :
    (dat3 V c).arrAt 3 cfg3.N = Spec.relu64 Ideal (Spec.comb64 Ideal 0x00000000#32 0x3F800000#32 (V c main_v47) (V c main_v60) bv) :=
  (dat3 V c).arrAt_eq_of_cover 3 _ (fun t _ => flushed_eq V c bv hsc hB t) cover

end Cert.KernelIdeal.Region3

end
-- ==== Proof.Region4.lean ====
/-
  Region 4: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x64_S64x64_S10000x64_1_0_0_1_n_n : DotDims (Mat 10000 64) (Mat 64 64) (Mat 10000 64)) := contracts_of_lists _ rfl rfl rfl rfl rfl rfl
theorem hD : Contracts (Cert.ReferenceIdeal.dot_S100000x64_S64x64_S100000x64_1_0_0_1_n_n : DotDims (Mat 100000 64) (Mat 64 64) (Mat 100000 64)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x64 .f32) (W : Vec Ideal S64x64 .f32) (x0 : Vec Ideal S10000x64 .f32) (x1 : Vec Ideal S64x64 .f32)
    (j : S10000x64.Idx) (i : S100000x64.Idx)
    (hx : ∀ q : Fin 64, x0 (ix2 (j 0) q) = X (ix2 (i 0) q)) (hw : ∀ q : Fin 64, x1 (ix2 q (j 1)) = W (ix2 q (i 1))) :
    k4_pay1 x0 x1 j = Spec.lin64x64 Ideal X W i := by
  unfold k4_pay1 Spec.lin64x64
  exact dense_block_cast hd hD _ X W x0 x1 _ _ j i hx hw

/-- The printed index maps, decided over the grid: the feature block and the result block are block `t` of their arrays'
    rows, the weights are fetched whole. -/
theorem idx_rows : ∀ t : Fin cfg4.N, win4_2.index t (0 : Fin 2) = t.val := (by decide +kernel : ∀ t : Fin grid4.N, _)
theorem idx_cols : ∀ t : Fin cfg4.N, win4_2.index t (1 : Fin 2) = 0 := (by decide +kernel : ∀ t : Fin grid4.N, _)
theorem idx_facts : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 :=
  (by decide +kernel : ∀ t : Fin grid4.N, _)

/-- What point `t` writes back is block `t` of the whole product of the arrays as the region finds them. -/
theorem flushed_eq (c : Dev nD) (t : Fin cfg4.N) :
    (dat4 V c).flushed 2 t = ((cfg4.win 2).blk t).view.read (Elt Ideal) (Spec.lin64x64 Ideal (V c main_v62) (V c main_arg6)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨e0, e1, e2, e3, e4⟩ := idx_facts t
  funext j
  show k4_pay1 (iblk4 V c 0 t) (iblk4 V c 1 t) j = Spec.lin64x64 Ideal (V c main_v62) (V c main_arg6) (((cfg4.win 2).blk t).view.emb j)
  refine block_eq (V c main_v62) (V c main_arg6) (iblk4 V c 0 t) (iblk4 V c 1 t) j _ (fun q => ?_) (fun q => ?_)
  · show V c main_v62 (((cfg4.win 0).blk t).view.emb (ix2 (j 0) q)) = V c main_v62 (ix2 ((((cfg4.win 2).blk t).view.emb j) 0) q)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * q.val = q.val; omega
  · show V c main_arg6 (((cfg4.win 1).blk t).view.emb (ix2 q (j 1))) = V c main_arg6 (ix2 q ((((cfg4.win 2).blk t).view.emb j) 1))
    refine congrArg _ (funext fun a => Fin.ext ?_)
    match a with
    | ⟨0, _⟩ => show win4_1.index t (0 : Fin 2) * 64 + 1 * q.val = q.val; omega
    | ⟨1, _⟩ => show win4_1.index t (1 : Fin 2) * 64 + 1 * (j 1).val = win4_2.index t (1 : Fin 2) * 64 + 1 * (j 1).val; omega

/-- An index of the output array is in point `t`'s block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v63).slice (win4_2.rect t)).set ↔ _
  rw [View.set_slice_whole, Rect.mem_set_unit]
  exact Iff.rfl

/-- Every row of the output array is in the block of the point its row number divided by 10000 names. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 10000 < 10 := by omega
  refine ⟨⟨(i 0).val / 10000, ht⟩, flush4_2 _, ?_⟩
  rw [mem_blk]
  have hr := (idx_rows ⟨(i 0).val / 10000, ht⟩)
  have hc := (idx_cols ⟨(i 0).val / 10000, ht⟩)
  intro a
  match a with
  | ⟨0, _⟩ =>
    show win4_2.index ⟨(i 0).val / 10000, ht⟩ (0 : Fin 2) * 10000 ≤ (i 0).val ∧ (i 0).val < win4_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val ∧ (i 1).val < win4_2.index ⟨(i 0).val / 10000, ht⟩ (1 : Fin 2) * 64 + 64
    rw [hc]; omega

/-- The result array after the region: the host's product of the node features and the weights as the region finds them. -/
theorem final (c : Dev nD) : (dat4 V c).arrAt 2 cfg4.N = Spec.lin64x64 Ideal (V c main_v62) (V c main_arg6) :=
  (dat4 V c).arrAt_eq_of_cover 2 _ (fun t _ => flushed_eq V c t) cover

end Cert.KernelIdeal.Region4

end
-- ==== Proof.Region5.lean ====
/-
  Region 5: the combination c₁ · hw + c₂ · agg + bias, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region5

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x64 .f32) (b : Vec Ideal S64 .f32) (x0 x1 : Vec Ideal S10000x64 .f32) (x2 : Vec Ideal S1x64 .f32)
    (j : S10000x64.Idx) (i : S100000x64.Idx) (e0 : x0 j = HW i) (e1 : x1 j = AGG i)
    (e2 : x2 (ix2 (0 : Fin 1) (j 1)) = b (ix1 (i 1))) :
    k5_pay1 x0 x1 x2 j = Spec.comb64 Ideal 0x00000000#32 0x3F800000#32 HW AGG b i := by
  unfold k5_pay1 Spec.comb64
  exact combine_block 0x00000000#32 0x3F800000#32 HW AGG b x0 x1 x2 _ _ _ _ _ _ j i e0 e1 e2

/-- The printed index maps, decided over the grid: the two input blocks and the result block are block `t` of their
    arrays' rows, the bias row is fetched whole. -/
theorem idx_rows : ∀ t : Fin cfg5.N, win5_3.index t (0 : Fin 2) = t.val := (by decide +kernel : ∀ t : Fin grid5.N, _)
theorem idx_cols : ∀ t : Fin cfg5.N, win5_3.index t (1 : Fin 2) = 0 := (by decide +kernel : ∀ t : Fin grid5.N, _)
theorem idx_facts : ∀ t : Fin cfg5.N, win5_0.index t (0 : Fin 2) = win5_3.index t (0 : Fin 2) ∧ win5_0.index t (1 : Fin 2) = win5_3.index t (1 : Fin 2)
    ∧ win5_1.index t (0 : Fin 2) = win5_3.index t (0 : Fin 2) ∧ win5_1.index t (1 : Fin 2) = win5_3.index t (1 : Fin 2)
    ∧ win5_2.index t (0 : Fin 2) = 0 ∧ win5_2.index t (1 : Fin 2) = 0 ∧ win5_3.index t (1 : Fin 2) = 0 :=
  (by decide +kernel : ∀ t : Fin grid5.N, _)

/-- What point `t` writes back is block `t` of the host's combination of the arrays as the region finds them, the bias
    row being the reshaped bias vector `bv`. -/
theorem flushed_eq (c : Dev nD) (bv : Vec Ideal S64 .f32) (hsc : S64.ShapeCasts S1x64)
    (hB : V c main_v77 = shapeCast S1x64 bv hsc) (t : Fin cfg5.N) :
    (dat5 V c).flushed 3 t = ((cfg5.win 3).blk t).view.read (Elt Ideal) (Spec.comb64 Ideal 0x00000000#32 0x3F800000#32 (V c main_v63) (V c main_v76) bv) := by
  show (cfg5.win 3).cut (grid5.coords t) ((dat5 V c).after 3 t) = _
  rw [after5_3]
  unfold out5_3
  rw [View.canon_unit_zero hz]
  simp only [View.ld_unit_zero (S := S10000x64) hz, View.ld_unit_zero (S := S1x64) hz]
  obtain ⟨e0, e1, e2, e3, e4, e5, e6⟩ := idx_facts t
  funext j
  show k5_pay1 (iblk5 V c 0 t) (iblk5 V c 1 t) (iblk5 V c 2 t) j = (Spec.comb64 Ideal 0x00000000#32 0x3F800000#32 (V c main_v63) (V c main_v76) bv) (((cfg5.win 3).blk t).view.emb j)
  refine block_eq (V c main_v63) (V c main_v76) bv (iblk5 V c 0 t) (iblk5 V c 1 t) (iblk5 V c 2 t) j _ ?_ ?_ ?_
  · show V c main_v63 (((cfg5.win 0).blk t).view.emb j) = V c main_v63 (((cfg5.win 3).blk t).view.emb j)
    refine congrArg _ (funext fun a => Fin.ext ?_)
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 64 + 1 * (j 1).val = win5_3.index t (1 : Fin 2) * 64 + 1 * (j 1).val; omega
  · show V c main_v76 (((cfg5.win 1).blk t).view.emb j) = V c main_v76 (((cfg5.win 3).blk t).view.emb j)
    refine congrArg _ (funext fun a => Fin.ext ?_)
    match a with
    | ⟨0, _⟩ => show win5_1.index t (0 : Fin 2) * 10000 + 1 * (j 0).val = win5_3.index t (0 : Fin 2) * 10000 + 1 * (j 0).val; omega
    | ⟨1, _⟩ => show win5_1.index t (1 : Fin 2) * 64 + 1 * (j 1).val = win5_3.index t (1 : Fin 2) * 64 + 1 * (j 1).val; omega
  · show V c main_v77 (((cfg5.win 2).blk t).view.emb (ix2 (0 : Fin 1) (j 1))) = bv (ix1 ((((cfg5.win 3).blk t).view.emb j) 1))
    have ea : ((cfg5.win 2).blk t).view.emb (ix2 (0 : Fin 1) (j 1)) = ix2 (0 : Fin 1) ((((cfg5.win 3).blk t).view.emb j) 1) :=
      funext fun a => Fin.ext (by
        match a with
        | ⟨0, _⟩ => show win5_2.index t (0 : Fin 2) * 1 + 1 * (0 : Fin 1).val = (0 : Fin 1).val; omega
        | ⟨1, _⟩ => show win5_2.index t (1 : Fin 2) * 64 + 1 * (j 1).val = win5_3.index t (1 : Fin 2) * 64 + 1 * (j 1).val; omega)
    rw [ea, hB]
    exact bias_row_apply bv hsc _

/-- An index of the output array is in point `t`'s block iff each coordinate is in the block's range on its axis. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v78).slice (win5_3.rect t)).set ↔ _
  rw [View.set_slice_whole, Rect.mem_set_unit]
  exact Iff.rfl

/-- Every row of the output array is in the block of the point its row number divided by 10000 names. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have ht : (i 0).val / 10000 < 10 := by omega
  refine ⟨⟨(i 0).val / 10000, ht⟩, flush5_3 _, ?_⟩
  rw [mem_blk]
  have hr := (idx_rows ⟨(i 0).val / 10000, ht⟩)
  have hc := (idx_cols ⟨(i 0).val / 10000, ht⟩)
  intro a
  match a with
  | ⟨0, _⟩ =>
    show win5_3.index ⟨(i 0).val / 10000, ht⟩ (0 : Fin 2) * 10000 ≤ (i 0).val ∧ (i 0).val < win5_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win5_3.index ⟨(i 0).val / 10000, ht⟩ (1 : Fin 2) * 64 ≤ (i 1).val ∧ (i 1).val < win5_3.index ⟨(i 0).val / 10000, ht⟩ (1 : Fin 2) * 64 + 64
    rw [hc]; omega

/-- The result array after the region: the host's combination of the arrays as the region finds them. -/
theorem final (c : Dev nD) (bv : Vec Ideal S64 .f32) (hsc : S64.ShapeCasts S1x64) (hB : V c main_v77 = shapeCast S1x64 bv hsc) :
    (dat5 V c).arrAt 3 cfg5.N = Spec.comb64 Ideal 0x00000000#32 0x3F800000#32 (V c main_v63) (V c main_v76) bv :=
  (dat5 V c).arrAt_eq_of_cover 3 _ (fun t _ => flushed_eq V c bv hsc hB t) cover

end Cert.KernelIdeal.Region5

end
-- ==== Proof.Region6.lean ====
/-
  Region 6: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region6

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x64_S64x64_S10000x64_1_0_0_1_n_n : DotDims (Mat 10000 64) (Mat 64 64) (Mat 10000 64)) := contracts_of_lists _ rfl rfl rfl rfl rfl rfl
theorem hD : Contracts (Cert.ReferenceIdeal.dot_S100000x64_S64x64_S100000x64_1_0_0_1_n_n : DotDims (Mat 100000 64) (Mat 64 64) (Mat 100000 64)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x64 .f32) (W : Vec Ideal S64x64 .f32) (x0 : Vec Ideal S10000x64 .f32) (x1 : Vec Ideal S64x64 .f32)
    (j : S10000x64.Idx) (i : S100000x64.Idx)
    (hx : ∀ q : Fin 64, x0 (ix2 (j 0) q) = X (ix2 (i 0) q)) (hw : ∀ q : Fin 64, x1 (ix2 q (j 1)) = W (ix2 q (i 1))) :
    k6_pay1 x0 x1 j = Spec.lin64x64 Ideal X W i := by
  unfold k6_pay1 Spec.lin64x64
  exact dense_block_cast hd hD _ X W x0 x1 _ _ j i hx hw

/-- The printed index maps, decided over the grid: the feature block and the result block are block `t` of their arrays'
    rows, the weights are fetched whole. -/
theorem idx_rows : ∀ t : Fin cfg6.N, win6_2.index t (0 : Fin 2) = t.val := (by decide +kernel : ∀ t : Fin grid6.N, _)
theorem idx_cols : ∀ t : Fin cfg6.N, win6_2.index t (1 : Fin 2) = 0 := (by decide +kernel : ∀ t : Fin grid6.N, _)
theorem idx_facts : ∀ t : Fin cfg6.N, win6_0.index t (0 : Fin 2) = win6_2.index t (0 : Fin 2) ∧ win6_0.index t (1 : Fin 2) = 0
    ∧ win6_1.index t (0 : Fin 2) = 0 ∧ win6_1.index t (1 : Fin 2) = 0 ∧ win6_2.index t (1 : Fin 2) = 0 :=
  (by decide +kernel : ∀ t : Fin grid6.N, _)

/-- What point `t` writes back is block `t` of the whole product of the arrays as the region finds them. -/
theorem flushed_eq (c : Dev nD) (t : Fin cfg6.N) :
    (dat6 V c).flushed 2 t = ((cfg6.win 2).blk t).view.read (Elt Ideal) (Spec.lin64x64 Ideal (V c main_v78) (V c main_arg8)) := by
  show (cfg6.win 2).cut (grid6.coords t) ((dat6 V c).after 2 t) = _
  rw [after6_2]
  unfold out6_2
  rw [View.canon_unit_zero hz]
  simp only [View.ld_unit_zero (S := S10000x64) hz, View.ld_unit_zero (S := S64x64) hz]
  obtain ⟨e0, e1, e2, e3, e4⟩ := idx_facts t
  funext j
  show k6_pay1 (iblk6 V c 0 t) (iblk6 V c 1 t) j = Spec.lin64x64 Ideal (V c main_v78) (V c main_arg8) (((cfg6.win 2).blk t).view.emb j)
  refine block_eq (V c main_v78) (V c main_arg8) (iblk6 V c 0 t) (iblk6 V c 1 t) j _ (fun q => ?_) (fun q => ?_)
  · show V c main_v78 (((cfg6.win 0).blk t).view.emb (ix2 (j 0) q)) = V c main_v78 (ix2 ((((cfg6.win 2).blk t).view.emb j) 0) q)
    refine congrArg _ (funext fun a => Fin.ext ?_)
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * q.val = q.val; omega
  · show V c main_arg8 (((cfg6.win 1).blk t).view.emb (ix2 q (j 1))) = V c main_arg8 (ix2 q ((((cfg6.win 2).blk t).view.emb j) 1))
    refine congrArg _ (funext fun a => Fin.ext ?_)
    match a with
    | ⟨0, _⟩ => show win6_1.index t (0 : Fin 2) * 64 + 1 * q.val = q.val; omega
    | ⟨1, _⟩ => show win6_1.index t (1 : Fin 2) * 64 + 1 * (j 1).val = win6_2.index t (1 : Fin 2) * 64 + 1 * (j 1).val; omega

/-- An index of the output array is in point `t`'s block iff each coordinate is in the block's range on its axis. -/
theorem mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v79).slice (win6_2.rect t)).set ↔ _
  rw [View.set_slice_whole, Rect.mem_set_unit]
  exact Iff.rfl

/-- Every row of the output array is in the block of the point its row number divided by 10000 names. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have ht : (i 0).val / 10000 < 10 := by omega
  refine ⟨⟨(i 0).val / 10000, ht⟩, flush6_2 _, ?_⟩
  rw [mem_blk]
  have hr := (idx_rows ⟨(i 0).val / 10000, ht⟩)
  have hc := (idx_cols ⟨(i 0).val / 10000, ht⟩)
  intro a
  match a with
  | ⟨0, _⟩ =>
    show win6_2.index ⟨(i 0).val / 10000, ht⟩ (0 : Fin 2) * 10000 ≤ (i 0).val ∧ (i 0).val < win6_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win6_2.index ⟨(i 0).val / 10000, ht⟩ (1 : Fin 2) * 64 ≤ (i 1).val ∧ (i 1).val < win6_2.index ⟨(i 0).val / 10000, ht⟩ (1 : Fin 2) * 64 + 64
    rw [hc]; omega

/-- The result array after the region: the host's product of the node features and the weights as the region finds them. -/
theorem final (c : Dev nD) : (dat6 V c).arrAt 2 cfg6.N = Spec.lin64x64 Ideal (V c main_v78) (V c main_arg8) :=
  (dat6 V c).arrAt_eq_of_cover 2 _ (fun t _ => flushed_eq V c t) cover

end Cert.KernelIdeal.Region6

end
-- ==== Proof.Region7.lean ====
/-
  Region 7: the combination c₁ · hw + c₂ · agg + bias, then the max with 0, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region7

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x64 .f32) (b : Vec Ideal S64 .f32) (x0 x1 : Vec Ideal S10000x64 .f32) (x2 : Vec Ideal S1x64 .f32)
    (j : S10000x64.Idx) (i : S100000x64.Idx) (e0 : x0 j = HW i) (e1 : x1 j = AGG i)
    (e2 : x2 (ix2 (0 : Fin 1) (j 1)) = b (ix1 (i 1))) :
    k7_pay1 x0 x1 x2 j = Spec.relu64 Ideal (Spec.comb64 Ideal 0x3F000000#32 0x3F000000#32 HW AGG b) i := by
  unfold k7_pay1 Spec.relu64 Spec.comb64
  exact combine_relu_block 0x3F000000#32 0x3F000000#32 HW AGG b x0 x1 x2 _ _ _ _ _ _ j i e0 e1 e2

/-- The printed index maps, decided over the grid: the two input blocks and the result block are block `t` of their
    arrays' rows, the bias row is fetched whole. -/
theorem idx_rows : ∀ t : Fin cfg7.N, win7_3.index t (0 : Fin 2) = t.val := (by decide +kernel : ∀ t : Fin grid7.N, _)
theorem idx_cols : ∀ t : Fin cfg7.N, win7_3.index t (1 : Fin 2) = 0 := (by decide +kernel : ∀ t : Fin grid7.N, _)
theorem idx_facts : ∀ t : Fin cfg7.N, win7_0.index t (0 : Fin 2) = win7_3.index t (0 : Fin 2) ∧ win7_0.index t (1 : Fin 2) = win7_3.index t (1 : Fin 2)
    ∧ win7_1.index t (0 : Fin 2) = win7_3.index t (0 : Fin 2) ∧ win7_1.index t (1 : Fin 2) = win7_3.index t (1 : Fin 2)
    ∧ win7_2.index t (0 : Fin 2) = 0 ∧ win7_2.index t (1 : Fin 2) = 0 ∧ win7_3.index t (1 : Fin 2) = 0 :=
  (by decide +kernel : ∀ t : Fin grid7.N, _)

/-- What point `t` writes back is block `t` of the host's combination of the arrays as the region finds them, the bias
    row being the reshaped bias vector `bv`. -/
theorem flushed_eq (c : Dev nD) (bv : Vec Ideal S64 .f32) (hsc : S64.ShapeCasts S1x64)
    (hB : V c main_v93 = shapeCast S1x64 bv hsc) (t : Fin cfg7.N) :
    (dat7 V c).flushed 3 t = ((cfg7.win 3).blk t).view.read (Elt Ideal) (Spec.relu64 Ideal (Spec.comb64 Ideal 0x3F000000#32 0x3F000000#32 (V c main_v79) (V c main_v92) bv)) := by
  show (cfg7.win 3).cut (grid7.coords t) ((dat7 V c).after 3 t) = _
  rw [after7_3]
  unfold out7_3
  rw [View.canon_unit_zero hz]
  simp only [View.ld_unit_zero (S := S10000x64) hz, View.ld_unit_zero (S := S1x64) hz]
  obtain ⟨e0, e1, e2, e3, e4, e5, e6⟩ := idx_facts t
  funext j
  show k7_pay1 (iblk7 V c 0 t) (iblk7 V c 1 t) (iblk7 V c 2 t) j = (Spec.relu64 Ideal (Spec.comb64 Ideal 0x3F000000#32 0x3F000000#32 (V c main_v79) (V c main_v92) bv)) (((cfg7.win 3).blk t).view.emb j)
  refine block_eq (V c main_v79) (V c main_v92) bv (iblk7 V c 0 t) (iblk7 V c 1 t) (iblk7 V c 2 t) j _ ?_ ?_ ?_
  · show V c main_v79 (((cfg7.win 0).blk t).view.emb j) = V c main_v79 (((cfg7.win 3).blk t).view.emb j)
    refine congrArg _ (funext fun a => Fin.ext ?_)
    match a with
    | ⟨0, _⟩ => show win7_0.index t (0 : Fin 2) * 10000 + 1 * (j 0).val = win7_3.index t (0 : Fin 2) * 10000 + 1 * (j 0).val; omega
    | ⟨1, _⟩ => show win7_0.index t (1 : Fin 2) * 64 + 1 * (j 1).val = win7_3.index t (1 : Fin 2) * 64 + 1 * (j 1).val; omega
  · show V c main_v92 (((cfg7.win 1).blk t).view.emb j) = V c main_v92 (((cfg7.win 3).blk t).view.emb j)
    refine congrArg _ (funext fun a => Fin.ext ?_)
    match a with
    | ⟨0, _⟩ => show win7_1.index t (0 : Fin 2) * 10000 + 1 * (j 0).val = win7_3.index t (0 : Fin 2) * 10000 + 1 * (j 0).val; omega
    | ⟨1, _⟩ => show win7_1.index t (1 : Fin 2) * 64 + 1 * (j 1).val = win7_3.index t (1 : Fin 2) * 64 + 1 * (j 1).val; omega
  · show V c main_v93 (((cfg7.win 2).blk t).view.emb (ix2 (0 : Fin 1) (j 1))) = bv (ix1 ((((cfg7.win 3).blk t).view.emb j) 1))
    have ea : ((cfg7.win 2).blk t).view.emb (ix2 (0 : Fin 1) (j 1)) = ix2 (0 : Fin 1) ((((cfg7.win 3).blk t).view.emb j) 1) :=
      funext fun a => Fin.ext (by
        match a with
        | ⟨0, _⟩ => show win7_2.index t (0 : Fin 2) * 1 + 1 * (0 : Fin 1).val = (0 : Fin 1).val; omega
        | ⟨1, _⟩ => show win7_2.index t (1 : Fin 2) * 64 + 1 * (j 1).val = win7_3.index t (1 : Fin 2) * 64 + 1 * (j 1).val; omega)
    rw [ea, hB]
    exact bias_row_apply bv hsc _

/-- An index of the output array is in point `t`'s block iff each coordinate is in the block's range on its axis. -/
theorem mem_blk (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v94).slice (win7_3.rect t)).set ↔ _
  rw [View.set_slice_whole, Rect.mem_set_unit]
  exact Iff.rfl

/-- Every row of the output array is in the block of the point its row number divided by 10000 names. -/
theorem cover (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have ht : (i 0).val / 10000 < 10 := by omega
  refine ⟨⟨(i 0).val / 10000, ht⟩, flush7_3 _, ?_⟩
  rw [mem_blk]
  have hr := (idx_rows ⟨(i 0).val / 10000, ht⟩)
  have hc := (idx_cols ⟨(i 0).val / 10000, ht⟩)
  intro a
  match a with
  | ⟨0, _⟩ =>
    show win7_3.index ⟨(i 0).val / 10000, ht⟩ (0 : Fin 2) * 10000 ≤ (i 0).val ∧ (i 0).val < win7_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win7_3.index ⟨(i 0).val / 10000, ht⟩ (1 : Fin 2) * 64 ≤ (i 1).val ∧ (i 1).val < win7_3.index ⟨(i 0).val / 10000, ht⟩ (1 : Fin 2) * 64 + 64
    rw [hc]; omega

/-- The result array after the region: the host's combination of the arrays as the region finds them. -/
theorem final (c : Dev nD) (bv : Vec Ideal S64 .f32) (hsc : S64.ShapeCasts S1x64) (hB : V c main_v93 = shapeCast S1x64 bv hsc) :
    (dat7 V c).arrAt 3 cfg7.N = Spec.relu64 Ideal (Spec.comb64 Ideal 0x3F000000#32 0x3F000000#32 (V c main_v79) (V c main_v92) bv) :=
  (dat7 V c).arrAt_eq_of_cover 3 _ (fun t _ => flushed_eq V c bv hsc hB t) cover

end Cert.KernelIdeal.Region7

end
-- ==== Proof.Region8.lean ====
/-
  Region 8: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region8

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x64_S64x64_S10000x64_1_0_0_1_n_n : DotDims (Mat 10000 64) (Mat 64 64) (Mat 10000 64)) := contracts_of_lists _ rfl rfl rfl rfl rfl rfl
theorem hD : Contracts (Cert.ReferenceIdeal.dot_S100000x64_S64x64_S100000x64_1_0_0_1_n_n : DotDims (Mat 100000 64) (Mat 64 64) (Mat 100000 64)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x64 .f32) (W : Vec Ideal S64x64 .f32) (x0 : Vec Ideal S10000x64 .f32) (x1 : Vec Ideal S64x64 .f32)
    (j : S10000x64.Idx) (i : S100000x64.Idx)
    (hx : ∀ q : Fin 64, x0 (ix2 (j 0) q) = X (ix2 (i 0) q)) (hw : ∀ q : Fin 64, x1 (ix2 q (j 1)) = W (ix2 q (i 1))) :
    k8_pay1 x0 x1 j = Spec.lin64x64 Ideal X W i := by
  unfold k8_pay1 Spec.lin64x64
  exact dense_block_cast hd hD _ X W x0 x1 _ _ j i hx hw

/-- The printed index maps, decided over the grid: the feature block and the result block are block `t` of their arrays'
    rows, the weights are fetched whole. -/
theorem idx_rows : ∀ t : Fin cfg8.N, win8_2.index t (0 : Fin 2) = t.val := (by decide +kernel : ∀ t : Fin grid8.N, _)
theorem idx_cols : ∀ t : Fin cfg8.N, win8_2.index t (1 : Fin 2) = 0 := (by decide +kernel : ∀ t : Fin grid8.N, _)
theorem idx_facts : ∀ t : Fin cfg8.N, win8_0.index t (0 : Fin 2) = win8_2.index t (0 : Fin 2) ∧ win8_0.index t (1 : Fin 2) = 0
    ∧ win8_1.index t (0 : Fin 2) = 0 ∧ win8_1.index t (1 : Fin 2) = 0 ∧ win8_2.index t (1 : Fin 2) = 0 :=
  (by decide +kernel : ∀ t : Fin grid8.N, _)

/-- What point `t` writes back is block `t` of the whole product of the arrays as the region finds them. -/
theorem flushed_eq (c : Dev nD) (t : Fin cfg8.N) :
    (dat8 V c).flushed 2 t = ((cfg8.win 2).blk t).view.read (Elt Ideal) (Spec.lin64x64 Ideal (V c main_v94) (V c main_arg10)) := by
  show (cfg8.win 2).cut (grid8.coords t) ((dat8 V c).after 2 t) = _
  rw [after8_2]
  unfold out8_2
  rw [View.canon_unit_zero hz]
  simp only [View.ld_unit_zero (S := S10000x64) hz, View.ld_unit_zero (S := S64x64) hz]
  obtain ⟨e0, e1, e2, e3, e4⟩ := idx_facts t
  funext j
  show k8_pay1 (iblk8 V c 0 t) (iblk8 V c 1 t) j = Spec.lin64x64 Ideal (V c main_v94) (V c main_arg10) (((cfg8.win 2).blk t).view.emb j)
  refine block_eq (V c main_v94) (V c main_arg10) (iblk8 V c 0 t) (iblk8 V c 1 t) j _ (fun q => ?_) (fun q => ?_)
  · show V c main_v94 (((cfg8.win 0).blk t).view.emb (ix2 (j 0) q)) = V c main_v94 (ix2 ((((cfg8.win 2).blk t).view.emb j) 0) q)
    refine congrArg _ (funext fun a => Fin.ext ?_)
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * q.val = q.val; omega
  · show V c main_arg10 (((cfg8.win 1).blk t).view.emb (ix2 q (j 1))) = V c main_arg10 (ix2 q ((((cfg8.win 2).blk t).view.emb j) 1))
    refine congrArg _ (funext fun a => Fin.ext ?_)
    match a with
    | ⟨0, _⟩ => show win8_1.index t (0 : Fin 2) * 64 + 1 * q.val = q.val; omega
    | ⟨1, _⟩ => show win8_1.index t (1 : Fin 2) * 64 + 1 * (j 1).val = win8_2.index t (1 : Fin 2) * 64 + 1 * (j 1).val; omega

/-- An index of the output array is in point `t`'s block iff each coordinate is in the block's range on its axis. -/
theorem mem_blk (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v95).slice (win8_2.rect t)).set ↔ _
  rw [View.set_slice_whole, Rect.mem_set_unit]
  exact Iff.rfl

/-- Every row of the output array is in the block of the point its row number divided by 10000 names. -/
theorem cover (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have ht : (i 0).val / 10000 < 10 := by omega
  refine ⟨⟨(i 0).val / 10000, ht⟩, flush8_2 _, ?_⟩
  rw [mem_blk]
  have hr := (idx_rows ⟨(i 0).val / 10000, ht⟩)
  have hc := (idx_cols ⟨(i 0).val / 10000, ht⟩)
  intro a
  match a with
  | ⟨0, _⟩ =>
    show win8_2.index ⟨(i 0).val / 10000, ht⟩ (0 : Fin 2) * 10000 ≤ (i 0).val ∧ (i 0).val < win8_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win8_2.index ⟨(i 0).val / 10000, ht⟩ (1 : Fin 2) * 64 ≤ (i 1).val ∧ (i 1).val < win8_2.index ⟨(i 0).val / 10000, ht⟩ (1 : Fin 2) * 64 + 64
    rw [hc]; omega

/-- The result array after the region: the host's product of the node features and the weights as the region finds them. -/
theorem final (c : Dev nD) : (dat8 V c).arrAt 2 cfg8.N = Spec.lin64x64 Ideal (V c main_v94) (V c main_arg10) :=
  (dat8 V c).arrAt_eq_of_cover 2 _ (fun t _ => flushed_eq V c t) cover

end Cert.KernelIdeal.Region8

end
-- ==== Proof.Region9.lean ====
/-
  Region 9: the combination c₁ · hw + c₂ · agg + bias, then the max with 0, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region9

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x64 .f32) (b : Vec Ideal S64 .f32) (x0 x1 : Vec Ideal S10000x64 .f32) (x2 : Vec Ideal S1x64 .f32)
    (j : S10000x64.Idx) (i : S100000x64.Idx) (e0 : x0 j = HW i) (e1 : x1 j = AGG i)
    (e2 : x2 (ix2 (0 : Fin 1) (j 1)) = b (ix1 (i 1))) :
    k9_pay1 x0 x1 x2 j = Spec.relu64 Ideal (Spec.comb64 Ideal 0x3F000000#32 0x3F000000#32 HW AGG b) i := by
  unfold k9_pay1 Spec.relu64 Spec.comb64
  exact combine_relu_block 0x3F000000#32 0x3F000000#32 HW AGG b x0 x1 x2 _ _ _ _ _ _ j i e0 e1 e2

/-- The printed index maps, decided over the grid: the two input blocks and the result block are block `t` of their
    arrays' rows, the bias row is fetched whole. -/
theorem idx_rows : ∀ t : Fin cfg9.N, win9_3.index t (0 : Fin 2) = t.val := (by decide +kernel : ∀ t : Fin grid9.N, _)
theorem idx_cols : ∀ t : Fin cfg9.N, win9_3.index t (1 : Fin 2) = 0 := (by decide +kernel : ∀ t : Fin grid9.N, _)
theorem idx_facts : ∀ t : Fin cfg9.N, win9_0.index t (0 : Fin 2) = win9_3.index t (0 : Fin 2) ∧ win9_0.index t (1 : Fin 2) = win9_3.index t (1 : Fin 2)
    ∧ win9_1.index t (0 : Fin 2) = win9_3.index t (0 : Fin 2) ∧ win9_1.index t (1 : Fin 2) = win9_3.index t (1 : Fin 2)
    ∧ win9_2.index t (0 : Fin 2) = 0 ∧ win9_2.index t (1 : Fin 2) = 0 ∧ win9_3.index t (1 : Fin 2) = 0 :=
  (by decide +kernel : ∀ t : Fin grid9.N, _)

/-- What point `t` writes back is block `t` of the host's combination of the arrays as the region finds them, the bias
    row being the reshaped bias vector `bv`. -/
theorem flushed_eq (c : Dev nD) (bv : Vec Ideal S64 .f32) (hsc : S64.ShapeCasts S1x64)
    (hB : V c main_v109 = shapeCast S1x64 bv hsc) (t : Fin cfg9.N) :
    (dat9 V c).flushed 3 t = ((cfg9.win 3).blk t).view.read (Elt Ideal) (Spec.relu64 Ideal (Spec.comb64 Ideal 0x3F000000#32 0x3F000000#32 (V c main_v95) (V c main_v108) bv)) := by
  show (cfg9.win 3).cut (grid9.coords t) ((dat9 V c).after 3 t) = _
  rw [after9_3]
  unfold out9_3
  rw [View.canon_unit_zero hz]
  simp only [View.ld_unit_zero (S := S10000x64) hz, View.ld_unit_zero (S := S1x64) hz]
  obtain ⟨e0, e1, e2, e3, e4, e5, e6⟩ := idx_facts t
  funext j
  show k9_pay1 (iblk9 V c 0 t) (iblk9 V c 1 t) (iblk9 V c 2 t) j = (Spec.relu64 Ideal (Spec.comb64 Ideal 0x3F000000#32 0x3F000000#32 (V c main_v95) (V c main_v108) bv)) (((cfg9.win 3).blk t).view.emb j)
  refine block_eq (V c main_v95) (V c main_v108) bv (iblk9 V c 0 t) (iblk9 V c 1 t) (iblk9 V c 2 t) j _ ?_ ?_ ?_
  · show V c main_v95 (((cfg9.win 0).blk t).view.emb j) = V c main_v95 (((cfg9.win 3).blk t).view.emb j)
    refine congrArg _ (funext fun a => Fin.ext ?_)
    match a with
    | ⟨0, _⟩ => show win9_0.index t (0 : Fin 2) * 10000 + 1 * (j 0).val = win9_3.index t (0 : Fin 2) * 10000 + 1 * (j 0).val; omega
    | ⟨1, _⟩ => show win9_0.index t (1 : Fin 2) * 64 + 1 * (j 1).val = win9_3.index t (1 : Fin 2) * 64 + 1 * (j 1).val; omega
  · show V c main_v108 (((cfg9.win 1).blk t).view.emb j) = V c main_v108 (((cfg9.win 3).blk t).view.emb j)
    refine congrArg _ (funext fun a => Fin.ext ?_)
    match a with
    | ⟨0, _⟩ => show win9_1.index t (0 : Fin 2) * 10000 + 1 * (j 0).val = win9_3.index t (0 : Fin 2) * 10000 + 1 * (j 0).val; omega
    | ⟨1, _⟩ => show win9_1.index t (1 : Fin 2) * 64 + 1 * (j 1).val = win9_3.index t (1 : Fin 2) * 64 + 1 * (j 1).val; omega
  · show V c main_v109 (((cfg9.win 2).blk t).view.emb (ix2 (0 : Fin 1) (j 1))) = bv (ix1 ((((cfg9.win 3).blk t).view.emb j) 1))
    have ea : ((cfg9.win 2).blk t).view.emb (ix2 (0 : Fin 1) (j 1)) = ix2 (0 : Fin 1) ((((cfg9.win 3).blk t).view.emb j) 1) :=
      funext fun a => Fin.ext (by
        match a with
        | ⟨0, _⟩ => show win9_2.index t (0 : Fin 2) * 1 + 1 * (0 : Fin 1).val = (0 : Fin 1).val; omega
        | ⟨1, _⟩ => show win9_2.index t (1 : Fin 2) * 64 + 1 * (j 1).val = win9_3.index t (1 : Fin 2) * 64 + 1 * (j 1).val; omega)
    rw [ea, hB]
    exact bias_row_apply bv hsc _

/-- An index of the output array is in point `t`'s block iff each coordinate is in the block's range on its axis. -/
theorem mem_blk (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v110).slice (win9_3.rect t)).set ↔ _
  rw [View.set_slice_whole, Rect.mem_set_unit]
  exact Iff.rfl

/-- Every row of the output array is in the block of the point its row number divided by 10000 names. -/
theorem cover (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have ht : (i 0).val / 10000 < 10 := by omega
  refine ⟨⟨(i 0).val / 10000, ht⟩, flush9_3 _, ?_⟩
  rw [mem_blk]
  have hr := (idx_rows ⟨(i 0).val / 10000, ht⟩)
  have hc := (idx_cols ⟨(i 0).val / 10000, ht⟩)
  intro a
  match a with
  | ⟨0, _⟩ =>
    show win9_3.index ⟨(i 0).val / 10000, ht⟩ (0 : Fin 2) * 10000 ≤ (i 0).val ∧ (i 0).val < win9_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win9_3.index ⟨(i 0).val / 10000, ht⟩ (1 : Fin 2) * 64 ≤ (i 1).val ∧ (i 1).val < win9_3.index ⟨(i 0).val / 10000, ht⟩ (1 : Fin 2) * 64 + 64
    rw [hc]; omega

/-- The result array after the region: the host's combination of the arrays as the region finds them. -/
theorem final (c : Dev nD) (bv : Vec Ideal S64 .f32) (hsc : S64.ShapeCasts S1x64) (hB : V c main_v109 = shapeCast S1x64 bv hsc) :
    (dat9 V c).arrAt 3 cfg9.N = Spec.relu64 Ideal (Spec.comb64 Ideal 0x3F000000#32 0x3F000000#32 (V c main_v95) (V c main_v108) bv) :=
  (dat9 V c).arrAt_eq_of_cover 3 _ (fun t _ => flushed_eq V c bv hsc hB t) cover

end Cert.KernelIdeal.Region9

end
-- ==== Proof.Region10.lean ====
/-
  Region 10: a dense product, ten blocks of 10000 rows.

  At each grid point the kernel loads rows 10000·t … 10000·t + 9999 of the node features and the whole weight matrix,
  multiplies them into a zero accumulator and writes the product back as the same rows of the result. A row of a
  product depends on that row of the left operand only, so the ten blocks are the rows of ONE product of the whole
  arrays: the host's `dot_general`.
-/
import proofs.«162297_j20255065768607_1_alg».proof.Proof.Gen.KernelIdeal.Frame
import proofs.«162297_j20255065768607_1_alg».proof.Proof.Spec
import proofs.«162297_j20255065768607_1_alg».proof.Proof.LibConvBlocks
import proofs.«162297_j20255065768607_1_alg».proof.Proof.LibDotLists
set_option maxRecDepth 16384

noncomputable section

namespace Cert.KernelIdeal.Region10

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The block's and the whole arrays' dimension records are those of a plain product. -/
theorem hd : Contracts (dot_S10000x64_S64x128_S10000x128_1_0_0_1_n_n : DotDims (Mat 10000 64) (Mat 64 128) (Mat 10000 128)) := contracts_of_lists _ rfl rfl rfl rfl rfl rfl
theorem hD : Contracts (Cert.ReferenceIdeal.dot_S100000x64_S64x128_S100000x128_1_0_0_1_n_n : DotDims (Mat 100000 64) (Mat 64 128) (Mat 100000 128)) := contracts_of_lists _ rfl rfl rfl rfl rfl rfl

/-- Entry `j` of a block's body is entry `i` of the whole product, when row `j 0` of the block is row `i 0` of the node
    features and column `j 1` of the loaded weights is column `i 1` of the weights. -/
theorem block_eq (X : Vec Ideal S100000x64 .f32) (W : Vec Ideal S64x128 .f32) (x0 : Vec Ideal S10000x64 .f32) (x1 : Vec Ideal S64x128 .f32)
    (j : S10000x128.Idx) (i : S100000x128.Idx)
    (hx : ∀ q : Fin 64, x0 (ix2 (j 0) q) = X (ix2 (i 0) q)) (hw : ∀ q : Fin 64, x1 (ix2 q (j 1)) = W (ix2 q (i 1))) :
    k10_pay1 x0 x1 j = Spec.lin64x128 Ideal X W i := by
  unfold k10_pay1 Spec.lin64x128
  exact dense_block_cast hd hD _ X W x0 x1 _ _ j i hx hw

/-- The printed index maps, decided over the grid: the feature block and the result block are block `t` of their arrays'
    rows, the weights are fetched whole. -/
theorem idx_rows : ∀ t : Fin cfg10.N, win10_2.index t (0 : Fin 2) = t.val := (by decide +kernel : ∀ t : Fin grid10.N, _)
theorem idx_cols : ∀ t : Fin cfg10.N, win10_2.index t (1 : Fin 2) = 0 := (by decide +kernel : ∀ t : Fin grid10.N, _)
theorem idx_facts : ∀ t : Fin cfg10.N, win10_0.index t (0 : Fin 2) = win10_2.index t (0 : Fin 2) ∧ win10_0.index t (1 : Fin 2) = 0
    ∧ win10_1.index t (0 : Fin 2) = 0 ∧ win10_1.index t (1 : Fin 2) = 0 ∧ win10_2.index t (1 : Fin 2) = 0 :=
  (by decide +kernel : ∀ t : Fin grid10.N, _)

/-- What point `t` writes back is block `t` of the whole product of the arrays as the region finds them. -/
theorem flushed_eq (c : Dev nD) (t : Fin cfg10.N) :
    (dat10 V c).flushed 2 t = ((cfg10.win 2).blk t).view.read (Elt Ideal) (Spec.lin64x128 Ideal (V c main_v110) (V c main_arg12)) := by
  show (cfg10.win 2).cut (grid10.coords t) ((dat10 V c).after 2 t) = _
  rw [after10_2]
  unfold out10_2
  rw [View.canon_unit_zero hz]
  simp only [View.ld_unit_zero (S := S10000x64) hz, View.ld_unit_zero (S := S64x128) hz]
  obtain ⟨e0, e1, e2, e3, e4⟩ := idx_facts t
  funext j
  show k10_pay1 (iblk10 V c 0 t) (iblk10 V c 1 t) j = Spec.lin64x128 Ideal (V c main_v110) (V c main_arg12) (((cfg10.win 2).blk t).view.emb j)
  refine block_eq (V c main_v110) (V c main_arg12) (iblk10 V c 0 t) (iblk10 V c 1 t) j _ (fun q => ?_) (fun q => ?_)
  · show V c main_v110 (((cfg10.win 0).blk t).view.emb (ix2 (j 0) q)) = V c main_v110 (ix2 ((((cfg10.win 2).blk t).view.emb j) 0) q)
    refine congrArg _ (funext fun a => Fin.ext ?_)
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 64 + 1 * q.val = q.val; omega
  · show V c main_arg12 (((cfg10.win 1).blk t).view.emb (ix2 q (j 1))) = V c main_arg12 (ix2 q ((((cfg10.win 2).blk t).view.emb j) 1))
    refine congrArg _ (funext fun a => Fin.ext ?_)
    match a with
    | ⟨0, _⟩ => show win10_1.index t (0 : Fin 2) * 64 + 1 * q.val = q.val; omega
    | ⟨1, _⟩ => show win10_1.index t (1 : Fin 2) * 128 + 1 * (j 1).val = win10_2.index t (1 : Fin 2) * 128 + 1 * (j 1).val; omega

/-- An index of the output array is in point `t`'s block iff each coordinate is in the block's range on its axis. -/
theorem mem_blk (t : Fin cfg10.N) (i : S100000x128.Idx) :
    i ∈ ((cfg10.win 2).blk t).view.set ↔ ∀ a : Fin 2, win10_2.index t a * S10000x128.size a ≤ (i a).val ∧ (i a).val < win10_2.index t a * S10000x128.size a + S10000x128.size a := by
  show i ∈ ((View.whole main_v111).slice (win10_2.rect t)).set ↔ _
  rw [View.set_slice_whole, Rect.mem_set_unit]
  exact Iff.rfl

/-- Every row of the output array is in the block of the point its row number divided by 10000 names. -/
theorem cover (i : S100000x128.Idx) : ∃ t : Fin cfg10.N, (cfg10.win 2).flush t = true ∧ i ∈ ((cfg10.win 2).blk t).view.set := by
  have hi0 : (i 0).val < 100000 := (i 0).isLt
  have hi1 : (i 1).val < 128 := (i 1).isLt
  have ht : (i 0).val / 10000 < 10 := by omega
  refine ⟨⟨(i 0).val / 10000, ht⟩, flush10_2 _, ?_⟩
  rw [mem_blk]
  have hr := (idx_rows ⟨(i 0).val / 10000, ht⟩)
  have hc := (idx_cols ⟨(i 0).val / 10000, ht⟩)
  intro a
  match a with
  | ⟨0, _⟩ =>
    show win10_2.index ⟨(i 0).val / 10000, ht⟩ (0 : Fin 2) * 10000 ≤ (i 0).val ∧ (i 0).val < win10_2.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win10_2.index ⟨(i 0).val / 10000, ht⟩ (1 : Fin 2) * 128 ≤ (i 1).val ∧ (i 1).val < win10_2.index ⟨(i 0).val / 10000, ht⟩ (1 : Fin 2) * 128 + 128
    rw [hc]; omega

/-- The result array after the region: the host's product of the node features and the weights as the region finds them. -/
theorem final (c : Dev nD) : (dat10 V c).arrAt 2 cfg10.N = Spec.lin64x128 Ideal (V c main_v110) (V c main_arg12) :=
  (dat10 V c).arrAt_eq_of_cover 2 _ (fun t _ => flushed_eq V c t) cover

end Cert.KernelIdeal.Region10

end
-- ==== Proof.Region11.lean ====
/-
  Region 11: the combination c₁ · hw + c₂ · agg + bias, ten blocks of 10000 rows.

  At each grid point the kernel loads rows 10000·t … 10000·t + 9999 of the dense product and of the aggregated messages
  and the bias row, combines them entry by entry and writes the same rows of the result back. The bias row is the bias
  vector reshaped to one row; entry (r, q) of the result depends on entry (r, q) of the two arrays and entry q of
  the bias only, so the ten blocks are the rows of the host's whole-array combination.
-/
import proofs.«162297_j20255065768607_1_alg».proof.Proof.Gen.KernelIdeal.Frame
import proofs.«162297_j20255065768607_1_alg».proof.Proof.Spec
import proofs.«162297_j20255065768607_1_alg».proof.Proof.LibConvBlocks

set_option maxRecDepth 16384

noncomputable section

namespace Cert.KernelIdeal.Region11

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Linear Cert.Layers

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `j` of a block's body is entry `i` of the host's combination, when the block's entries at `j` are the arrays'
    at `i` and the bias row's entry in column `j 1` is the bias vector's in column `i 1`. -/
theorem block_eq (HW AGG : Vec Ideal S100000x128 .f32) (b : Vec Ideal S128 .f32) (x0 x1 : Vec Ideal S10000x128 .f32) (x2 : Vec Ideal S1x128 .f32)
    (j : S10000x128.Idx) (i : S100000x128.Idx) (e0 : x0 j = HW i) (e1 : x1 j = AGG i)
    (e2 : x2 (ix2 (0 : Fin 1) (j 1)) = b (ix1 (i 1))) :
    k11_pay1 x0 x1 x2 j = Spec.comb128 Ideal 0x3F000000#32 0x3F000000#32 HW AGG b i := by
  unfold k11_pay1 Spec.comb128
  exact combine_block 0x3F000000#32 0x3F000000#32 HW AGG b x0 x1 x2 _ _ _ _ _ _ j i e0 e1 e2

/-- The printed index maps, decided over the grid: the two input blocks and the result block are block `t` of their
    arrays' rows, the bias row is fetched whole. -/
theorem idx_rows : ∀ t : Fin cfg11.N, win11_3.index t (0 : Fin 2) = t.val := (by decide +kernel : ∀ t : Fin grid11.N, _)
theorem idx_cols : ∀ t : Fin cfg11.N, win11_3.index t (1 : Fin 2) = 0 := (by decide +kernel : ∀ t : Fin grid11.N, _)
theorem idx_facts : ∀ t : Fin cfg11.N, win11_0.index t (0 : Fin 2) = win11_3.index t (0 : Fin 2) ∧ win11_0.index t (1 : Fin 2) = win11_3.index t (1 : Fin 2)
    ∧ win11_1.index t (0 : Fin 2) = win11_3.index t (0 : Fin 2) ∧ win11_1.index t (1 : Fin 2) = win11_3.index t (1 : Fin 2)
    ∧ win11_2.index t (0 : Fin 2) = 0 ∧ win11_2.index t (1 : Fin 2) = 0 ∧ win11_3.index t (1 : Fin 2) = 0 :=
  (by decide +kernel : ∀ t : Fin grid11.N, _)

/-- What point `t` writes back is block `t` of the host's combination of the arrays as the region finds them, the bias
    row being the reshaped bias vector `bv`. -/
theorem flushed_eq (c : Dev nD) (bv : Vec Ideal S128 .f32) (hsc : S128.ShapeCasts S1x128)
    (hB : V c main_v125 = shapeCast S1x128 bv hsc) (t : Fin cfg11.N) :
    (dat11 V c).flushed 3 t = ((cfg11.win 3).blk t).view.read (Elt Ideal) (Spec.comb128 Ideal 0x3F000000#32 0x3F000000#32 (V c main_v111) (V c main_v124) bv) := by
  show (cfg11.win 3).cut (grid11.coords t) ((dat11 V c).after 3 t) = _
  rw [after11_3]
  unfold out11_3
  rw [View.canon_unit_zero hz]
  simp only [View.ld_unit_zero (S := S10000x128) hz, View.ld_unit_zero (S := S1x128) hz]
  obtain ⟨e0, e1, e2, e3, e4, e5, e6⟩ := idx_facts t
  funext j
  show k11_pay1 (iblk11 V c 0 t) (iblk11 V c 1 t) (iblk11 V c 2 t) j = (Spec.comb128 Ideal 0x3F000000#32 0x3F000000#32 (V c main_v111) (V c main_v124) bv) (((cfg11.win 3).blk t).view.emb j)
  refine block_eq (V c main_v111) (V c main_v124) bv (iblk11 V c 0 t) (iblk11 V c 1 t) (iblk11 V c 2 t) j _ ?_ ?_ ?_
  · show V c main_v111 (((cfg11.win 0).blk t).view.emb j) = V c main_v111 (((cfg11.win 3).blk t).view.emb j)
    refine congrArg _ (funext fun a => Fin.ext ?_)
    match a with
    | ⟨0, _⟩ => show win11_0.index t (0 : Fin 2) * 10000 + 1 * (j 0).val = win11_3.index t (0 : Fin 2) * 10000 + 1 * (j 0).val; omega
    | ⟨1, _⟩ => show win11_0.index t (1 : Fin 2) * 128 + 1 * (j 1).val = win11_3.index t (1 : Fin 2) * 128 + 1 * (j 1).val; omega
  · show V c main_v124 (((cfg11.win 1).blk t).view.emb j) = V c main_v124 (((cfg11.win 3).blk t).view.emb j)
    refine congrArg _ (funext fun a => Fin.ext ?_)
    match a with
    | ⟨0, _⟩ => show win11_1.index t (0 : Fin 2) * 10000 + 1 * (j 0).val = win11_3.index t (0 : Fin 2) * 10000 + 1 * (j 0).val; omega
    | ⟨1, _⟩ => show win11_1.index t (1 : Fin 2) * 128 + 1 * (j 1).val = win11_3.index t (1 : Fin 2) * 128 + 1 * (j 1).val; omega
  · show V c main_v125 (((cfg11.win 2).blk t).view.emb (ix2 (0 : Fin 1) (j 1))) = bv (ix1 ((((cfg11.win 3).blk t).view.emb j) 1))
    have ea : ((cfg11.win 2).blk t).view.emb (ix2 (0 : Fin 1) (j 1)) = ix2 (0 : Fin 1) ((((cfg11.win 3).blk t).view.emb j) 1) :=
      funext fun a => Fin.ext (by
        match a with
        | ⟨0, _⟩ => show win11_2.index t (0 : Fin 2) * 1 + 1 * (0 : Fin 1).val = (0 : Fin 1).val; omega
        | ⟨1, _⟩ => show win11_2.index t (1 : Fin 2) * 128 + 1 * (j 1).val = win11_3.index t (1 : Fin 2) * 128 + 1 * (j 1).val; omega)
    rw [ea, hB]
    exact bias_row_apply bv hsc _

/-- An index of the output array is in point `t`'s block iff each coordinate is in the block's range on its axis. -/
theorem mem_blk (t : Fin cfg11.N) (i : S100000x128.Idx) :
    i ∈ ((cfg11.win 3).blk t).view.set ↔ ∀ a : Fin 2, win11_3.index t a * S10000x128.size a ≤ (i a).val ∧ (i a).val < win11_3.index t a * S10000x128.size a + S10000x128.size a := by
  show i ∈ ((View.whole main_v126).slice (win11_3.rect t)).set ↔ _
  rw [View.set_slice_whole, Rect.mem_set_unit]
  exact Iff.rfl

/-- Every row of the output array is in the block of the point its row number divided by 10000 names. -/
theorem cover (i : S100000x128.Idx) : ∃ t : Fin cfg11.N, (cfg11.win 3).flush t = true ∧ i ∈ ((cfg11.win 3).blk t).view.set := by
  have hi0 : (i 0).val < 100000 := (i 0).isLt
  have hi1 : (i 1).val < 128 := (i 1).isLt
  have ht : (i 0).val / 10000 < 10 := by omega
  refine ⟨⟨(i 0).val / 10000, ht⟩, flush11_3 _, ?_⟩
  rw [mem_blk]
  have hr := (idx_rows ⟨(i 0).val / 10000, ht⟩)
  have hc := (idx_cols ⟨(i 0).val / 10000, ht⟩)
  intro a
  match a with
  | ⟨0, _⟩ =>
    show win11_3.index ⟨(i 0).val / 10000, ht⟩ (0 : Fin 2) * 10000 ≤ (i 0).val ∧ (i 0).val < win11_3.index ⟨(i 0).val / 10000, ht⟩ (0 : Fin 2) * 10000 + 10000
    rw [hr]; show (i 0).val / 10000 * 10000 ≤ (i 0).val ∧ (i 0).val < (i 0).val / 10000 * 10000 + 10000; omega
  | ⟨1, _⟩ =>
    show win11_3.index ⟨(i 0).val / 10000, ht⟩ (1 : Fin 2) * 128 ≤ (i 1).val ∧ (i 1).val < win11_3.index ⟨(i 0).val / 10000, ht⟩ (1 : Fin 2) * 128 + 128
    rw [hc]; omega

/-- The result array after the region: the host's combination of the arrays as the region finds them. -/
theorem final (c : Dev nD) (bv : Vec Ideal S128 .f32) (hsc : S128.ShapeCasts S1x128) (hB : V c main_v125 = shapeCast S1x128 bv hsc) :
    (dat11 V c).arrAt 3 cfg11.N = Spec.comb128 Ideal 0x3F000000#32 0x3F000000#32 (V c main_v111) (V c main_v124) bv :=
  (dat11 V c).arrAt_eq_of_cover 3 _ (fun t _ => flushed_eq V c bv hsc hB t) cover

end Cert.KernelIdeal.Region11

end
-- ==== Proof.KernelChain.lean ====
/-
  The idealized kernel's buffers, boundary by boundary.

  The run's fold from the launch memory is read at the buffers the later steps need: after the graph's normalisation
  the sources, targets and edge weights; after each dense region the layer's product `h · W` (the ten blocks of rows
  are one product of the whole arrays); after each host stretch the product's aggregated messages and the bias as one
  row; after each combine region the layer's output. A buffer a step does not write keeps its contents through it: a host
  stretch writes only its own results, a region only its output array. At the last boundary the embedding is what the
  encoder's three layers compute from the arguments and the reconstruction what the decoder's three compute from it.
-/
import proofs.«162297_j20255065768607_1_alg».proof.Proof.KernelHost
import proofs.«162297_j20255065768607_1_alg».proof.Proof.Region0
import proofs.«162297_j20255065768607_1_alg».proof.Proof.Region1
import proofs.«162297_j20255065768607_1_alg».proof.Proof.Region2
import proofs.«162297_j20255065768607_1_alg».proof.Proof.Region3
import proofs.«162297_j20255065768607_1_alg».proof.Proof.Region4
import proofs.«162297_j20255065768607_1_alg».proof.Proof.Region5
import proofs.«162297_j20255065768607_1_alg».proof.Proof.Region6
import proofs.«162297_j20255065768607_1_alg».proof.Proof.Region7
import proofs.«162297_j20255065768607_1_alg».proof.Proof.Region8
import proofs.«162297_j20255065768607_1_alg».proof.Proof.Region9
import proofs.«162297_j20255065768607_1_alg».proof.Proof.Region10
import proofs.«162297_j20255065768607_1_alg».proof.Proof.Region11

set_option maxRecDepth 16384

noncomputable section

namespace Cert.KernelIdeal.Chain

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg) (c : Dev nD)

/-- The contents when region 0 is entered are the launch memory after the 41 operations of the graph's normalisation. -/
theorem W3_eq : W3 m ρ c = StableHlo.after HostLines.prepOps (W0 m ρ c) := by
  show StableHlo.after hostOps0_2 (StableHlo.after hostOps0_1 (StableHlo.after hostOps0 (W0 m ρ c))) = _
  rw [HostLines.prepOps_eq, StableHlo.after_append, StableHlo.after_append]

/-- The graph's sources, targets and edge weights when region 0 is entered. -/
theorem at3_v3 : W3 m ρ c (Proc.devRef .tc main_v3) = Spec.src Ideal (m ((c : Thread nD τ).loc main_arg1)) := by
  rw [W3_eq]; exact HostLines.prep_src (W0 m ρ c)
theorem at3_v6 : W3 m ρ c (Proc.devRef .tc main_v6) = Spec.tgt Ideal (m ((c : Thread nD τ).loc main_arg1)) := by
  rw [W3_eq]; exact HostLines.prep_tgt (W0 m ρ c)
theorem at3_v30 : W3 m ρ c (Proc.devRef .tc main_v30) = Spec.norm Ideal (m ((c : Thread nD τ).loc main_arg1)) := by
  rw [W3_eq]; exact HostLines.prep_norm (W0 m ρ c)
/-- The arguments are not written by the normalisation. -/
theorem at3_arg0 : W3 m ρ c (Proc.devRef .tc main_arg0) = m ((c : Thread nD τ).loc main_arg0) := by
  rw [W3_eq]; exact HostLines.prepOps_keep (W0 m ρ c) main_arg0 (by decide)
theorem at3_arg2 : W3 m ρ c (Proc.devRef .tc main_arg2) = m ((c : Thread nD τ).loc main_arg2) := by
  rw [W3_eq]; exact HostLines.prepOps_keep (W0 m ρ c) main_arg2 (by decide)
theorem at3_arg3 : W3 m ρ c (Proc.devRef .tc main_arg3) = m ((c : Thread nD τ).loc main_arg3) := by
  rw [W3_eq]; exact HostLines.prepOps_keep (W0 m ρ c) main_arg3 (by decide)
theorem at3_arg4 : W3 m ρ c (Proc.devRef .tc main_arg4) = m ((c : Thread nD τ).loc main_arg4) := by
  rw [W3_eq]; exact HostLines.prepOps_keep (W0 m ρ c) main_arg4 (by decide)
theorem at3_arg5 : W3 m ρ c (Proc.devRef .tc main_arg5) = m ((c : Thread nD τ).loc main_arg5) := by
  rw [W3_eq]; exact HostLines.prepOps_keep (W0 m ρ c) main_arg5 (by decide)
theorem at3_arg6 : W3 m ρ c (Proc.devRef .tc main_arg6) = m ((c : Thread nD τ).loc main_arg6) := by
  rw [W3_eq]; exact HostLines.prepOps_keep (W0 m ρ c) main_arg6 (by decide)
theorem at3_arg7 : W3 m ρ c (Proc.devRef .tc main_arg7) = m ((c : Thread nD τ).loc main_arg7) := by
  rw [W3_eq]; exact HostLines.prepOps_keep (W0 m ρ c) main_arg7 (by decide)
theorem at3_arg8 : W3 m ρ c (Proc.devRef .tc main_arg8) = m ((c : Thread nD τ).loc main_arg8) := by
  rw [W3_eq]; exact HostLines.prepOps_keep (W0 m ρ c) main_arg8 (by decide)
theorem at3_arg9 : W3 m ρ c (Proc.devRef .tc main_arg9) = m ((c : Thread nD τ).loc main_arg9) := by
  rw [W3_eq]; exact HostLines.prepOps_keep (W0 m ρ c) main_arg9 (by decide)
theorem at3_arg10 : W3 m ρ c (Proc.devRef .tc main_arg10) = m ((c : Thread nD τ).loc main_arg10) := by
  rw [W3_eq]; exact HostLines.prepOps_keep (W0 m ρ c) main_arg10 (by decide)
theorem at3_arg11 : W3 m ρ c (Proc.devRef .tc main_arg11) = m ((c : Thread nD τ).loc main_arg11) := by
  rw [W3_eq]; exact HostLines.prepOps_keep (W0 m ρ c) main_arg11 (by decide)
theorem at3_arg12 : W3 m ρ c (Proc.devRef .tc main_arg12) = m ((c : Thread nD τ).loc main_arg12) := by
  rw [W3_eq]; exact HostLines.prepOps_keep (W0 m ρ c) main_arg12 (by decide)
theorem at3_arg13 : W3 m ρ c (Proc.devRef .tc main_arg13) = m ((c : Thread nD τ).loc main_arg13) := by
  rw [W3_eq]; exact HostLines.prepOps_keep (W0 m ρ c) main_arg13 (by decide)

/-! ### Boundary 4: after region 0 -/

/-- The dense product of layer 0. -/
theorem at4_v31 : W4 m ρ c (Proc.devRef .tc main_v31) = Spec.lin128x64 Ideal (m ((c : Thread nD τ).loc main_arg0)) (m ((c : Thread nD τ).loc main_arg2)) := by
  refine (W4_arr m ρ c 2).trans ((Region0.final (V3 m ρ) c).trans ?_)
  exact congrArg₂ (Spec.lin128x64 Ideal) (at3_arg0 m ρ c) (at3_arg2 m ρ c)
theorem at4_v3 : W4 m ρ c (Proc.devRef .tc main_v3) = Spec.src Ideal (m ((c : Thread nD τ).loc main_arg1)) := by
  exact (W4_of_ne m ρ c main_v3 (by decide)).trans (at3_v3 m ρ c)
theorem at4_v6 : W4 m ρ c (Proc.devRef .tc main_v6) = Spec.tgt Ideal (m ((c : Thread nD τ).loc main_arg1)) := by
  exact (W4_of_ne m ρ c main_v6 (by decide)).trans (at3_v6 m ρ c)
theorem at4_v30 : W4 m ρ c (Proc.devRef .tc main_v30) = Spec.norm Ideal (m ((c : Thread nD τ).loc main_arg1)) := by
  exact (W4_of_ne m ρ c main_v30 (by decide)).trans (at3_v30 m ρ c)
theorem at4_arg3 : W4 m ρ c (Proc.devRef .tc main_arg3) = m ((c : Thread nD τ).loc main_arg3) := by
  exact (W4_of_ne m ρ c main_arg3 (by decide)).trans (at3_arg3 m ρ c)
theorem at4_arg4 : W4 m ρ c (Proc.devRef .tc main_arg4) = m ((c : Thread nD τ).loc main_arg4) := by
  exact (W4_of_ne m ρ c main_arg4 (by decide)).trans (at3_arg4 m ρ c)
theorem at4_arg5 : W4 m ρ c (Proc.devRef .tc main_arg5) = m ((c : Thread nD τ).loc main_arg5) := by
  exact (W4_of_ne m ρ c main_arg5 (by decide)).trans (at3_arg5 m ρ c)
theorem at4_arg6 : W4 m ρ c (Proc.devRef .tc main_arg6) = m ((c : Thread nD τ).loc main_arg6) := by
  exact (W4_of_ne m ρ c main_arg6 (by decide)).trans (at3_arg6 m ρ c)
theorem at4_arg7 : W4 m ρ c (Proc.devRef .tc main_arg7) = m ((c : Thread nD τ).loc main_arg7) := by
  exact (W4_of_ne m ρ c main_arg7 (by decide)).trans (at3_arg7 m ρ c)
theorem at4_arg8 : W4 m ρ c (Proc.devRef .tc main_arg8) = m ((c : Thread nD τ).loc main_arg8) := by
  exact (W4_of_ne m ρ c main_arg8 (by decide)).trans (at3_arg8 m ρ c)
theorem at4_arg9 : W4 m ρ c (Proc.devRef .tc main_arg9) = m ((c : Thread nD τ).loc main_arg9) := by
  exact (W4_of_ne m ρ c main_arg9 (by decide)).trans (at3_arg9 m ρ c)
theorem at4_arg10 : W4 m ρ c (Proc.devRef .tc main_arg10) = m ((c : Thread nD τ).loc main_arg10) := by
  exact (W4_of_ne m ρ c main_arg10 (by decide)).trans (at3_arg10 m ρ c)
theorem at4_arg11 : W4 m ρ c (Proc.devRef .tc main_arg11) = m ((c : Thread nD τ).loc main_arg11) := by
  exact (W4_of_ne m ρ c main_arg11 (by decide)).trans (at3_arg11 m ρ c)
theorem at4_arg12 : W4 m ρ c (Proc.devRef .tc main_arg12) = m ((c : Thread nD τ).loc main_arg12) := by
  exact (W4_of_ne m ρ c main_arg12 (by decide)).trans (at3_arg12 m ρ c)
theorem at4_arg13 : W4 m ρ c (Proc.devRef .tc main_arg13) = m ((c : Thread nD τ).loc main_arg13) := by
  exact (W4_of_ne m ρ c main_arg13 (by decide)).trans (at3_arg13 m ρ c)

/-! ### Boundary 5: after the host stretch before region 1 -/

/-- The aggregated messages of layer 0's dense product, and its bias as one row. -/
theorem at5_v44 : W5 m ρ c (Proc.devRef .tc main_v44) = Spec.agg64 Ideal (m ((c : Thread nD τ).loc main_arg1)) (Spec.lin128x64 Ideal (m ((c : Thread nD τ).loc main_arg0)) (m ((c : Thread nD τ).loc main_arg2))) := by
  refine (HostLines.hostOps1_agg (W4 m ρ c)).trans ?_
  rw [at4_v3 m ρ c, at4_v6 m ρ c, at4_v30 m ρ c, at4_v31 m ρ c]; rfl
theorem at5_v45 : W5 m ρ c (Proc.devRef .tc main_v45) = shapeCast S1x64 (m ((c : Thread nD τ).loc main_arg3)) shapeCasts_S64_S1x64 := by
  refine (HostLines.hostOps1_bias (W4 m ρ c)).trans ?_
  rw [at4_arg3 m ρ c]
theorem at5_v3 : W5 m ρ c (Proc.devRef .tc main_v3) = Spec.src Ideal (m ((c : Thread nD τ).loc main_arg1)) := by
  exact (HostLines.hostOps1_keep (W4 m ρ c) main_v3 (by decide)).trans (at4_v3 m ρ c)
theorem at5_v6 : W5 m ρ c (Proc.devRef .tc main_v6) = Spec.tgt Ideal (m ((c : Thread nD τ).loc main_arg1)) := by
  exact (HostLines.hostOps1_keep (W4 m ρ c) main_v6 (by decide)).trans (at4_v6 m ρ c)
theorem at5_v30 : W5 m ρ c (Proc.devRef .tc main_v30) = Spec.norm Ideal (m ((c : Thread nD τ).loc main_arg1)) := by
  exact (HostLines.hostOps1_keep (W4 m ρ c) main_v30 (by decide)).trans (at4_v30 m ρ c)
theorem at5_arg4 : W5 m ρ c (Proc.devRef .tc main_arg4) = m ((c : Thread nD τ).loc main_arg4) := by
  exact (HostLines.hostOps1_keep (W4 m ρ c) main_arg4 (by decide)).trans (at4_arg4 m ρ c)
theorem at5_arg5 : W5 m ρ c (Proc.devRef .tc main_arg5) = m ((c : Thread nD τ).loc main_arg5) := by
  exact (HostLines.hostOps1_keep (W4 m ρ c) main_arg5 (by decide)).trans (at4_arg5 m ρ c)
theorem at5_arg6 : W5 m ρ c (Proc.devRef .tc main_arg6) = m ((c : Thread nD τ).loc main_arg6) := by
  exact (HostLines.hostOps1_keep (W4 m ρ c) main_arg6 (by decide)).trans (at4_arg6 m ρ c)
theorem at5_arg7 : W5 m ρ c (Proc.devRef .tc main_arg7) = m ((c : Thread nD τ).loc main_arg7) := by
  exact (HostLines.hostOps1_keep (W4 m ρ c) main_arg7 (by decide)).trans (at4_arg7 m ρ c)
theorem at5_arg8 : W5 m ρ c (Proc.devRef .tc main_arg8) = m ((c : Thread nD τ).loc main_arg8) := by
  exact (HostLines.hostOps1_keep (W4 m ρ c) main_arg8 (by decide)).trans (at4_arg8 m ρ c)
theorem at5_arg9 : W5 m ρ c (Proc.devRef .tc main_arg9) = m ((c : Thread nD τ).loc main_arg9) := by
  exact (HostLines.hostOps1_keep (W4 m ρ c) main_arg9 (by decide)).trans (at4_arg9 m ρ c)
theorem at5_arg10 : W5 m ρ c (Proc.devRef .tc main_arg10) = m ((c : Thread nD τ).loc main_arg10) := by
  exact (HostLines.hostOps1_keep (W4 m ρ c) main_arg10 (by decide)).trans (at4_arg10 m ρ c)
theorem at5_arg11 : W5 m ρ c (Proc.devRef .tc main_arg11) = m ((c : Thread nD τ).loc main_arg11) := by
  exact (HostLines.hostOps1_keep (W4 m ρ c) main_arg11 (by decide)).trans (at4_arg11 m ρ c)
theorem at5_arg12 : W5 m ρ c (Proc.devRef .tc main_arg12) = m ((c : Thread nD τ).loc main_arg12) := by
  exact (HostLines.hostOps1_keep (W4 m ρ c) main_arg12 (by decide)).trans (at4_arg12 m ρ c)
theorem at5_arg13 : W5 m ρ c (Proc.devRef .tc main_arg13) = m ((c : Thread nD τ).loc main_arg13) := by
  exact (HostLines.hostOps1_keep (W4 m ρ c) main_arg13 (by decide)).trans (at4_arg13 m ρ c)
theorem at5_v31 : W5 m ρ c (Proc.devRef .tc main_v31) = Spec.lin128x64 Ideal (m ((c : Thread nD τ).loc main_arg0)) (m ((c : Thread nD τ).loc main_arg2)) := by
  exact (HostLines.hostOps1_keep (W4 m ρ c) main_v31 (by decide)).trans (at4_v31 m ρ c)

/-! ### Boundary 6: after region 1 -/

/-- Layer 0's output: the encoder's first hidden layer. -/
theorem at6_v46 : W6 m ρ c (Proc.devRef .tc main_v46) = Spec.enc1 Ideal (m ((c : Thread nD τ).loc main_arg0)) (m ((c : Thread nD τ).loc main_arg1)) (m ((c : Thread nD τ).loc main_arg2)) (m ((c : Thread nD τ).loc main_arg3)) := by
  refine (W6_arr m ρ c 3).trans ((Region1.final (V5 m ρ) c (m ((c : Thread nD τ).loc main_arg3)) shapeCasts_S64_S1x64 (at5_v45 m ρ c)).trans ?_)
  show Spec.relu64 Ideal (Spec.comb64 Ideal 0x00000000#32 0x3F800000#32 (W5 m ρ c (Proc.devRef .tc main_v31)) (W5 m ρ c (Proc.devRef .tc main_v44)) (m ((c : Thread nD τ).loc main_arg3))) = _
  rw [at5_v31 m ρ c, at5_v44 m ρ c]; rfl
theorem at6_v3 : W6 m ρ c (Proc.devRef .tc main_v3) = Spec.src Ideal (m ((c : Thread nD τ).loc main_arg1)) := by
  exact (W6_of_ne m ρ c main_v3 (by decide)).trans (at5_v3 m ρ c)
theorem at6_v6 : W6 m ρ c (Proc.devRef .tc main_v6) = Spec.tgt Ideal (m ((c : Thread nD τ).loc main_arg1)) := by
  exact (W6_of_ne m ρ c main_v6 (by decide)).trans (at5_v6 m ρ c)
theorem at6_v30 : W6 m ρ c (Proc.devRef .tc main_v30) = Spec.norm Ideal (m ((c : Thread nD τ).loc main_arg1)) := by
  exact (W6_of_ne m ρ c main_v30 (by decide)).trans (at5_v30 m ρ c)
theorem at6_arg4 : W6 m ρ c (Proc.devRef .tc main_arg4) = m ((c : Thread nD τ).loc main_arg4) := by
  exact (W6_of_ne m ρ c main_arg4 (by decide)).trans (at5_arg4 m ρ c)
theorem at6_arg5 : W6 m ρ c (Proc.devRef .tc main_arg5) = m ((c : Thread nD τ).loc main_arg5) := by
  exact (W6_of_ne m ρ c main_arg5 (by decide)).trans (at5_arg5 m ρ c)
theorem at6_arg6 : W6 m ρ c (Proc.devRef .tc main_arg6) = m ((c : Thread nD τ).loc main_arg6) := by
  exact (W6_of_ne m ρ c main_arg6 (by decide)).trans (at5_arg6 m ρ c)
theorem at6_arg7 : W6 m ρ c (Proc.devRef .tc main_arg7) = m ((c : Thread nD τ).loc main_arg7) := by
  exact (W6_of_ne m ρ c main_arg7 (by decide)).trans (at5_arg7 m ρ c)
theorem at6_arg8 : W6 m ρ c (Proc.devRef .tc main_arg8) = m ((c : Thread nD τ).loc main_arg8) := by
  exact (W6_of_ne m ρ c main_arg8 (by decide)).trans (at5_arg8 m ρ c)
theorem at6_arg9 : W6 m ρ c (Proc.devRef .tc main_arg9) = m ((c : Thread nD τ).loc main_arg9) := by
  exact (W6_of_ne m ρ c main_arg9 (by decide)).trans (at5_arg9 m ρ c)
theorem at6_arg10 : W6 m ρ c (Proc.devRef .tc main_arg10) = m ((c : Thread nD τ).loc main_arg10) := by
  exact (W6_of_ne m ρ c main_arg10 (by decide)).trans (at5_arg10 m ρ c)
theorem at6_arg11 : W6 m ρ c (Proc.devRef .tc main_arg11) = m ((c : Thread nD τ).loc main_arg11) := by
  exact (W6_of_ne m ρ c main_arg11 (by decide)).trans (at5_arg11 m ρ c)
theorem at6_arg12 : W6 m ρ c (Proc.devRef .tc main_arg12) = m ((c : Thread nD τ).loc main_arg12) := by
  exact (W6_of_ne m ρ c main_arg12 (by decide)).trans (at5_arg12 m ρ c)
theorem at6_arg13 : W6 m ρ c (Proc.devRef .tc main_arg13) = m ((c : Thread nD τ).loc main_arg13) := by
  exact (W6_of_ne m ρ c main_arg13 (by decide)).trans (at5_arg13 m ρ c)

/-! ### Boundary 7: after region 2 -/

/-- The dense product of layer 1. -/
theorem at7_v47 : W7 m ρ c (Proc.devRef .tc main_v47) = Spec.lin64x64 Ideal (Spec.enc1 Ideal (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((Region2.final (V6 m ρ) c).trans ?_)
  exact congrArg₂ (Spec.lin64x64 Ideal) (at6_v46 m ρ c) (at6_arg4 m ρ c)
theorem at7_v3 : W7 m ρ c (Proc.devRef .tc main_v3) = Spec.src Ideal (m ((c : Thread nD τ).loc main_arg1)) := by
  exact (W7_of_ne m ρ c main_v3 (by decide)).trans (at6_v3 m ρ c)
theorem at7_v6 : W7 m ρ c (Proc.devRef .tc main_v6) = Spec.tgt Ideal (m ((c : Thread nD τ).loc main_arg1)) := by
  exact (W7_of_ne m ρ c main_v6 (by decide)).trans (at6_v6 m ρ c)
theorem at7_v30 : W7 m ρ c (Proc.devRef .tc main_v30) = Spec.norm Ideal (m ((c : Thread nD τ).loc main_arg1)) := by
  exact (W7_of_ne m ρ c main_v30 (by decide)).trans (at6_v30 m ρ c)
theorem at7_arg5 : W7 m ρ c (Proc.devRef .tc main_arg5) = m ((c : Thread nD τ).loc main_arg5) := by
  exact (W7_of_ne m ρ c main_arg5 (by decide)).trans (at6_arg5 m ρ c)
theorem at7_arg6 : W7 m ρ c (Proc.devRef .tc main_arg6) = m ((c : Thread nD τ).loc main_arg6) := by
  exact (W7_of_ne m ρ c main_arg6 (by decide)).trans (at6_arg6 m ρ c)
theorem at7_arg7 : W7 m ρ c (Proc.devRef .tc main_arg7) = m ((c : Thread nD τ).loc main_arg7) := by
  exact (W7_of_ne m ρ c main_arg7 (by decide)).trans (at6_arg7 m ρ c)
theorem at7_arg8 : W7 m ρ c (Proc.devRef .tc main_arg8) = m ((c : Thread nD τ).loc main_arg8) := by
  exact (W7_of_ne m ρ c main_arg8 (by decide)).trans (at6_arg8 m ρ c)
theorem at7_arg9 : W7 m ρ c (Proc.devRef .tc main_arg9) = m ((c : Thread nD τ).loc main_arg9) := by
  exact (W7_of_ne m ρ c main_arg9 (by decide)).trans (at6_arg9 m ρ c)
theorem at7_arg10 : W7 m ρ c (Proc.devRef .tc main_arg10) = m ((c : Thread nD τ).loc main_arg10) := by
  exact (W7_of_ne m ρ c main_arg10 (by decide)).trans (at6_arg10 m ρ c)
theorem at7_arg11 : W7 m ρ c (Proc.devRef .tc main_arg11) = m ((c : Thread nD τ).loc main_arg11) := by
  exact (W7_of_ne m ρ c main_arg11 (by decide)).trans (at6_arg11 m ρ c)
theorem at7_arg12 : W7 m ρ c (Proc.devRef .tc main_arg12) = m ((c : Thread nD τ).loc main_arg12) := by
  exact (W7_of_ne m ρ c main_arg12 (by decide)).trans (at6_arg12 m ρ c)
theorem at7_arg13 : W7 m ρ c (Proc.devRef .tc main_arg13) = m ((c : Thread nD τ).loc main_arg13) := by
  exact (W7_of_ne m ρ c main_arg13 (by decide)).trans (at6_arg13 m ρ c)

/-! ### Boundary 8: after the host stretch before region 3 -/

/-- The aggregated messages of layer 1's dense product, and its bias as one row. -/
theorem at8_v60 : W8 m ρ c (Proc.devRef .tc main_v60) = Spec.agg64 Ideal (m ((c : Thread nD τ).loc main_arg1)) (Spec.lin64x64 Ideal (Spec.enc1 Ideal (m ((c : Thread nD τ).loc main_arg0)) (m ((c : Thread nD τ).loc main_arg1)) (m ((c : Thread nD τ).loc main_arg2)) (m ((c : Thread nD τ).loc main_arg3))) (m ((c : Thread nD τ).loc main_arg4))) := by
  refine (HostLines.hostOps3_agg (W7 m ρ c)).trans ?_
  rw [at7_v3 m ρ c, at7_v6 m ρ c, at7_v30 m ρ c, at7_v47 m ρ c]; rfl
theorem at8_v61 : W8 m ρ c (Proc.devRef .tc main_v61) = shapeCast S1x64 (m ((c : Thread nD τ).loc main_arg5)) shapeCasts_S64_S1x64 := by
  refine (HostLines.hostOps3_bias (W7 m ρ c)).trans ?_
  rw [at7_arg5 m ρ c]
theorem at8_v3 : W8 m ρ c (Proc.devRef .tc main_v3) = Spec.src Ideal (m ((c : Thread nD τ).loc main_arg1)) := by
  exact (HostLines.hostOps3_keep (W7 m ρ c) main_v3 (by decide)).trans (at7_v3 m ρ c)
theorem at8_v6 : W8 m ρ c (Proc.devRef .tc main_v6) = Spec.tgt Ideal (m ((c : Thread nD τ).loc main_arg1)) := by
  exact (HostLines.hostOps3_keep (W7 m ρ c) main_v6 (by decide)).trans (at7_v6 m ρ c)
theorem at8_v30 : W8 m ρ c (Proc.devRef .tc main_v30) = Spec.norm Ideal (m ((c : Thread nD τ).loc main_arg1)) := by
  exact (HostLines.hostOps3_keep (W7 m ρ c) main_v30 (by decide)).trans (at7_v30 m ρ c)
theorem at8_arg6 : W8 m ρ c (Proc.devRef .tc main_arg6) = m ((c : Thread nD τ).loc main_arg6) := by
  exact (HostLines.hostOps3_keep (W7 m ρ c) main_arg6 (by decide)).trans (at7_arg6 m ρ c)
theorem at8_arg7 : W8 m ρ c (Proc.devRef .tc main_arg7) = m ((c : Thread nD τ).loc main_arg7) := by
  exact (HostLines.hostOps3_keep (W7 m ρ c) main_arg7 (by decide)).trans (at7_arg7 m ρ c)
theorem at8_arg8 : W8 m ρ c (Proc.devRef .tc main_arg8) = m ((c : Thread nD τ).loc main_arg8) := by
  exact (HostLines.hostOps3_keep (W7 m ρ c) main_arg8 (by decide)).trans (at7_arg8 m ρ c)
theorem at8_arg9 : W8 m ρ c (Proc.devRef .tc main_arg9) = m ((c : Thread nD τ).loc main_arg9) := by
  exact (HostLines.hostOps3_keep (W7 m ρ c) main_arg9 (by decide)).trans (at7_arg9 m ρ c)
theorem at8_arg10 : W8 m ρ c (Proc.devRef .tc main_arg10) = m ((c : Thread nD τ).loc main_arg10) := by
  exact (HostLines.hostOps3_keep (W7 m ρ c) main_arg10 (by decide)).trans (at7_arg10 m ρ c)
theorem at8_arg11 : W8 m ρ c (Proc.devRef .tc main_arg11) = m ((c : Thread nD τ).loc main_arg11) := by
  exact (HostLines.hostOps3_keep (W7 m ρ c) main_arg11 (by decide)).trans (at7_arg11 m ρ c)
theorem at8_arg12 : W8 m ρ c (Proc.devRef .tc main_arg12) = m ((c : Thread nD τ).loc main_arg12) := by
  exact (HostLines.hostOps3_keep (W7 m ρ c) main_arg12 (by decide)).trans (at7_arg12 m ρ c)
theorem at8_arg13 : W8 m ρ c (Proc.devRef .tc main_arg13) = m ((c : Thread nD τ).loc main_arg13) := by
  exact (HostLines.hostOps3_keep (W7 m ρ c) main_arg13 (by decide)).trans (at7_arg13 m ρ c)
theorem at8_v47 : W8 m ρ c (Proc.devRef .tc main_v47) = Spec.lin64x64 Ideal (Spec.enc1 Ideal (m ((c : Thread nD τ).loc main_arg0)) (m ((c : Thread nD τ).loc main_arg1)) (m ((c : Thread nD τ).loc main_arg2)) (m ((c : Thread nD τ).loc main_arg3))) (m ((c : Thread nD τ).loc main_arg4)) := by
  exact (HostLines.hostOps3_keep (W7 m ρ c) main_v47 (by decide)).trans (at7_v47 m ρ c)

/-! ### Boundary 9: after region 3 -/

/-- Layer 1's output: the encoder's second hidden layer. -/
theorem at9_v62 : W9 m ρ c (Proc.devRef .tc main_v62) = Spec.enc2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 3).trans ((Region3.final (V8 m ρ) c (m ((c : Thread nD τ).loc main_arg5)) shapeCasts_S64_S1x64 (at8_v61 m ρ c)).trans ?_)
  show Spec.relu64 Ideal (Spec.comb64 Ideal 0x00000000#32 0x3F800000#32 (W8 m ρ c (Proc.devRef .tc main_v47)) (W8 m ρ c (Proc.devRef .tc main_v60)) (m ((c : Thread nD τ).loc main_arg5))) = _
  rw [at8_v47 m ρ c, at8_v60 m ρ c]; rfl
theorem at9_v3 : W9 m ρ c (Proc.devRef .tc main_v3) = Spec.src Ideal (m ((c : Thread nD τ).loc main_arg1)) := by
  exact (W9_of_ne m ρ c main_v3 (by decide)).trans (at8_v3 m ρ c)
theorem at9_v6 : W9 m ρ c (Proc.devRef .tc main_v6) = Spec.tgt Ideal (m ((c : Thread nD τ).loc main_arg1)) := by
  exact (W9_of_ne m ρ c main_v6 (by decide)).trans (at8_v6 m ρ c)
theorem at9_v30 : W9 m ρ c (Proc.devRef .tc main_v30) = Spec.norm Ideal (m ((c : Thread nD τ).loc main_arg1)) := by
  exact (W9_of_ne m ρ c main_v30 (by decide)).trans (at8_v30 m ρ c)
theorem at9_arg6 : W9 m ρ c (Proc.devRef .tc main_arg6) = m ((c : Thread nD τ).loc main_arg6) := by
  exact (W9_of_ne m ρ c main_arg6 (by decide)).trans (at8_arg6 m ρ c)
theorem at9_arg7 : W9 m ρ c (Proc.devRef .tc main_arg7) = m ((c : Thread nD τ).loc main_arg7) := by
  exact (W9_of_ne m ρ c main_arg7 (by decide)).trans (at8_arg7 m ρ c)
theorem at9_arg8 : W9 m ρ c (Proc.devRef .tc main_arg8) = m ((c : Thread nD τ).loc main_arg8) := by
  exact (W9_of_ne m ρ c main_arg8 (by decide)).trans (at8_arg8 m ρ c)
theorem at9_arg9 : W9 m ρ c (Proc.devRef .tc main_arg9) = m ((c : Thread nD τ).loc main_arg9) := by
  exact (W9_of_ne m ρ c main_arg9 (by decide)).trans (at8_arg9 m ρ c)
theorem at9_arg10 : W9 m ρ c (Proc.devRef .tc main_arg10) = m ((c : Thread nD τ).loc main_arg10) := by
  exact (W9_of_ne m ρ c main_arg10 (by decide)).trans (at8_arg10 m ρ c)
theorem at9_arg11 : W9 m ρ c (Proc.devRef .tc main_arg11) = m ((c : Thread nD τ).loc main_arg11) := by
  exact (W9_of_ne m ρ c main_arg11 (by decide)).trans (at8_arg11 m ρ c)
theorem at9_arg12 : W9 m ρ c (Proc.devRef .tc main_arg12) = m ((c : Thread nD τ).loc main_arg12) := by
  exact (W9_of_ne m ρ c main_arg12 (by decide)).trans (at8_arg12 m ρ c)
theorem at9_arg13 : W9 m ρ c (Proc.devRef .tc main_arg13) = m ((c : Thread nD τ).loc main_arg13) := by
  exact (W9_of_ne m ρ c main_arg13 (by decide)).trans (at8_arg13 m ρ c)

/-! ### Boundary 10: after region 4 -/

/-- The dense product of layer 2. -/
theorem at10_v63 : W10 m ρ c (Proc.devRef .tc main_v63) = Spec.lin64x64 Ideal (Spec.enc2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine (W10_arr m ρ c 2).trans ((Region4.final (V9 m ρ) c).trans ?_)
  exact congrArg₂ (Spec.lin64x64 Ideal) (at9_v62 m ρ c) (at9_arg6 m ρ c)
theorem at10_v3 : W10 m ρ c (Proc.devRef .tc main_v3) = Spec.src Ideal (m ((c : Thread nD τ).loc main_arg1)) := by
  exact (W10_of_ne m ρ c main_v3 (by decide)).trans (at9_v3 m ρ c)
theorem at10_v6 : W10 m ρ c (Proc.devRef .tc main_v6) = Spec.tgt Ideal (m ((c : Thread nD τ).loc main_arg1)) := by
  exact (W10_of_ne m ρ c main_v6 (by decide)).trans (at9_v6 m ρ c)
theorem at10_v30 : W10 m ρ c (Proc.devRef .tc main_v30) = Spec.norm Ideal (m ((c : Thread nD τ).loc main_arg1)) := by
  exact (W10_of_ne m ρ c main_v30 (by decide)).trans (at9_v30 m ρ c)
theorem at10_arg7 : W10 m ρ c (Proc.devRef .tc main_arg7) = m ((c : Thread nD τ).loc main_arg7) := by
  exact (W10_of_ne m ρ c main_arg7 (by decide)).trans (at9_arg7 m ρ c)
theorem at10_arg8 : W10 m ρ c (Proc.devRef .tc main_arg8) = m ((c : Thread nD τ).loc main_arg8) := by
  exact (W10_of_ne m ρ c main_arg8 (by decide)).trans (at9_arg8 m ρ c)
theorem at10_arg9 : W10 m ρ c (Proc.devRef .tc main_arg9) = m ((c : Thread nD τ).loc main_arg9) := by
  exact (W10_of_ne m ρ c main_arg9 (by decide)).trans (at9_arg9 m ρ c)
theorem at10_arg10 : W10 m ρ c (Proc.devRef .tc main_arg10) = m ((c : Thread nD τ).loc main_arg10) := by
  exact (W10_of_ne m ρ c main_arg10 (by decide)).trans (at9_arg10 m ρ c)
theorem at10_arg11 : W10 m ρ c (Proc.devRef .tc main_arg11) = m ((c : Thread nD τ).loc main_arg11) := by
  exact (W10_of_ne m ρ c main_arg11 (by decide)).trans (at9_arg11 m ρ c)
theorem at10_arg12 : W10 m ρ c (Proc.devRef .tc main_arg12) = m ((c : Thread nD τ).loc main_arg12) := by
  exact (W10_of_ne m ρ c main_arg12 (by decide)).trans (at9_arg12 m ρ c)
theorem at10_arg13 : W10 m ρ c (Proc.devRef .tc main_arg13) = m ((c : Thread nD τ).loc main_arg13) := by
  exact (W10_of_ne m ρ c main_arg13 (by decide)).trans (at9_arg13 m ρ c)

/-! ### Boundary 11: after the host stretch before region 5 -/

/-- The aggregated messages of layer 2's dense product, and its bias as one row. -/
theorem at11_v76 : W11 m ρ c (Proc.devRef .tc main_v76) = Spec.agg64 Ideal (m ((c : Thread nD τ).loc main_arg1)) (Spec.lin64x64 Ideal (Spec.enc2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (HostLines.hostOps5_agg (W10 m ρ c)).trans ?_
  rw [at10_v3 m ρ c, at10_v6 m ρ c, at10_v30 m ρ c, at10_v63 m ρ c]; rfl
theorem at11_v77 : W11 m ρ c (Proc.devRef .tc main_v77) = shapeCast S1x64 (m ((c : Thread nD τ).loc main_arg7)) shapeCasts_S64_S1x64 := by
  refine (HostLines.hostOps5_bias (W10 m ρ c)).trans ?_
  rw [at10_arg7 m ρ c]
theorem at11_v3 : W11 m ρ c (Proc.devRef .tc main_v3) = Spec.src Ideal (m ((c : Thread nD τ).loc main_arg1)) := by
  exact (HostLines.hostOps5_keep (W10 m ρ c) main_v3 (by decide)).trans (at10_v3 m ρ c)
theorem at11_v6 : W11 m ρ c (Proc.devRef .tc main_v6) = Spec.tgt Ideal (m ((c : Thread nD τ).loc main_arg1)) := by
  exact (HostLines.hostOps5_keep (W10 m ρ c) main_v6 (by decide)).trans (at10_v6 m ρ c)
theorem at11_v30 : W11 m ρ c (Proc.devRef .tc main_v30) = Spec.norm Ideal (m ((c : Thread nD τ).loc main_arg1)) := by
  exact (HostLines.hostOps5_keep (W10 m ρ c) main_v30 (by decide)).trans (at10_v30 m ρ c)
theorem at11_arg8 : W11 m ρ c (Proc.devRef .tc main_arg8) = m ((c : Thread nD τ).loc main_arg8) := by
  exact (HostLines.hostOps5_keep (W10 m ρ c) main_arg8 (by decide)).trans (at10_arg8 m ρ c)
theorem at11_arg9 : W11 m ρ c (Proc.devRef .tc main_arg9) = m ((c : Thread nD τ).loc main_arg9) := by
  exact (HostLines.hostOps5_keep (W10 m ρ c) main_arg9 (by decide)).trans (at10_arg9 m ρ c)
theorem at11_arg10 : W11 m ρ c (Proc.devRef .tc main_arg10) = m ((c : Thread nD τ).loc main_arg10) := by
  exact (HostLines.hostOps5_keep (W10 m ρ c) main_arg10 (by decide)).trans (at10_arg10 m ρ c)
theorem at11_arg11 : W11 m ρ c (Proc.devRef .tc main_arg11) = m ((c : Thread nD τ).loc main_arg11) := by
  exact (HostLines.hostOps5_keep (W10 m ρ c) main_arg11 (by decide)).trans (at10_arg11 m ρ c)
theorem at11_arg12 : W11 m ρ c (Proc.devRef .tc main_arg12) = m ((c : Thread nD τ).loc main_arg12) := by
  exact (HostLines.hostOps5_keep (W10 m ρ c) main_arg12 (by decide)).trans (at10_arg12 m ρ c)
theorem at11_arg13 : W11 m ρ c (Proc.devRef .tc main_arg13) = m ((c : Thread nD τ).loc main_arg13) := by
  exact (HostLines.hostOps5_keep (W10 m ρ c) main_arg13 (by decide)).trans (at10_arg13 m ρ c)
theorem at11_v63 : W11 m ρ c (Proc.devRef .tc main_v63) = Spec.lin64x64 Ideal (Spec.enc2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  exact (HostLines.hostOps5_keep (W10 m ρ c) main_v63 (by decide)).trans (at10_v63 m ρ c)

/-! ### Boundary 12: after region 5 -/

/-- Layer 2's output: the embedding. -/
theorem at12_v78 : W12 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 3).trans ((Region5.final (V11 m ρ) c (m ((c : Thread nD τ).loc main_arg7)) shapeCasts_S64_S1x64 (at11_v77 m ρ c)).trans ?_)
  show Spec.comb64 Ideal 0x00000000#32 0x3F800000#32 (W11 m ρ c (Proc.devRef .tc main_v63)) (W11 m ρ c (Proc.devRef .tc main_v76)) (m ((c : Thread nD τ).loc main_arg7)) = _
  rw [at11_v63 m ρ c, at11_v76 m ρ c]; rfl
theorem at12_v3 : W12 m ρ c (Proc.devRef .tc main_v3) = Spec.src Ideal (m ((c : Thread nD τ).loc main_arg1)) := by
  exact (W12_of_ne m ρ c main_v3 (by decide)).trans (at11_v3 m ρ c)
theorem at12_v6 : W12 m ρ c (Proc.devRef .tc main_v6) = Spec.tgt Ideal (m ((c : Thread nD τ).loc main_arg1)) := by
  exact (W12_of_ne m ρ c main_v6 (by decide)).trans (at11_v6 m ρ c)
theorem at12_v30 : W12 m ρ c (Proc.devRef .tc main_v30) = Spec.norm Ideal (m ((c : Thread nD τ).loc main_arg1)) := by
  exact (W12_of_ne m ρ c main_v30 (by decide)).trans (at11_v30 m ρ c)
theorem at12_arg8 : W12 m ρ c (Proc.devRef .tc main_arg8) = m ((c : Thread nD τ).loc main_arg8) := by
  exact (W12_of_ne m ρ c main_arg8 (by decide)).trans (at11_arg8 m ρ c)
theorem at12_arg9 : W12 m ρ c (Proc.devRef .tc main_arg9) = m ((c : Thread nD τ).loc main_arg9) := by
  exact (W12_of_ne m ρ c main_arg9 (by decide)).trans (at11_arg9 m ρ c)
theorem at12_arg10 : W12 m ρ c (Proc.devRef .tc main_arg10) = m ((c : Thread nD τ).loc main_arg10) := by
  exact (W12_of_ne m ρ c main_arg10 (by decide)).trans (at11_arg10 m ρ c)
theorem at12_arg11 : W12 m ρ c (Proc.devRef .tc main_arg11) = m ((c : Thread nD τ).loc main_arg11) := by
  exact (W12_of_ne m ρ c main_arg11 (by decide)).trans (at11_arg11 m ρ c)
theorem at12_arg12 : W12 m ρ c (Proc.devRef .tc main_arg12) = m ((c : Thread nD τ).loc main_arg12) := by
  exact (W12_of_ne m ρ c main_arg12 (by decide)).trans (at11_arg12 m ρ c)
theorem at12_arg13 : W12 m ρ c (Proc.devRef .tc main_arg13) = m ((c : Thread nD τ).loc main_arg13) := by
  exact (W12_of_ne m ρ c main_arg13 (by decide)).trans (at11_arg13 m ρ c)

/-! ### Boundary 13: after region 6 -/

/-- The dense product of layer 3. -/
theorem at13_v79 : W13 m ρ c (Proc.devRef .tc main_v79) = Spec.lin64x64 Ideal (Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  refine (W13_arr m ρ c 2).trans ((Region6.final (V12 m ρ) c).trans ?_)
  exact congrArg₂ (Spec.lin64x64 Ideal) (at12_v78 m ρ c) (at12_arg8 m ρ c)
theorem at13_v3 : W13 m ρ c (Proc.devRef .tc main_v3) = Spec.src Ideal (m ((c : Thread nD τ).loc main_arg1)) := by
  exact (W13_of_ne m ρ c main_v3 (by decide)).trans (at12_v3 m ρ c)
theorem at13_v6 : W13 m ρ c (Proc.devRef .tc main_v6) = Spec.tgt Ideal (m ((c : Thread nD τ).loc main_arg1)) := by
  exact (W13_of_ne m ρ c main_v6 (by decide)).trans (at12_v6 m ρ c)
theorem at13_v30 : W13 m ρ c (Proc.devRef .tc main_v30) = Spec.norm Ideal (m ((c : Thread nD τ).loc main_arg1)) := by
  exact (W13_of_ne m ρ c main_v30 (by decide)).trans (at12_v30 m ρ c)
theorem at13_arg9 : W13 m ρ c (Proc.devRef .tc main_arg9) = m ((c : Thread nD τ).loc main_arg9) := by
  exact (W13_of_ne m ρ c main_arg9 (by decide)).trans (at12_arg9 m ρ c)
theorem at13_arg10 : W13 m ρ c (Proc.devRef .tc main_arg10) = m ((c : Thread nD τ).loc main_arg10) := by
  exact (W13_of_ne m ρ c main_arg10 (by decide)).trans (at12_arg10 m ρ c)
theorem at13_arg11 : W13 m ρ c (Proc.devRef .tc main_arg11) = m ((c : Thread nD τ).loc main_arg11) := by
  exact (W13_of_ne m ρ c main_arg11 (by decide)).trans (at12_arg11 m ρ c)
theorem at13_arg12 : W13 m ρ c (Proc.devRef .tc main_arg12) = m ((c : Thread nD τ).loc main_arg12) := by
  exact (W13_of_ne m ρ c main_arg12 (by decide)).trans (at12_arg12 m ρ c)
theorem at13_arg13 : W13 m ρ c (Proc.devRef .tc main_arg13) = m ((c : Thread nD τ).loc main_arg13) := by
  exact (W13_of_ne m ρ c main_arg13 (by decide)).trans (at12_arg13 m ρ c)
theorem at13_v78 : W13 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact ((W13_arr m ρ c 0).trans (((dat6 (V12 m ρ) c).arrAt_in 0 rfl _).trans (A_eq6 (V12 m ρ) c 0))).trans (at12_v78 m ρ c)

/-! ### Boundary 14: after the host stretch before region 7 -/

/-- The aggregated messages of layer 3's dense product, and its bias as one row. -/
theorem at14_v92 : W14 m ρ c (Proc.devRef .tc main_v92) = Spec.agg64 Ideal (m ((c : Thread nD τ).loc main_arg1)) (Spec.lin64x64 Ideal (Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) := by
  refine (HostLines.hostOps7_agg (W13 m ρ c)).trans ?_
  rw [at13_v3 m ρ c, at13_v6 m ρ c, at13_v30 m ρ c, at13_v79 m ρ c]; rfl
theorem at14_v93 : W14 m ρ c (Proc.devRef .tc main_v93) = shapeCast S1x64 (m ((c : Thread nD τ).loc main_arg9)) shapeCasts_S64_S1x64 := by
  refine (HostLines.hostOps7_bias (W13 m ρ c)).trans ?_
  rw [at13_arg9 m ρ c]
theorem at14_v3 : W14 m ρ c (Proc.devRef .tc main_v3) = Spec.src Ideal (m ((c : Thread nD τ).loc main_arg1)) := by
  exact (HostLines.hostOps7_keep (W13 m ρ c) main_v3 (by decide)).trans (at13_v3 m ρ c)
theorem at14_v6 : W14 m ρ c (Proc.devRef .tc main_v6) = Spec.tgt Ideal (m ((c : Thread nD τ).loc main_arg1)) := by
  exact (HostLines.hostOps7_keep (W13 m ρ c) main_v6 (by decide)).trans (at13_v6 m ρ c)
theorem at14_v30 : W14 m ρ c (Proc.devRef .tc main_v30) = Spec.norm Ideal (m ((c : Thread nD τ).loc main_arg1)) := by
  exact (HostLines.hostOps7_keep (W13 m ρ c) main_v30 (by decide)).trans (at13_v30 m ρ c)
theorem at14_arg10 : W14 m ρ c (Proc.devRef .tc main_arg10) = m ((c : Thread nD τ).loc main_arg10) := by
  exact (HostLines.hostOps7_keep (W13 m ρ c) main_arg10 (by decide)).trans (at13_arg10 m ρ c)
theorem at14_arg11 : W14 m ρ c (Proc.devRef .tc main_arg11) = m ((c : Thread nD τ).loc main_arg11) := by
  exact (HostLines.hostOps7_keep (W13 m ρ c) main_arg11 (by decide)).trans (at13_arg11 m ρ c)
theorem at14_arg12 : W14 m ρ c (Proc.devRef .tc main_arg12) = m ((c : Thread nD τ).loc main_arg12) := by
  exact (HostLines.hostOps7_keep (W13 m ρ c) main_arg12 (by decide)).trans (at13_arg12 m ρ c)
theorem at14_arg13 : W14 m ρ c (Proc.devRef .tc main_arg13) = m ((c : Thread nD τ).loc main_arg13) := by
  exact (HostLines.hostOps7_keep (W13 m ρ c) main_arg13 (by decide)).trans (at13_arg13 m ρ c)
theorem at14_v78 : W14 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (HostLines.hostOps7_keep (W13 m ρ c) main_v78 (by decide)).trans (at13_v78 m ρ c)
theorem at14_v79 : W14 m ρ c (Proc.devRef .tc main_v79) = Spec.lin64x64 Ideal (Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
  exact (HostLines.hostOps7_keep (W13 m ρ c) main_v79 (by decide)).trans (at13_v79 m ρ c)

/-! ### Boundary 15: after region 7 -/

/-- Layer 3's output: the decoder's first hidden layer. -/
theorem at15_v94 : W15 m ρ c (Proc.devRef .tc main_v94) = Spec.dec1 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W15_arr m ρ c 3).trans ((Region7.final (V14 m ρ) c (m ((c : Thread nD τ).loc main_arg9)) shapeCasts_S64_S1x64 (at14_v93 m ρ c)).trans ?_)
  show Spec.relu64 Ideal (Spec.comb64 Ideal 0x3F000000#32 0x3F000000#32 (W14 m ρ c (Proc.devRef .tc main_v79)) (W14 m ρ c (Proc.devRef .tc main_v92)) (m ((c : Thread nD τ).loc main_arg9))) = _
  rw [at14_v79 m ρ c, at14_v92 m ρ c]; rfl
theorem at15_v3 : W15 m ρ c (Proc.devRef .tc main_v3) = Spec.src Ideal (m ((c : Thread nD τ).loc main_arg1)) := by
  exact (W15_of_ne m ρ c main_v3 (by decide)).trans (at14_v3 m ρ c)
theorem at15_v6 : W15 m ρ c (Proc.devRef .tc main_v6) = Spec.tgt Ideal (m ((c : Thread nD τ).loc main_arg1)) := by
  exact (W15_of_ne m ρ c main_v6 (by decide)).trans (at14_v6 m ρ c)
theorem at15_v30 : W15 m ρ c (Proc.devRef .tc main_v30) = Spec.norm Ideal (m ((c : Thread nD τ).loc main_arg1)) := by
  exact (W15_of_ne m ρ c main_v30 (by decide)).trans (at14_v30 m ρ c)
theorem at15_arg10 : W15 m ρ c (Proc.devRef .tc main_arg10) = m ((c : Thread nD τ).loc main_arg10) := by
  exact (W15_of_ne m ρ c main_arg10 (by decide)).trans (at14_arg10 m ρ c)
theorem at15_arg11 : W15 m ρ c (Proc.devRef .tc main_arg11) = m ((c : Thread nD τ).loc main_arg11) := by
  exact (W15_of_ne m ρ c main_arg11 (by decide)).trans (at14_arg11 m ρ c)
theorem at15_arg12 : W15 m ρ c (Proc.devRef .tc main_arg12) = m ((c : Thread nD τ).loc main_arg12) := by
  exact (W15_of_ne m ρ c main_arg12 (by decide)).trans (at14_arg12 m ρ c)
theorem at15_arg13 : W15 m ρ c (Proc.devRef .tc main_arg13) = m ((c : Thread nD τ).loc main_arg13) := by
  exact (W15_of_ne m ρ c main_arg13 (by decide)).trans (at14_arg13 m ρ c)
theorem at15_v78 : W15 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W15_of_ne m ρ c main_v78 (by decide)).trans (at14_v78 m ρ c)

/-! ### Boundary 16: after region 8 -/

/-- The dense product of layer 4. -/
theorem at16_v95 : W16 m ρ c (Proc.devRef .tc main_v95) = Spec.lin64x64 Ideal (Spec.dec1 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
  refine (W16_arr m ρ c 2).trans ((Region8.final (V15 m ρ) c).trans ?_)
  exact congrArg₂ (Spec.lin64x64 Ideal) (at15_v94 m ρ c) (at15_arg10 m ρ c)
theorem at16_v3 : W16 m ρ c (Proc.devRef .tc main_v3) = Spec.src Ideal (m ((c : Thread nD τ).loc main_arg1)) := by
  exact (W16_of_ne m ρ c main_v3 (by decide)).trans (at15_v3 m ρ c)
theorem at16_v6 : W16 m ρ c (Proc.devRef .tc main_v6) = Spec.tgt Ideal (m ((c : Thread nD τ).loc main_arg1)) := by
  exact (W16_of_ne m ρ c main_v6 (by decide)).trans (at15_v6 m ρ c)
theorem at16_v30 : W16 m ρ c (Proc.devRef .tc main_v30) = Spec.norm Ideal (m ((c : Thread nD τ).loc main_arg1)) := by
  exact (W16_of_ne m ρ c main_v30 (by decide)).trans (at15_v30 m ρ c)
theorem at16_arg11 : W16 m ρ c (Proc.devRef .tc main_arg11) = m ((c : Thread nD τ).loc main_arg11) := by
  exact (W16_of_ne m ρ c main_arg11 (by decide)).trans (at15_arg11 m ρ c)
theorem at16_arg12 : W16 m ρ c (Proc.devRef .tc main_arg12) = m ((c : Thread nD τ).loc main_arg12) := by
  exact (W16_of_ne m ρ c main_arg12 (by decide)).trans (at15_arg12 m ρ c)
theorem at16_arg13 : W16 m ρ c (Proc.devRef .tc main_arg13) = m ((c : Thread nD τ).loc main_arg13) := by
  exact (W16_of_ne m ρ c main_arg13 (by decide)).trans (at15_arg13 m ρ c)
theorem at16_v78 : W16 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W16_of_ne m ρ c main_v78 (by decide)).trans (at15_v78 m ρ c)

/-! ### Boundary 17: after the host stretch before region 9 -/

/-- The aggregated messages of layer 4's dense product, and its bias as one row. -/
theorem at17_v108 : W17 m ρ c (Proc.devRef .tc main_v108) = Spec.agg64 Ideal (m ((c : Thread nD τ).loc main_arg1)) (Spec.lin64x64 Ideal (Spec.dec1 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))) := by
  refine (HostLines.hostOps9_agg (W16 m ρ c)).trans ?_
  rw [at16_v3 m ρ c, at16_v6 m ρ c, at16_v30 m ρ c, at16_v95 m ρ c]; rfl
theorem at17_v109 : W17 m ρ c (Proc.devRef .tc main_v109) = shapeCast S1x64 (m ((c : Thread nD τ).loc main_arg11)) shapeCasts_S64_S1x64 := by
  refine (HostLines.hostOps9_bias (W16 m ρ c)).trans ?_
  rw [at16_arg11 m ρ c]
theorem at17_v3 : W17 m ρ c (Proc.devRef .tc main_v3) = Spec.src Ideal (m ((c : Thread nD τ).loc main_arg1)) := by
  exact (HostLines.hostOps9_keep (W16 m ρ c) main_v3 (by decide)).trans (at16_v3 m ρ c)
theorem at17_v6 : W17 m ρ c (Proc.devRef .tc main_v6) = Spec.tgt Ideal (m ((c : Thread nD τ).loc main_arg1)) := by
  exact (HostLines.hostOps9_keep (W16 m ρ c) main_v6 (by decide)).trans (at16_v6 m ρ c)
theorem at17_v30 : W17 m ρ c (Proc.devRef .tc main_v30) = Spec.norm Ideal (m ((c : Thread nD τ).loc main_arg1)) := by
  exact (HostLines.hostOps9_keep (W16 m ρ c) main_v30 (by decide)).trans (at16_v30 m ρ c)
theorem at17_arg12 : W17 m ρ c (Proc.devRef .tc main_arg12) = m ((c : Thread nD τ).loc main_arg12) := by
  exact (HostLines.hostOps9_keep (W16 m ρ c) main_arg12 (by decide)).trans (at16_arg12 m ρ c)
theorem at17_arg13 : W17 m ρ c (Proc.devRef .tc main_arg13) = m ((c : Thread nD τ).loc main_arg13) := by
  exact (HostLines.hostOps9_keep (W16 m ρ c) main_arg13 (by decide)).trans (at16_arg13 m ρ c)
theorem at17_v78 : W17 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (HostLines.hostOps9_keep (W16 m ρ c) main_v78 (by decide)).trans (at16_v78 m ρ c)
theorem at17_v95 : W17 m ρ c (Proc.devRef .tc main_v95) = Spec.lin64x64 Ideal (Spec.dec1 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
  exact (HostLines.hostOps9_keep (W16 m ρ c) main_v95 (by decide)).trans (at16_v95 m ρ c)

/-! ### Boundary 18: after region 9 -/

/-- Layer 4's output: the decoder's second hidden layer. -/
theorem at18_v110 : W18 m ρ c (Proc.devRef .tc main_v110) = Spec.dec2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W18_arr m ρ c 3).trans ((Region9.final (V17 m ρ) c (m ((c : Thread nD τ).loc main_arg11)) shapeCasts_S64_S1x64 (at17_v109 m ρ c)).trans ?_)
  show Spec.relu64 Ideal (Spec.comb64 Ideal 0x3F000000#32 0x3F000000#32 (W17 m ρ c (Proc.devRef .tc main_v95)) (W17 m ρ c (Proc.devRef .tc main_v108)) (m ((c : Thread nD τ).loc main_arg11))) = _
  rw [at17_v95 m ρ c, at17_v108 m ρ c]; rfl
theorem at18_v3 : W18 m ρ c (Proc.devRef .tc main_v3) = Spec.src Ideal (m ((c : Thread nD τ).loc main_arg1)) := by
  exact (W18_of_ne m ρ c main_v3 (by decide)).trans (at17_v3 m ρ c)
theorem at18_v6 : W18 m ρ c (Proc.devRef .tc main_v6) = Spec.tgt Ideal (m ((c : Thread nD τ).loc main_arg1)) := by
  exact (W18_of_ne m ρ c main_v6 (by decide)).trans (at17_v6 m ρ c)
theorem at18_v30 : W18 m ρ c (Proc.devRef .tc main_v30) = Spec.norm Ideal (m ((c : Thread nD τ).loc main_arg1)) := by
  exact (W18_of_ne m ρ c main_v30 (by decide)).trans (at17_v30 m ρ c)
theorem at18_arg12 : W18 m ρ c (Proc.devRef .tc main_arg12) = m ((c : Thread nD τ).loc main_arg12) := by
  exact (W18_of_ne m ρ c main_arg12 (by decide)).trans (at17_arg12 m ρ c)
theorem at18_arg13 : W18 m ρ c (Proc.devRef .tc main_arg13) = m ((c : Thread nD τ).loc main_arg13) := by
  exact (W18_of_ne m ρ c main_arg13 (by decide)).trans (at17_arg13 m ρ c)
theorem at18_v78 : W18 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W18_of_ne m ρ c main_v78 (by decide)).trans (at17_v78 m ρ c)

/-! ### Boundary 19: after region 10 -/

/-- The dense product of layer 5. -/
theorem at19_v111 : W19 m ρ c (Proc.devRef .tc main_v111) = Spec.lin64x128 Ideal (Spec.dec2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) := by
  refine (W19_arr m ρ c 2).trans ((Region10.final (V18 m ρ) c).trans ?_)
  exact congrArg₂ (Spec.lin64x128 Ideal) (at18_v110 m ρ c) (at18_arg12 m ρ c)
theorem at19_v3 : W19 m ρ c (Proc.devRef .tc main_v3) = Spec.src Ideal (m ((c : Thread nD τ).loc main_arg1)) := by
  exact (W19_of_ne m ρ c main_v3 (by decide)).trans (at18_v3 m ρ c)
theorem at19_v6 : W19 m ρ c (Proc.devRef .tc main_v6) = Spec.tgt Ideal (m ((c : Thread nD τ).loc main_arg1)) := by
  exact (W19_of_ne m ρ c main_v6 (by decide)).trans (at18_v6 m ρ c)
theorem at19_v30 : W19 m ρ c (Proc.devRef .tc main_v30) = Spec.norm Ideal (m ((c : Thread nD τ).loc main_arg1)) := by
  exact (W19_of_ne m ρ c main_v30 (by decide)).trans (at18_v30 m ρ c)
theorem at19_arg13 : W19 m ρ c (Proc.devRef .tc main_arg13) = m ((c : Thread nD τ).loc main_arg13) := by
  exact (W19_of_ne m ρ c main_arg13 (by decide)).trans (at18_arg13 m ρ c)
theorem at19_v78 : W19 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W19_of_ne m ρ c main_v78 (by decide)).trans (at18_v78 m ρ c)

/-! ### Boundary 20: after the host stretch before region 11 -/

/-- The aggregated messages of layer 5's dense product, and its bias as one row. -/
theorem at20_v124 : W20 m ρ c (Proc.devRef .tc main_v124) = Spec.agg128 Ideal (m ((c : Thread nD τ).loc main_arg1)) (Spec.lin64x128 Ideal (Spec.dec2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12))) := by
  refine (HostLines.hostOps11_agg (W19 m ρ c)).trans ?_
  rw [at19_v3 m ρ c, at19_v6 m ρ c, at19_v30 m ρ c, at19_v111 m ρ c]; rfl
theorem at20_v125 : W20 m ρ c (Proc.devRef .tc main_v125) = shapeCast S1x128 (m ((c : Thread nD τ).loc main_arg13)) shapeCasts_S128_S1x128 := by
  refine (HostLines.hostOps11_bias (W19 m ρ c)).trans ?_
  rw [at19_arg13 m ρ c]
theorem at20_v78 : W20 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (HostLines.hostOps11_keep (W19 m ρ c) main_v78 (by decide)).trans (at19_v78 m ρ c)
theorem at20_v111 : W20 m ρ c (Proc.devRef .tc main_v111) = Spec.lin64x128 Ideal (Spec.dec2 Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12)) := by
  exact (HostLines.hostOps11_keep (W19 m ρ c) main_v111 (by decide)).trans (at19_v111 m ρ c)

/-! ### Boundary 21: after region 11 -/

/-- Layer 5's output: the reconstruction. -/
theorem at21_v126 : W21 m ρ c (Proc.devRef .tc main_v126) = Spec.recon Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W21_arr m ρ c 3).trans ((Region11.final (V20 m ρ) c (m ((c : Thread nD τ).loc main_arg13)) shapeCasts_S128_S1x128 (at20_v125 m ρ c)).trans ?_)
  show Spec.comb128 Ideal 0x3F000000#32 0x3F000000#32 (W20 m ρ c (Proc.devRef .tc main_v111)) (W20 m ρ c (Proc.devRef .tc main_v124)) (m ((c : Thread nD τ).loc main_arg13)) = _
  rw [at20_v111 m ρ c, at20_v124 m ρ c]; rfl
theorem at21_v78 : W21 m ρ c (Proc.devRef .tc main_v78) = Spec.embed Ideal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (W21_of_ne m ρ c main_v78 (by decide)).trans (at20_v78 m ρ c)

end Cert.KernelIdeal.Chain

end
-- ==== Proof.RefRun.lean ====
/-
  The reference's run, read segment by segment.

  The reference's @main is a straight line of 215 host operations: 41 that build the graph's normalisation (the
  sources and targets of the edges with a self loop per node, the degrees, deg^(-1/2), the edge weights), then six
  layers of 30, 30, 27, 30, 30 and 27 operations (a dense product, the gather / scale / scatter-add along the edges,
  the combination with the bias, and on the hidden layers the max with 0). Each segment's result is stated for ANY
  contents of the buffers it reads, as the layer function of those contents; a buffer a segment does not write keeps
  its contents through it. Chained from the launch memory this gives the two results as the encoder's embedding and
  the decoder's reconstruction of the arguments.
-/
import proofs.«162297_j20255065768607_1_alg».proof.Proof.Gen.ReferenceIdeal
import proofs.«162297_j20255065768607_1_alg».proof.Proof.Spec
import Idealize.ShloMosaic.Lib.StableHlo.Run

noncomputable section

namespace Cert.ReferenceIdeal.Segments

open Cert.ReferenceIdeal Cert.ReferenceIdeal.Gen Idealize.ShloMosaic Idealize.ShloMosaic.TcCoe Idealize.SL.Sem Idealize.ShloMosaic.StableHlo

variable {F : FTy → Type} [FloatOps F]

/-- The graph's normalisation: operations 1 … 41. -/
abbrev opsP : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- The encoder's first layer. -/
abbrev opsL0 : List (HloOp τ sig (Elt F)) :=
  [ binary main_arg0 main_arg2 main_v31 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v40 main_v41 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v42 (broadcastInDim S100000x64 ![] bcast_S_S100000x64 : (⟨S_, .f32⟩ : BufTy).Contents (Elt F) → (⟨S100000x64, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_9 (constant S_ .f32 0x00000000#32),
    unary main_cst_9 main_v45 (broadcastInDim S100000x64 ![] bcast_S_S100000x64 : (⟨S_, .f32⟩ : BufTy).Contents (Elt F) → (⟨S100000x64, .f32⟩ : BufTy).Contents (Elt F)),
    binary main_v45 main_v31 main_v46 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3F800000#32),
    unary main_cst_10 main_v47 (broadcastInDim S100000x64 ![] bcast_S_S100000x64 : (⟨S_, .f32⟩ : BufTy).Contents (Elt F) → (⟨S100000x64, .f32⟩ : BufTy).Contents (Elt F)),
    binary main_v47 main_v44 main_v48 (mulf : (⟨S100000x64, .f32⟩ : BufTy).Contents (Elt F) → (⟨S100000x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    unary main_arg3 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v52) (TRef.of (T := ⟨S100000x64, .f32⟩) main_call1_v0) (TRef.of (T := ⟨S100000x64, .f32⟩) main_v53) maximumf ]

/-- The encoder's second layer. -/
abbrev opsL1 : List (HloOp τ sig (Elt F)) :=
  [ binary main_v53 main_arg4 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_11 (constantI S_ 32 0#32),
    unary main_c_11 main_v55 (broadcastInDim S1700000 ![] bcast_S_S1700000 : (⟨S_, .i32⟩ : BufTy).Contents (Elt F) → (⟨S1700000, .i32⟩ : BufTy).Contents (Elt F)),
    binary main_v3 main_v55 main_v56 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v57 (broadcastInDim S1700000 ![] bcast_S_S1700000 : (⟨S_, .i32⟩ : BufTy).Contents (Elt F) → (⟨S1700000, .i32⟩ : BufTy).Contents (Elt F)),
    binary main_v3 main_v57 main_v58 (addi : (⟨S1700000, .i32⟩ : BufTy).Contents (Elt F) → (⟨S1700000, .i32⟩ : BufTy).Contents (Elt F) → (⟨S1700000, .i32⟩ : BufTy).Contents (Elt F)),
    ternary main_v56 main_v58 main_v3 main_v59 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v59 main_v60 (broadcastInDim S1700000x1 ![0] bcast_S1700000_S1700000x1_0 : (⟨S1700000, .i32⟩ : BufTy).Contents (Elt F) → (⟨S1700000x1, .i32⟩ : BufTy).Contents (Elt F)),
    binary main_v54 main_v60 main_v61 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v62 (broadcastInDim S1700000x1 ![0] bcast_S1700000_S1700000x1_0 : (⟨S1700000, .f32⟩ : BufTy).Contents (Elt F) → (⟨S1700000x1, .f32⟩ : BufTy).Contents (Elt F)),
    unary main_v62 main_v63 (broadcastInDim S1700000x64 ![0, 1] bcast_S1700000x1_S1700000x64_0_1 : (⟨S1700000x1, .f32⟩ : BufTy).Contents (Elt F) → (⟨S1700000x64, .f32⟩ : BufTy).Contents (Elt F)),
    binary main_v61 main_v63 main_v64 (mulf : (⟨S1700000x64, .f32⟩ : BufTy).Contents (Elt F) → (⟨S1700000x64, .f32⟩ : BufTy).Contents (Elt F) → (⟨S1700000x64, .f32⟩ : BufTy).Contents (Elt F)),
    nullary main_cst_13 (constant S_ .f32 0x00000000#32),
    unary main_cst_13 main_v65 (broadcastInDim S100000x64 ![] bcast_S_S100000x64 : (⟨S_, .f32⟩ : BufTy).Contents (Elt F) → (⟨S100000x64, .f32⟩ : BufTy).Contents (Elt F)),
    unary main_v6 main_v66 (broadcastInDim S1700000x1 ![0] bcast_S1700000_S1700000x1_0 : (⟨S1700000, .i32⟩ : BufTy).Contents (Elt F) → (⟨S1700000x1, .i32⟩ : BufTy).Contents (Elt F)),
    ternary main_v65 main_v66 main_v64 main_v67 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_14 (constant S_ .f32 0x00000000#32),
    unary main_cst_14 main_v68 (broadcastInDim S100000x64 ![] bcast_S_S100000x64 : (⟨S_, .f32⟩ : BufTy).Contents (Elt F) → (⟨S100000x64, .f32⟩ : BufTy).Contents (Elt F)),
    binary main_v68 main_v54 main_v69 (mulf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x3F800000#32),
    unary main_cst_15 main_v70 (broadcastInDim S100000x64 ![] bcast_S_S100000x64 : (⟨S_, .f32⟩ : BufTy).Contents (Elt F) → (⟨S100000x64, .f32⟩ : BufTy).Contents (Elt F)),
    binary main_v70 main_v67 main_v71 (mulf : (⟨S100000x64, .f32⟩ : BufTy).Contents (Elt F) → (⟨S100000x64, .f32⟩ : BufTy).Contents (Elt F) → (⟨S100000x64, .f32⟩ : BufTy).Contents (Elt F)),
    binary main_v69 main_v71 main_v72 (addf : (⟨S100000x64, .f32⟩ : BufTy).Contents (Elt F) → (⟨S100000x64, .f32⟩ : BufTy).Contents (Elt F) → (⟨S100000x64, .f32⟩ : BufTy).Contents (Elt F)),
    unary main_arg5 main_v73 (broadcastInDim S1x64 ![1] bcast_S64_S1x64_1 : (⟨S64, .f32⟩ : BufTy).Contents (Elt F) → (⟨S1x64, .f32⟩ : BufTy).Contents (Elt F)),
    unary main_v73 main_v74 (broadcastInDim S100000x64 ![0, 1] bcast_S1x64_S100000x64_0_1 : (⟨S1x64, .f32⟩ : BufTy).Contents (Elt F) → (⟨S100000x64, .f32⟩ : BufTy).Contents (Elt F)),
    binary main_v72 main_v74 main_v75 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v75) (TRef.of (T := ⟨S100000x64, .f32⟩) main_call2_v0) (TRef.of (T := ⟨S100000x64, .f32⟩) main_v76) maximumf ]

/-- The embedding layer. -/
abbrev opsL2 : List (HloOp τ sig (Elt F)) :=
  [ binary main_v76 main_arg6 main_v77 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v78 (broadcastInDim S1700000 ![] bcast_S_S1700000 : (⟨S_, .i32⟩ : BufTy).Contents (Elt F) → (⟨S1700000, .i32⟩ : BufTy).Contents (Elt F)),
    binary main_v3 main_v78 main_v79 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v80 (broadcastInDim S1700000 ![] bcast_S_S1700000 : (⟨S_, .i32⟩ : BufTy).Contents (Elt F) → (⟨S1700000, .i32⟩ : BufTy).Contents (Elt F)),
    binary main_v3 main_v80 main_v81 (addi : (⟨S1700000, .i32⟩ : BufTy).Contents (Elt F) → (⟨S1700000, .i32⟩ : BufTy).Contents (Elt F) → (⟨S1700000, .i32⟩ : BufTy).Contents (Elt F)),
    ternary main_v79 main_v81 main_v3 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v82 main_v83 (broadcastInDim S1700000x1 ![0] bcast_S1700000_S1700000x1_0 : (⟨S1700000, .i32⟩ : BufTy).Contents (Elt F) → (⟨S1700000x1, .i32⟩ : BufTy).Contents (Elt F)),
    binary main_v77 main_v83 main_v84 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v85 (broadcastInDim S1700000x1 ![0] bcast_S1700000_S1700000x1_0 : (⟨S1700000, .f32⟩ : BufTy).Contents (Elt F) → (⟨S1700000x1, .f32⟩ : BufTy).Contents (Elt F)),
    unary main_v85 main_v86 (broadcastInDim S1700000x64 ![0, 1] bcast_S1700000x1_S1700000x64_0_1 : (⟨S1700000x1, .f32⟩ : BufTy).Contents (Elt F) → (⟨S1700000x64, .f32⟩ : BufTy).Contents (Elt F)),
    binary main_v84 main_v86 main_v87 (mulf : (⟨S1700000x64, .f32⟩ : BufTy).Contents (Elt F) → (⟨S1700000x64, .f32⟩ : BufTy).Contents (Elt F) → (⟨S1700000x64, .f32⟩ : BufTy).Contents (Elt F)),
    nullary main_cst_18 (constant S_ .f32 0x00000000#32),
    unary main_cst_18 main_v88 (broadcastInDim S100000x64 ![] bcast_S_S100000x64 : (⟨S_, .f32⟩ : BufTy).Contents (Elt F) → (⟨S100000x64, .f32⟩ : BufTy).Contents (Elt F)),
    unary main_v6 main_v89 (broadcastInDim S1700000x1 ![0] bcast_S1700000_S1700000x1_0 : (⟨S1700000, .i32⟩ : BufTy).Contents (Elt F) → (⟨S1700000x1, .i32⟩ : BufTy).Contents (Elt F)),
    ternary main_v88 main_v89 main_v87 main_v90 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_19 (constant S_ .f32 0x00000000#32),
    unary main_cst_19 main_v91 (broadcastInDim S100000x64 ![] bcast_S_S100000x64 : (⟨S_, .f32⟩ : BufTy).Contents (Elt F) → (⟨S100000x64, .f32⟩ : BufTy).Contents (Elt F)),
    binary main_v91 main_v77 main_v92 (mulf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3F800000#32),
    unary main_cst_20 main_v93 (broadcastInDim S100000x64 ![] bcast_S_S100000x64 : (⟨S_, .f32⟩ : BufTy).Contents (Elt F) → (⟨S100000x64, .f32⟩ : BufTy).Contents (Elt F)),
    binary main_v93 main_v90 main_v94 (mulf : (⟨S100000x64, .f32⟩ : BufTy).Contents (Elt F) → (⟨S100000x64, .f32⟩ : BufTy).Contents (Elt F) → (⟨S100000x64, .f32⟩ : BufTy).Contents (Elt F)),
    binary main_v92 main_v94 main_v95 (addf : (⟨S100000x64, .f32⟩ : BufTy).Contents (Elt F) → (⟨S100000x64, .f32⟩ : BufTy).Contents (Elt F) → (⟨S100000x64, .f32⟩ : BufTy).Contents (Elt F)),
    unary main_arg7 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)) ]

/-- The decoder's first layer. -/
abbrev opsL3 : List (HloOp τ sig (Elt F)) :=
  [ binary main_v98 main_arg8 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_21 (constantI S_ 32 0#32),
    unary main_c_21 main_v100 (broadcastInDim S1700000 ![] bcast_S_S1700000 : (⟨S_, .i32⟩ : BufTy).Contents (Elt F) → (⟨S1700000, .i32⟩ : BufTy).Contents (Elt F)),
    binary main_v3 main_v100 main_v101 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v102 (broadcastInDim S1700000 ![] bcast_S_S1700000 : (⟨S_, .i32⟩ : BufTy).Contents (Elt F) → (⟨S1700000, .i32⟩ : BufTy).Contents (Elt F)),
    binary main_v3 main_v102 main_v103 (addi : (⟨S1700000, .i32⟩ : BufTy).Contents (Elt F) → (⟨S1700000, .i32⟩ : BufTy).Contents (Elt F) → (⟨S1700000, .i32⟩ : BufTy).Contents (Elt F)),
    ternary main_v101 main_v103 main_v3 main_v104 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v104 main_v105 (broadcastInDim S1700000x1 ![0] bcast_S1700000_S1700000x1_0 : (⟨S1700000, .i32⟩ : BufTy).Contents (Elt F) → (⟨S1700000x1, .i32⟩ : BufTy).Contents (Elt F)),
    binary main_v99 main_v105 main_v106 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v107 (broadcastInDim S1700000x1 ![0] bcast_S1700000_S1700000x1_0 : (⟨S1700000, .f32⟩ : BufTy).Contents (Elt F) → (⟨S1700000x1, .f32⟩ : BufTy).Contents (Elt F)),
    unary main_v107 main_v108 (broadcastInDim S1700000x64 ![0, 1] bcast_S1700000x1_S1700000x64_0_1 : (⟨S1700000x1, .f32⟩ : BufTy).Contents (Elt F) → (⟨S1700000x64, .f32⟩ : BufTy).Contents (Elt F)),
    binary main_v106 main_v108 main_v109 (mulf : (⟨S1700000x64, .f32⟩ : BufTy).Contents (Elt F) → (⟨S1700000x64, .f32⟩ : BufTy).Contents (Elt F) → (⟨S1700000x64, .f32⟩ : BufTy).Contents (Elt F)),
    nullary main_cst_23 (constant S_ .f32 0x00000000#32),
    unary main_cst_23 main_v110 (broadcastInDim S100000x64 ![] bcast_S_S100000x64 : (⟨S_, .f32⟩ : BufTy).Contents (Elt F) → (⟨S100000x64, .f32⟩ : BufTy).Contents (Elt F)),
    unary main_v6 main_v111 (broadcastInDim S1700000x1 ![0] bcast_S1700000_S1700000x1_0 : (⟨S1700000, .i32⟩ : BufTy).Contents (Elt F) → (⟨S1700000x1, .i32⟩ : BufTy).Contents (Elt F)),
    ternary main_v110 main_v111 main_v109 main_v112 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_24 (constant S_ .f32 0x3F000000#32),
    unary main_cst_24 main_v113 (broadcastInDim S100000x64 ![] bcast_S_S100000x64 : (⟨S_, .f32⟩ : BufTy).Contents (Elt F) → (⟨S100000x64, .f32⟩ : BufTy).Contents (Elt F)),
    binary main_v113 main_v99 main_v114 (mulf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F000000#32),
    unary main_cst_25 main_v115 (broadcastInDim S100000x64 ![] bcast_S_S100000x64 : (⟨S_, .f32⟩ : BufTy).Contents (Elt F) → (⟨S100000x64, .f32⟩ : BufTy).Contents (Elt F)),
    binary main_v115 main_v112 main_v116 (mulf : (⟨S100000x64, .f32⟩ : BufTy).Contents (Elt F) → (⟨S100000x64, .f32⟩ : BufTy).Contents (Elt F) → (⟨S100000x64, .f32⟩ : BufTy).Contents (Elt F)),
    binary main_v114 main_v116 main_v117 (addf : (⟨S100000x64, .f32⟩ : BufTy).Contents (Elt F) → (⟨S100000x64, .f32⟩ : BufTy).Contents (Elt F) → (⟨S100000x64, .f32⟩ : BufTy).Contents (Elt F)),
    unary main_arg9 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v120) (TRef.of (T := ⟨S100000x64, .f32⟩) main_call3_v0) (TRef.of (T := ⟨S100000x64, .f32⟩) main_v121) maximumf ]

/-- The decoder's second layer. -/
abbrev opsL4 : List (HloOp τ sig (Elt F)) :=
  [ binary main_v121 main_arg10 main_v122 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_26 (constantI S_ 32 0#32),
    unary main_c_26 main_v123 (broadcastInDim S1700000 ![] bcast_S_S1700000 : (⟨S_, .i32⟩ : BufTy).Contents (Elt F) → (⟨S1700000, .i32⟩ : BufTy).Contents (Elt F)),
    binary main_v3 main_v123 main_v124 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v125 (broadcastInDim S1700000 ![] bcast_S_S1700000 : (⟨S_, .i32⟩ : BufTy).Contents (Elt F) → (⟨S1700000, .i32⟩ : BufTy).Contents (Elt F)),
    binary main_v3 main_v125 main_v126 (addi : (⟨S1700000, .i32⟩ : BufTy).Contents (Elt F) → (⟨S1700000, .i32⟩ : BufTy).Contents (Elt F) → (⟨S1700000, .i32⟩ : BufTy).Contents (Elt F)),
    ternary main_v124 main_v126 main_v3 main_v127 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v127 main_v128 (broadcastInDim S1700000x1 ![0] bcast_S1700000_S1700000x1_0 : (⟨S1700000, .i32⟩ : BufTy).Contents (Elt F) → (⟨S1700000x1, .i32⟩ : BufTy).Contents (Elt F)),
    binary main_v122 main_v128 main_v129 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v130 (broadcastInDim S1700000x1 ![0] bcast_S1700000_S1700000x1_0 : (⟨S1700000, .f32⟩ : BufTy).Contents (Elt F) → (⟨S1700000x1, .f32⟩ : BufTy).Contents (Elt F)),
    unary main_v130 main_v131 (broadcastInDim S1700000x64 ![0, 1] bcast_S1700000x1_S1700000x64_0_1 : (⟨S1700000x1, .f32⟩ : BufTy).Contents (Elt F) → (⟨S1700000x64, .f32⟩ : BufTy).Contents (Elt F)),
    binary main_v129 main_v131 main_v132 (mulf : (⟨S1700000x64, .f32⟩ : BufTy).Contents (Elt F) → (⟨S1700000x64, .f32⟩ : BufTy).Contents (Elt F) → (⟨S1700000x64, .f32⟩ : BufTy).Contents (Elt F)),
    nullary main_cst_28 (constant S_ .f32 0x00000000#32),
    unary main_cst_28 main_v133 (broadcastInDim S100000x64 ![] bcast_S_S100000x64 : (⟨S_, .f32⟩ : BufTy).Contents (Elt F) → (⟨S100000x64, .f32⟩ : BufTy).Contents (Elt F)),
    unary main_v6 main_v134 (broadcastInDim S1700000x1 ![0] bcast_S1700000_S1700000x1_0 : (⟨S1700000, .i32⟩ : BufTy).Contents (Elt F) → (⟨S1700000x1, .i32⟩ : BufTy).Contents (Elt F)),
    ternary main_v133 main_v134 main_v132 main_v135 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_29 (constant S_ .f32 0x3F000000#32),
    unary main_cst_29 main_v136 (broadcastInDim S100000x64 ![] bcast_S_S100000x64 : (⟨S_, .f32⟩ : BufTy).Contents (Elt F) → (⟨S100000x64, .f32⟩ : BufTy).Contents (Elt F)),
    binary main_v136 main_v122 main_v137 (mulf : (⟨S100000x64, .f32⟩ : BufTy).Contents (Elt F) → (⟨S100000x64, .f32⟩ : BufTy).Contents (Elt F) → (⟨S100000x64, .f32⟩ : BufTy).Contents (Elt F)),
    nullary main_cst_30 (constant S_ .f32 0x3F000000#32),
    unary main_cst_30 main_v138 (broadcastInDim S100000x64 ![] bcast_S_S100000x64 : (⟨S_, .f32⟩ : BufTy).Contents (Elt F) → (⟨S100000x64, .f32⟩ : BufTy).Contents (Elt F)),
    binary main_v138 main_v135 main_v139 (mulf : (⟨S100000x64, .f32⟩ : BufTy).Contents (Elt F) → (⟨S100000x64, .f32⟩ : BufTy).Contents (Elt F) → (⟨S100000x64, .f32⟩ : BufTy).Contents (Elt F)),
    binary main_v137 main_v139 main_v140 (addf : (⟨S100000x64, .f32⟩ : BufTy).Contents (Elt F) → (⟨S100000x64, .f32⟩ : BufTy).Contents (Elt F) → (⟨S100000x64, .f32⟩ : BufTy).Contents (Elt F)),
    unary main_arg11 main_v141 (broadcastInDim S1x64 ![1] bcast_S64_S1x64_1 : (⟨S64, .f32⟩ : BufTy).Contents (Elt F) → (⟨S1x64, .f32⟩ : BufTy).Contents (Elt F)),
    unary main_v141 main_v142 (broadcastInDim S100000x64 ![0, 1] bcast_S1x64_S100000x64_0_1 : (⟨S1x64, .f32⟩ : BufTy).Contents (Elt F) → (⟨S100000x64, .f32⟩ : BufTy).Contents (Elt F)),
    binary main_v140 main_v142 main_v143 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v143) (TRef.of (T := ⟨S100000x64, .f32⟩) main_call4_v0) (TRef.of (T := ⟨S100000x64, .f32⟩) main_v144) maximumf ]

/-- The reconstruction layer. -/
abbrev opsL5 : List (HloOp τ sig (Elt F)) :=
  [ binary main_v144 main_arg12 main_v145 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_31 (constantI S_ 32 0#32),
    unary main_c_31 main_v146 (broadcastInDim S1700000 ![] bcast_S_S1700000 : (⟨S_, .i32⟩ : BufTy).Contents (Elt F) → (⟨S1700000, .i32⟩ : BufTy).Contents (Elt F)),
    binary main_v3 main_v146 main_v147 (cmpi .slt : (⟨S1700000, .i32⟩ : BufTy).Contents (Elt F) → (⟨S1700000, .i32⟩ : BufTy).Contents (Elt F) → (⟨S1700000, .i1⟩ : BufTy).Contents (Elt F)),
    nullary main_c_32 (constantI S_ 32 100000#32),
    unary main_c_32 main_v148 (broadcastInDim S1700000 ![] bcast_S_S1700000 : (⟨S_, .i32⟩ : BufTy).Contents (Elt F) → (⟨S1700000, .i32⟩ : BufTy).Contents (Elt F)),
    binary main_v3 main_v148 main_v149 (addi : (⟨S1700000, .i32⟩ : BufTy).Contents (Elt F) → (⟨S1700000, .i32⟩ : BufTy).Contents (Elt F) → (⟨S1700000, .i32⟩ : BufTy).Contents (Elt F)),
    ternary main_v147 main_v149 main_v3 main_v150 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v150 main_v151 (broadcastInDim S1700000x1 ![0] bcast_S1700000_S1700000x1_0 : (⟨S1700000, .i32⟩ : BufTy).Contents (Elt F) → (⟨S1700000x1, .i32⟩ : BufTy).Contents (Elt F)),
    binary main_v145 main_v151 main_v152 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v153 (broadcastInDim S1700000x1 ![0] bcast_S1700000_S1700000x1_0 : (⟨S1700000, .f32⟩ : BufTy).Contents (Elt F) → (⟨S1700000x1, .f32⟩ : BufTy).Contents (Elt F)),
    unary main_v153 main_v154 (broadcastInDim S1700000x128 ![0, 1] bcast_S1700000x1_S1700000x128_0_1 : (⟨S1700000x1, .f32⟩ : BufTy).Contents (Elt F) → (⟨S1700000x128, .f32⟩ : BufTy).Contents (Elt F)),
    binary main_v152 main_v154 main_v155 (mulf : (⟨S1700000x128, .f32⟩ : BufTy).Contents (Elt F) → (⟨S1700000x128, .f32⟩ : BufTy).Contents (Elt F) → (⟨S1700000x128, .f32⟩ : BufTy).Contents (Elt F)),
    nullary main_cst_33 (constant S_ .f32 0x00000000#32),
    unary main_cst_33 main_v156 (broadcastInDim S100000x128 ![] bcast_S_S100000x128 : (⟨S_, .f32⟩ : BufTy).Contents (Elt F) → (⟨S100000x128, .f32⟩ : BufTy).Contents (Elt F)),
    unary main_v6 main_v157 (broadcastInDim S1700000x1 ![0] bcast_S1700000_S1700000x1_0 : (⟨S1700000, .i32⟩ : BufTy).Contents (Elt F) → (⟨S1700000x1, .i32⟩ : BufTy).Contents (Elt F)),
    ternary main_v156 main_v157 main_v155 main_v158 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    nullary main_cst_34 (constant S_ .f32 0x3F000000#32),
    unary main_cst_34 main_v159 (broadcastInDim S100000x128 ![] bcast_S_S100000x128 : (⟨S_, .f32⟩ : BufTy).Contents (Elt F) → (⟨S100000x128, .f32⟩ : BufTy).Contents (Elt F)),
    binary main_v159 main_v145 main_v160 (mulf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x3F000000#32),
    unary main_cst_35 main_v161 (broadcastInDim S100000x128 ![] bcast_S_S100000x128 : (⟨S_, .f32⟩ : BufTy).Contents (Elt F) → (⟨S100000x128, .f32⟩ : BufTy).Contents (Elt F)),
    binary main_v161 main_v158 main_v162 (mulf : (⟨S100000x128, .f32⟩ : BufTy).Contents (Elt F) → (⟨S100000x128, .f32⟩ : BufTy).Contents (Elt F) → (⟨S100000x128, .f32⟩ : BufTy).Contents (Elt F)),
    binary main_v160 main_v162 main_v163 (addf : (⟨S100000x128, .f32⟩ : BufTy).Contents (Elt F) → (⟨S100000x128, .f32⟩ : BufTy).Contents (Elt F) → (⟨S100000x128, .f32⟩ : BufTy).Contents (Elt F)),
    unary main_arg13 main_v164 (broadcastInDim S1x128 ![1] bcast_S128_S1x128_1 : (⟨S128, .f32⟩ : BufTy).Contents (Elt F) → (⟨S1x128, .f32⟩ : BufTy).Contents (Elt F)),
    unary main_v164 main_v165 (broadcastInDim S100000x128 ![0, 1] bcast_S1x128_S100000x128_0_1 : (⟨S1x128, .f32⟩ : BufTy).Contents (Elt F) → (⟨S100000x128, .f32⟩ : BufTy).Contents (Elt F)),
    binary main_v163 main_v165 main_v166 (addf : (⟨S100000x128, .f32⟩ : BufTy).Contents (Elt F) → (⟨S100000x128, .f32⟩ : BufTy).Contents (Elt F) → (⟨S100000x128, .f32⟩ : BufTy).Contents (Elt F)) ]

/-- @main's 215 operations, in order. -/
abbrev ops : List (HloOp τ sig (Elt F)) :=
  opsP ++ (opsL0 ++ (opsL1 ++ (opsL2 ++ (opsL3 ++ (opsL4 ++ opsL5)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsL0_sub : (opsL0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsL4_sub : (opsL4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
set_option maxRecDepth 8192 in
theorem opsL5_sub : (opsL5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsP_sub op h, List.forall_iff_forall_mem.mp opsL0_sub op h, List.forall_iff_forall_mem.mp opsL1_sub op h, List.forall_iff_forall_mem.mp opsL2_sub op h, List.forall_iff_forall_mem.mp opsL3_sub op h, List.forall_iff_forall_mem.mp opsL4_sub op h, List.forall_iff_forall_mem.mp opsL5_sub op h]

/-- The buffers the segment writes. -/
abbrev opsP_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_v22, main_c_4, main_v23, main_v24, main_c_5, main_v25, main_v26, main_v27, main_v28, main_v29, main_v30]
set_option maxRecDepth 8192 in
theorem opsP_writes : (opsP : List (HloOp τ sig (Elt F))).Forall fun op => op.writes ⊆ (opsP_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsP_keep (V : Valuation τ sig (Elt F)) (r : Ref sig .tc) (h : r ∉ opsP_W) :
    after opsP V (Proc.devRef .tc r) = V (Proc.devRef .tc r) :=
  after_of_writes_sub opsP _ opsP_writes h

/-- The buffers the segment writes. -/
abbrev opsL0_W : List (Ref sig .tc) := [main_v31, main_c_6, main_v32, main_v33, main_c_7, main_v34, main_v35, main_v36, main_v37, main_v38, main_v39, main_v40, main_v41, main_cst_8, main_v42, main_v43, main_v44, main_cst_9, main_v45, main_v46, main_cst_10, main_v47, main_v48, main_v49, main_v50, main_v51, main_v52, main_call1_cst, main_call1_v0, main_v53]
set_option maxRecDepth 8192 in
theorem opsL0_writes : (opsL0 : List (HloOp τ sig (Elt F))).Forall fun op => op.writes ⊆ (opsL0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL0_keep (V : Valuation τ sig (Elt F)) (r : Ref sig .tc) (h : r ∉ opsL0_W) :
    after opsL0 V (Proc.devRef .tc r) = V (Proc.devRef .tc r) :=
  after_of_writes_sub opsL0 _ opsL0_writes h

/-- The buffers the segment writes. -/
abbrev opsL1_W : List (Ref sig .tc) := [main_v54, main_c_11, main_v55, main_v56, main_c_12, main_v57, main_v58, main_v59, main_v60, main_v61, main_v62, main_v63, main_v64, main_cst_13, main_v65, main_v66, main_v67, main_cst_14, main_v68, main_v69, main_cst_15, main_v70, main_v71, main_v72, main_v73, main_v74, main_v75, main_call2_cst, main_call2_v0, main_v76]
set_option maxRecDepth 8192 in
theorem opsL1_writes : (opsL1 : List (HloOp τ sig (Elt F))).Forall fun op => op.writes ⊆ (opsL1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 _ opsL1_writes h

/-- The buffers the segment writes. -/
abbrev opsL2_W : List (Ref sig .tc) := [main_v77, main_c_16, main_v78, main_v79, main_c_17, main_v80, main_v81, main_v82, main_v83, main_v84, main_v85, main_v86, main_v87, main_cst_18, main_v88, main_v89, main_v90, main_cst_19, main_v91, main_v92, main_cst_20, main_v93, main_v94, main_v95, main_v96, main_v97, main_v98]
set_option maxRecDepth 8192 in
theorem opsL2_writes : (opsL2 : List (HloOp τ sig (Elt F))).Forall fun op => op.writes ⊆ (opsL2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 _ opsL2_writes h

/-- The buffers the segment writes. -/
abbrev opsL3_W : List (Ref sig .tc) := [main_v99, main_c_21, main_v100, main_v101, main_c_22, main_v102, main_v103, main_v104, main_v105, main_v106, main_v107, main_v108, main_v109, main_cst_23, main_v110, main_v111, main_v112, main_cst_24, main_v113, main_v114, main_cst_25, main_v115, main_v116, main_v117, main_v118, main_v119, main_v120, main_call3_cst, main_call3_v0, main_v121]
set_option maxRecDepth 8192 in
theorem opsL3_writes : (opsL3 : List (HloOp τ sig (Elt F))).Forall fun op => op.writes ⊆ (opsL3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 _ opsL3_writes h

/-- The buffers the segment writes. -/
abbrev opsL4_W : List (Ref sig .tc) := [main_v122, main_c_26, main_v123, main_v124, main_c_27, main_v125, main_v126, main_v127, main_v128, main_v129, main_v130, main_v131, main_v132, main_cst_28, main_v133, main_v134, main_v135, main_cst_29, main_v136, main_v137, main_cst_30, main_v138, main_v139, main_v140, main_v141, main_v142, main_v143, main_call4_cst, main_call4_v0, main_v144]
set_option maxRecDepth 8192 in
theorem opsL4_writes : (opsL4 : List (HloOp τ sig (Elt F))).Forall fun op => op.writes ⊆ (opsL4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL4_keep (V : Valuation τ sig (Elt F)) (r : Ref sig .tc) (h : r ∉ opsL4_W) :
    after opsL4 V (Proc.devRef .tc r) = V (Proc.devRef .tc r) :=
  after_of_writes_sub opsL4 _ opsL4_writes h

/-- The buffers the segment writes. -/
abbrev opsL5_W : List (Ref sig .tc) := [main_v145, main_c_31, main_v146, main_v147, main_c_32, main_v148, main_v149, main_v150, main_v151, main_v152, main_v153, main_v154, main_v155, main_cst_33, main_v156, main_v157, main_v158, main_cst_34, main_v159, main_v160, main_cst_35, main_v161, main_v162, main_v163, main_v164, main_v165, main_v166]
set_option maxRecDepth 8192 in
theorem opsL5_writes : (opsL5 : List (HloOp τ sig (Elt F))).Forall fun op => op.writes ⊆ (opsL5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the segment does not write keeps its contents through it. -/
theorem opsL5_keep (V : Valuation τ sig (Elt F)) (r : Ref sig .tc) (h : r ∉ opsL5_W) :
    after opsL5 V (Proc.devRef .tc r) = V (Proc.devRef .tc r) :=
  after_of_writes_sub opsL5 _ opsL5_writes h

/-! ## What each segment computes, from any contents of the buffers it reads -/

set_option maxRecDepth 8192 in
set_option maxHeartbeats 4000000 in
/-- The sources of the edges. -/
theorem P_src (V : Valuation τ sig (Elt F)) : after opsP V (no_index (Proc.devRef .tc main_v3)) = Spec.src F (V (Proc.devRef .tc main_arg1)) := by
  simp only [opsP]
  after_results_simp
  try dsimp only [Matrix.cons_val]
  try after_results_simp
  try simp only [TRef.toBuf, TRef.ofBuf, cast_eq]
  rfl

set_option maxRecDepth 8192 in
set_option maxHeartbeats 4000000 in
/-- The targets of the edges. -/
theorem P_tgt (V : Valuation τ sig (Elt F)) : after opsP V (no_index (Proc.devRef .tc main_v6)) = Spec.tgt F (V (Proc.devRef .tc main_arg1)) := by
  simp only [opsP]
  after_results_simp
  try dsimp only [Matrix.cons_val]
  try after_results_simp
  try simp only [TRef.toBuf, TRef.ofBuf, cast_eq]
  rfl

set_option maxRecDepth 8192 in
set_option maxHeartbeats 4000000 in
/-- The edges' weights. -/
theorem P_norm (V : Valuation τ sig (Elt F)) : after opsP V (no_index (Proc.devRef .tc main_v30)) = Spec.norm F (V (Proc.devRef .tc main_arg1)) := by
  simp only [opsP]
  after_results_simp
  try dsimp only [Matrix.cons_val]
  try after_results_simp
  try simp only [TRef.toBuf, TRef.ofBuf, cast_eq]
  rfl

set_option maxRecDepth 8192 in
set_option maxHeartbeats 4000000 in
/-- Layer 0: from the node features, the weights, the bias and the graph's sources, targets and edge weights. -/
theorem L0_out (V : Valuation τ sig (Elt F)) : after opsL0 V (no_index (Proc.devRef .tc main_v53)) = Spec.relu64 F (Spec.convOf64 F 0x00000000#32 0x3F800000#32 (V (Proc.devRef .tc main_v3)) (V (Proc.devRef .tc main_v6)) (V (Proc.devRef .tc main_v30)) (Spec.lin128x64 F (V (Proc.devRef .tc main_arg0)) (V (Proc.devRef .tc main_arg2))) (V (Proc.devRef .tc main_arg3))) := by
  simp only [opsL0]
  after_results_simp
  try dsimp only [Matrix.cons_val]
  try after_results_simp
  try simp only [TRef.toBuf, TRef.ofBuf, cast_eq]
  rfl

set_option maxRecDepth 8192 in
set_option maxHeartbeats 4000000 in
/-- Layer 1: from the node features, the weights, the bias and the graph's sources, targets and edge weights. -/
theorem L1_out (V : Valuation τ sig (Elt F)) : after opsL1 V (no_index (Proc.devRef .tc main_v76)) = Spec.relu64 F (Spec.convOf64 F 0x00000000#32 0x3F800000#32 (V (Proc.devRef .tc main_v3)) (V (Proc.devRef .tc main_v6)) (V (Proc.devRef .tc main_v30)) (Spec.lin64x64 F (V (Proc.devRef .tc main_v53)) (V (Proc.devRef .tc main_arg4))) (V (Proc.devRef .tc main_arg5))) := by
  simp only [opsL1]
  after_results_simp
  try dsimp only [Matrix.cons_val]
  try after_results_simp
  try simp only [TRef.toBuf, TRef.ofBuf, cast_eq]
  rfl

set_option maxRecDepth 8192 in
set_option maxHeartbeats 4000000 in
/-- Layer 2: from the node features, the weights, the bias and the graph's sources, targets and edge weights. -/
theorem L2_out (V : Valuation τ sig (Elt F)) : after opsL2 V (no_index (Proc.devRef .tc main_v98)) = Spec.convOf64 F 0x00000000#32 0x3F800000#32 (V (Proc.devRef .tc main_v3)) (V (Proc.devRef .tc main_v6)) (V (Proc.devRef .tc main_v30)) (Spec.lin64x64 F (V (Proc.devRef .tc main_v76)) (V (Proc.devRef .tc main_arg6))) (V (Proc.devRef .tc main_arg7)) := by
  simp only [opsL2]
  after_results_simp
  try dsimp only [Matrix.cons_val]
  try after_results_simp
  try simp only [TRef.toBuf, TRef.ofBuf, cast_eq]
  rfl

set_option maxRecDepth 8192 in
set_option maxHeartbeats 4000000 in
/-- Layer 3: from the node features, the weights, the bias and the graph's sources, targets and edge weights. -/
theorem L3_out (V : Valuation τ sig (Elt F)) : after opsL3 V (no_index (Proc.devRef .tc main_v121)) = Spec.relu64 F (Spec.convOf64 F 0x3F000000#32 0x3F000000#32 (V (Proc.devRef .tc main_v3)) (V (Proc.devRef .tc main_v6)) (V (Proc.devRef .tc main_v30)) (Spec.lin64x64 F (V (Proc.devRef .tc main_v98)) (V (Proc.devRef .tc main_arg8))) (V (Proc.devRef .tc main_arg9))) := by
  simp only [opsL3]
  after_results_simp
  try dsimp only [Matrix.cons_val]
  try after_results_simp
  try simp only [TRef.toBuf, TRef.ofBuf, cast_eq]
  rfl

set_option maxRecDepth 8192 in
set_option maxHeartbeats 4000000 in
/-- Layer 4: from the node features, the weights, the bias and the graph's sources, targets and edge weights. -/
theorem L4_out (V : Valuation τ sig (Elt F)) : after opsL4 V (no_index (Proc.devRef .tc main_v144)) = Spec.relu64 F (Spec.convOf64 F 0x3F000000#32 0x3F000000#32 (V (Proc.devRef .tc main_v3)) (V (Proc.devRef .tc main_v6)) (V (Proc.devRef .tc main_v30)) (Spec.lin64x64 F (V (Proc.devRef .tc main_v121)) (V (Proc.devRef .tc main_arg10))) (V (Proc.devRef .tc main_arg11))) := by
  simp only [opsL4]
  after_results_simp
  try dsimp only [Matrix.cons_val]
  try after_results_simp
  try simp only [TRef.toBuf, TRef.ofBuf, cast_eq]
  rfl

set_option maxRecDepth 8192 in
set_option maxHeartbeats 4000000 in
/-- Layer 5: from the node features, the weights, the bias and the graph's sources, targets and edge weights. -/
theorem L5_out (V : Valuation τ sig (Elt F)) : after opsL5 V (no_index (Proc.devRef .tc main_v166)) = Spec.convOf128 F 0x3F000000#32 0x3F000000#32 (V (Proc.devRef .tc main_v3)) (V (Proc.devRef .tc main_v6)) (V (Proc.devRef .tc main_v30)) (Spec.lin64x128 F (V (Proc.devRef .tc main_v144)) (V (Proc.devRef .tc main_arg12))) (V (Proc.devRef .tc main_arg13)) := by
  simp only [opsL5]
  after_results_simp
  try dsimp only [Matrix.cons_val]
  try after_results_simp
  try simp only [TRef.toBuf, TRef.ofBuf, cast_eq]
  rfl

end Cert.ReferenceIdeal.Segments

end
-- ==== Proof.RefChain.lean ====
/-
  The reference's run, chained.

  From any contents at the start, after the normalisation and the six layers the embedding buffer holds the encoder's
  three layers of the arguments and the reconstruction buffer the decoder's three layers of the embedding; no segment
  writes an argument. Every weakly fair execution of the reference's @main terminates in that state.
-/
import proofs.«162297_j20255065768607_1_alg».proof.Proof.RefRun
import Idealize.ShloMosaic.Lib.Pipeline.Frame

noncomputable section

namespace Cert.ReferenceIdeal.Segments

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

/-- The buffers' contents after the normalisation and after each layer, from any contents `V0` at the start. -/
def val1 : Valuation τ sig (Elt F) := after opsP V0
def val2 : Valuation τ sig (Elt F) := after opsL0 (val1 V0)
def val3 : Valuation τ sig (Elt F) := after opsL1 (val2 V0)
def val4 : Valuation τ sig (Elt F) := after opsL2 (val3 V0)
def val5 : Valuation τ sig (Elt F) := after opsL3 (val4 V0)
def val6 : Valuation τ sig (Elt F) := after opsL4 (val5 V0)
def val7 : Valuation τ sig (Elt F) := after opsL5 (val6 V0)

theorem after_ops : after ops V0 = val7 V0 := by
  simp only [ops, after_append]
  rfl

/-- The graph's sources, targets and edge weights after the normalisation. -/
theorem val1_v3 : val1 V0 (Proc.devRef .tc main_v3) = Spec.src F (V0 (Proc.devRef .tc main_arg1)) := by
  exact P_src V0
theorem val1_v6 : val1 V0 (Proc.devRef .tc main_v6) = Spec.tgt F (V0 (Proc.devRef .tc main_arg1)) := by
  exact P_tgt V0
theorem val1_v30 : val1 V0 (Proc.devRef .tc main_v30) = Spec.norm F (V0 (Proc.devRef .tc main_arg1)) := by
  exact P_norm V0
/-- No segment writes an argument. -/
theorem val1_arg0 : val1 V0 (Proc.devRef .tc main_arg0) = V0 (Proc.devRef .tc main_arg0) := by
  exact opsP_keep V0 main_arg0 (by decide)
theorem val1_arg1 : val1 V0 (Proc.devRef .tc main_arg1) = V0 (Proc.devRef .tc main_arg1) := by
  exact opsP_keep V0 main_arg1 (by decide)
theorem val1_arg2 : val1 V0 (Proc.devRef .tc main_arg2) = V0 (Proc.devRef .tc main_arg2) := by
  exact opsP_keep V0 main_arg2 (by decide)
theorem val1_arg3 : val1 V0 (Proc.devRef .tc main_arg3) = V0 (Proc.devRef .tc main_arg3) := by
  exact opsP_keep V0 main_arg3 (by decide)
theorem val1_arg4 : val1 V0 (Proc.devRef .tc main_arg4) = V0 (Proc.devRef .tc main_arg4) := by
  exact opsP_keep V0 main_arg4 (by decide)
theorem val1_arg5 : val1 V0 (Proc.devRef .tc main_arg5) = V0 (Proc.devRef .tc main_arg5) := by
  exact opsP_keep V0 main_arg5 (by decide)
theorem val1_arg6 : val1 V0 (Proc.devRef .tc main_arg6) = V0 (Proc.devRef .tc main_arg6) := by
  exact opsP_keep V0 main_arg6 (by decide)
theorem val1_arg7 : val1 V0 (Proc.devRef .tc main_arg7) = V0 (Proc.devRef .tc main_arg7) := by
  exact opsP_keep V0 main_arg7 (by decide)
theorem val1_arg8 : val1 V0 (Proc.devRef .tc main_arg8) = V0 (Proc.devRef .tc main_arg8) := by
  exact opsP_keep V0 main_arg8 (by decide)
theorem val1_arg9 : val1 V0 (Proc.devRef .tc main_arg9) = V0 (Proc.devRef .tc main_arg9) := by
  exact opsP_keep V0 main_arg9 (by decide)
theorem val1_arg10 : val1 V0 (Proc.devRef .tc main_arg10) = V0 (Proc.devRef .tc main_arg10) := by
  exact opsP_keep V0 main_arg10 (by decide)
theorem val1_arg11 : val1 V0 (Proc.devRef .tc main_arg11) = V0 (Proc.devRef .tc main_arg11) := by
  exact opsP_keep V0 main_arg11 (by decide)
theorem val1_arg12 : val1 V0 (Proc.devRef .tc main_arg12) = V0 (Proc.devRef .tc main_arg12) := by
  exact opsP_keep V0 main_arg12 (by decide)
theorem val1_arg13 : val1 V0 (Proc.devRef .tc main_arg13) = V0 (Proc.devRef .tc main_arg13) := by
  exact opsP_keep V0 main_arg13 (by decide)

/-! ### After layer 0 -/

/-- Layer 0's output. -/
theorem val2_v53 : val2 V0 (Proc.devRef .tc main_v53) = Spec.enc1 F (V0 (Proc.devRef .tc main_arg0)) (V0 (Proc.devRef .tc main_arg1)) (V0 (Proc.devRef .tc main_arg2)) (V0 (Proc.devRef .tc main_arg3)) := by
  refine (L0_out (val1 V0)).trans ?_
  rw [val1_v3 V0, val1_v6 V0, val1_v30 V0, val1_arg0 V0, val1_arg2 V0, val1_arg3 V0]; rfl
theorem val2_v3 : val2 V0 (Proc.devRef .tc main_v3) = Spec.src F (V0 (Proc.devRef .tc main_arg1)) := by
  exact (opsL0_keep (val1 V0) main_v3 (by decide)).trans (val1_v3 V0)
theorem val2_v6 : val2 V0 (Proc.devRef .tc main_v6) = Spec.tgt F (V0 (Proc.devRef .tc main_arg1)) := by
  exact (opsL0_keep (val1 V0) main_v6 (by decide)).trans (val1_v6 V0)
theorem val2_v30 : val2 V0 (Proc.devRef .tc main_v30) = Spec.norm F (V0 (Proc.devRef .tc main_arg1)) := by
  exact (opsL0_keep (val1 V0) main_v30 (by decide)).trans (val1_v30 V0)
theorem val2_arg0 : val2 V0 (Proc.devRef .tc main_arg0) = V0 (Proc.devRef .tc main_arg0) := by
  exact (opsL0_keep (val1 V0) main_arg0 (by decide)).trans (val1_arg0 V0)
theorem val2_arg1 : val2 V0 (Proc.devRef .tc main_arg1) = V0 (Proc.devRef .tc main_arg1) := by
  exact (opsL0_keep (val1 V0) main_arg1 (by decide)).trans (val1_arg1 V0)
theorem val2_arg2 : val2 V0 (Proc.devRef .tc main_arg2) = V0 (Proc.devRef .tc main_arg2) := by
  exact (opsL0_keep (val1 V0) main_arg2 (by decide)).trans (val1_arg2 V0)
theorem val2_arg3 : val2 V0 (Proc.devRef .tc main_arg3) = V0 (Proc.devRef .tc main_arg3) := by
  exact (opsL0_keep (val1 V0) main_arg3 (by decide)).trans (val1_arg3 V0)
theorem val2_arg4 : val2 V0 (Proc.devRef .tc main_arg4) = V0 (Proc.devRef .tc main_arg4) := by
  exact (opsL0_keep (val1 V0) main_arg4 (by decide)).trans (val1_arg4 V0)
theorem val2_arg5 : val2 V0 (Proc.devRef .tc main_arg5) = V0 (Proc.devRef .tc main_arg5) := by
  exact (opsL0_keep (val1 V0) main_arg5 (by decide)).trans (val1_arg5 V0)
theorem val2_arg6 : val2 V0 (Proc.devRef .tc main_arg6) = V0 (Proc.devRef .tc main_arg6) := by
  exact (opsL0_keep (val1 V0) main_arg6 (by decide)).trans (val1_arg6 V0)
theorem val2_arg7 : val2 V0 (Proc.devRef .tc main_arg7) = V0 (Proc.devRef .tc main_arg7) := by
  exact (opsL0_keep (val1 V0) main_arg7 (by decide)).trans (val1_arg7 V0)
theorem val2_arg8 : val2 V0 (Proc.devRef .tc main_arg8) = V0 (Proc.devRef .tc main_arg8) := by
  exact (opsL0_keep (val1 V0) main_arg8 (by decide)).trans (val1_arg8 V0)
theorem val2_arg9 : val2 V0 (Proc.devRef .tc main_arg9) = V0 (Proc.devRef .tc main_arg9) := by
  exact (opsL0_keep (val1 V0) main_arg9 (by decide)).trans (val1_arg9 V0)
theorem val2_arg10 : val2 V0 (Proc.devRef .tc main_arg10) = V0 (Proc.devRef .tc main_arg10) := by
  exact (opsL0_keep (val1 V0) main_arg10 (by decide)).trans (val1_arg10 V0)
theorem val2_arg11 : val2 V0 (Proc.devRef .tc main_arg11) = V0 (Proc.devRef .tc main_arg11) := by
  exact (opsL0_keep (val1 V0) main_arg11 (by decide)).trans (val1_arg11 V0)
theorem val2_arg12 : val2 V0 (Proc.devRef .tc main_arg12) = V0 (Proc.devRef .tc main_arg12) := by
  exact (opsL0_keep (val1 V0) main_arg12 (by decide)).trans (val1_arg12 V0)
theorem val2_arg13 : val2 V0 (Proc.devRef .tc main_arg13) = V0 (Proc.devRef .tc main_arg13) := by
  exact (opsL0_keep (val1 V0) main_arg13 (by decide)).trans (val1_arg13 V0)

/-! ### After layer 1 -/

/-- Layer 1's output. -/
theorem val3_v76 : val3 V0 (Proc.devRef .tc main_v76) = Spec.enc2 F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  refine (L1_out (val2 V0)).trans ?_
  rw [val2_v3 V0, val2_v6 V0, val2_v30 V0, val2_v53 V0, val2_arg4 V0, val2_arg5 V0]; rfl
theorem val3_v3 : val3 V0 (Proc.devRef .tc main_v3) = Spec.src F (V0 (Proc.devRef .tc main_arg1)) := by
  exact (opsL1_keep (val2 V0) main_v3 (by decide)).trans (val2_v3 V0)
theorem val3_v6 : val3 V0 (Proc.devRef .tc main_v6) = Spec.tgt F (V0 (Proc.devRef .tc main_arg1)) := by
  exact (opsL1_keep (val2 V0) main_v6 (by decide)).trans (val2_v6 V0)
theorem val3_v30 : val3 V0 (Proc.devRef .tc main_v30) = Spec.norm F (V0 (Proc.devRef .tc main_arg1)) := by
  exact (opsL1_keep (val2 V0) main_v30 (by decide)).trans (val2_v30 V0)
theorem val3_arg0 : val3 V0 (Proc.devRef .tc main_arg0) = V0 (Proc.devRef .tc main_arg0) := by
  exact (opsL1_keep (val2 V0) main_arg0 (by decide)).trans (val2_arg0 V0)
theorem val3_arg1 : val3 V0 (Proc.devRef .tc main_arg1) = V0 (Proc.devRef .tc main_arg1) := by
  exact (opsL1_keep (val2 V0) main_arg1 (by decide)).trans (val2_arg1 V0)
theorem val3_arg2 : val3 V0 (Proc.devRef .tc main_arg2) = V0 (Proc.devRef .tc main_arg2) := by
  exact (opsL1_keep (val2 V0) main_arg2 (by decide)).trans (val2_arg2 V0)
theorem val3_arg3 : val3 V0 (Proc.devRef .tc main_arg3) = V0 (Proc.devRef .tc main_arg3) := by
  exact (opsL1_keep (val2 V0) main_arg3 (by decide)).trans (val2_arg3 V0)
theorem val3_arg4 : val3 V0 (Proc.devRef .tc main_arg4) = V0 (Proc.devRef .tc main_arg4) := by
  exact (opsL1_keep (val2 V0) main_arg4 (by decide)).trans (val2_arg4 V0)
theorem val3_arg5 : val3 V0 (Proc.devRef .tc main_arg5) = V0 (Proc.devRef .tc main_arg5) := by
  exact (opsL1_keep (val2 V0) main_arg5 (by decide)).trans (val2_arg5 V0)
theorem val3_arg6 : val3 V0 (Proc.devRef .tc main_arg6) = V0 (Proc.devRef .tc main_arg6) := by
  exact (opsL1_keep (val2 V0) main_arg6 (by decide)).trans (val2_arg6 V0)
theorem val3_arg7 : val3 V0 (Proc.devRef .tc main_arg7) = V0 (Proc.devRef .tc main_arg7) := by
  exact (opsL1_keep (val2 V0) main_arg7 (by decide)).trans (val2_arg7 V0)
theorem val3_arg8 : val3 V0 (Proc.devRef .tc main_arg8) = V0 (Proc.devRef .tc main_arg8) := by
  exact (opsL1_keep (val2 V0) main_arg8 (by decide)).trans (val2_arg8 V0)
theorem val3_arg9 : val3 V0 (Proc.devRef .tc main_arg9) = V0 (Proc.devRef .tc main_arg9) := by
  exact (opsL1_keep (val2 V0) main_arg9 (by decide)).trans (val2_arg9 V0)
theorem val3_arg10 : val3 V0 (Proc.devRef .tc main_arg10) = V0 (Proc.devRef .tc main_arg10) := by
  exact (opsL1_keep (val2 V0) main_arg10 (by decide)).trans (val2_arg10 V0)
theorem val3_arg11 : val3 V0 (Proc.devRef .tc main_arg11) = V0 (Proc.devRef .tc main_arg11) := by
  exact (opsL1_keep (val2 V0) main_arg11 (by decide)).trans (val2_arg11 V0)
theorem val3_arg12 : val3 V0 (Proc.devRef .tc main_arg12) = V0 (Proc.devRef .tc main_arg12) := by
  exact (opsL1_keep (val2 V0) main_arg12 (by decide)).trans (val2_arg12 V0)
theorem val3_arg13 : val3 V0 (Proc.devRef .tc main_arg13) = V0 (Proc.devRef .tc main_arg13) := by
  exact (opsL1_keep (val2 V0) main_arg13 (by decide)).trans (val2_arg13 V0)

/-! ### After layer 2 -/

/-- Layer 2's output. -/
theorem val4_v98 : val4 V0 (Proc.devRef .tc main_v98) = Spec.embed F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  refine (L2_out (val3 V0)).trans ?_
  rw [val3_v3 V0, val3_v6 V0, val3_v30 V0, val3_v76 V0, val3_arg6 V0, val3_arg7 V0]; rfl
theorem val4_v3 : val4 V0 (Proc.devRef .tc main_v3) = Spec.src F (V0 (Proc.devRef .tc main_arg1)) := by
  exact (opsL2_keep (val3 V0) main_v3 (by decide)).trans (val3_v3 V0)
theorem val4_v6 : val4 V0 (Proc.devRef .tc main_v6) = Spec.tgt F (V0 (Proc.devRef .tc main_arg1)) := by
  exact (opsL2_keep (val3 V0) main_v6 (by decide)).trans (val3_v6 V0)
theorem val4_v30 : val4 V0 (Proc.devRef .tc main_v30) = Spec.norm F (V0 (Proc.devRef .tc main_arg1)) := by
  exact (opsL2_keep (val3 V0) main_v30 (by decide)).trans (val3_v30 V0)
theorem val4_arg0 : val4 V0 (Proc.devRef .tc main_arg0) = V0 (Proc.devRef .tc main_arg0) := by
  exact (opsL2_keep (val3 V0) main_arg0 (by decide)).trans (val3_arg0 V0)
theorem val4_arg1 : val4 V0 (Proc.devRef .tc main_arg1) = V0 (Proc.devRef .tc main_arg1) := by
  exact (opsL2_keep (val3 V0) main_arg1 (by decide)).trans (val3_arg1 V0)
theorem val4_arg2 : val4 V0 (Proc.devRef .tc main_arg2) = V0 (Proc.devRef .tc main_arg2) := by
  exact (opsL2_keep (val3 V0) main_arg2 (by decide)).trans (val3_arg2 V0)
theorem val4_arg3 : val4 V0 (Proc.devRef .tc main_arg3) = V0 (Proc.devRef .tc main_arg3) := by
  exact (opsL2_keep (val3 V0) main_arg3 (by decide)).trans (val3_arg3 V0)
theorem val4_arg4 : val4 V0 (Proc.devRef .tc main_arg4) = V0 (Proc.devRef .tc main_arg4) := by
  exact (opsL2_keep (val3 V0) main_arg4 (by decide)).trans (val3_arg4 V0)
theorem val4_arg5 : val4 V0 (Proc.devRef .tc main_arg5) = V0 (Proc.devRef .tc main_arg5) := by
  exact (opsL2_keep (val3 V0) main_arg5 (by decide)).trans (val3_arg5 V0)
theorem val4_arg6 : val4 V0 (Proc.devRef .tc main_arg6) = V0 (Proc.devRef .tc main_arg6) := by
  exact (opsL2_keep (val3 V0) main_arg6 (by decide)).trans (val3_arg6 V0)
theorem val4_arg7 : val4 V0 (Proc.devRef .tc main_arg7) = V0 (Proc.devRef .tc main_arg7) := by
  exact (opsL2_keep (val3 V0) main_arg7 (by decide)).trans (val3_arg7 V0)
theorem val4_arg8 : val4 V0 (Proc.devRef .tc main_arg8) = V0 (Proc.devRef .tc main_arg8) := by
  exact (opsL2_keep (val3 V0) main_arg8 (by decide)).trans (val3_arg8 V0)
theorem val4_arg9 : val4 V0 (Proc.devRef .tc main_arg9) = V0 (Proc.devRef .tc main_arg9) := by
  exact (opsL2_keep (val3 V0) main_arg9 (by decide)).trans (val3_arg9 V0)
theorem val4_arg10 : val4 V0 (Proc.devRef .tc main_arg10) = V0 (Proc.devRef .tc main_arg10) := by
  exact (opsL2_keep (val3 V0) main_arg10 (by decide)).trans (val3_arg10 V0)
theorem val4_arg11 : val4 V0 (Proc.devRef .tc main_arg11) = V0 (Proc.devRef .tc main_arg11) := by
  exact (opsL2_keep (val3 V0) main_arg11 (by decide)).trans (val3_arg11 V0)
theorem val4_arg12 : val4 V0 (Proc.devRef .tc main_arg12) = V0 (Proc.devRef .tc main_arg12) := by
  exact (opsL2_keep (val3 V0) main_arg12 (by decide)).trans (val3_arg12 V0)
theorem val4_arg13 : val4 V0 (Proc.devRef .tc main_arg13) = V0 (Proc.devRef .tc main_arg13) := by
  exact (opsL2_keep (val3 V0) main_arg13 (by decide)).trans (val3_arg13 V0)

/-! ### After layer 3 -/

/-- Layer 3's output. -/
theorem val5_v121 : val5 V0 (Proc.devRef .tc main_v121) = Spec.dec1 F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  refine (L3_out (val4 V0)).trans ?_
  rw [val4_v3 V0, val4_v6 V0, val4_v30 V0, val4_v98 V0, val4_arg8 V0, val4_arg9 V0]; rfl
theorem val5_v3 : val5 V0 (Proc.devRef .tc main_v3) = Spec.src F (V0 (Proc.devRef .tc main_arg1)) := by
  exact (opsL3_keep (val4 V0) main_v3 (by decide)).trans (val4_v3 V0)
theorem val5_v6 : val5 V0 (Proc.devRef .tc main_v6) = Spec.tgt F (V0 (Proc.devRef .tc main_arg1)) := by
  exact (opsL3_keep (val4 V0) main_v6 (by decide)).trans (val4_v6 V0)
theorem val5_v30 : val5 V0 (Proc.devRef .tc main_v30) = Spec.norm F (V0 (Proc.devRef .tc main_arg1)) := by
  exact (opsL3_keep (val4 V0) main_v30 (by decide)).trans (val4_v30 V0)
theorem val5_arg0 : val5 V0 (Proc.devRef .tc main_arg0) = V0 (Proc.devRef .tc main_arg0) := by
  exact (opsL3_keep (val4 V0) main_arg0 (by decide)).trans (val4_arg0 V0)
theorem val5_arg1 : val5 V0 (Proc.devRef .tc main_arg1) = V0 (Proc.devRef .tc main_arg1) := by
  exact (opsL3_keep (val4 V0) main_arg1 (by decide)).trans (val4_arg1 V0)
theorem val5_arg2 : val5 V0 (Proc.devRef .tc main_arg2) = V0 (Proc.devRef .tc main_arg2) := by
  exact (opsL3_keep (val4 V0) main_arg2 (by decide)).trans (val4_arg2 V0)
theorem val5_arg3 : val5 V0 (Proc.devRef .tc main_arg3) = V0 (Proc.devRef .tc main_arg3) := by
  exact (opsL3_keep (val4 V0) main_arg3 (by decide)).trans (val4_arg3 V0)
theorem val5_arg4 : val5 V0 (Proc.devRef .tc main_arg4) = V0 (Proc.devRef .tc main_arg4) := by
  exact (opsL3_keep (val4 V0) main_arg4 (by decide)).trans (val4_arg4 V0)
theorem val5_arg5 : val5 V0 (Proc.devRef .tc main_arg5) = V0 (Proc.devRef .tc main_arg5) := by
  exact (opsL3_keep (val4 V0) main_arg5 (by decide)).trans (val4_arg5 V0)
theorem val5_arg6 : val5 V0 (Proc.devRef .tc main_arg6) = V0 (Proc.devRef .tc main_arg6) := by
  exact (opsL3_keep (val4 V0) main_arg6 (by decide)).trans (val4_arg6 V0)
theorem val5_arg7 : val5 V0 (Proc.devRef .tc main_arg7) = V0 (Proc.devRef .tc main_arg7) := by
  exact (opsL3_keep (val4 V0) main_arg7 (by decide)).trans (val4_arg7 V0)
theorem val5_arg8 : val5 V0 (Proc.devRef .tc main_arg8) = V0 (Proc.devRef .tc main_arg8) := by
  exact (opsL3_keep (val4 V0) main_arg8 (by decide)).trans (val4_arg8 V0)
theorem val5_arg9 : val5 V0 (Proc.devRef .tc main_arg9) = V0 (Proc.devRef .tc main_arg9) := by
  exact (opsL3_keep (val4 V0) main_arg9 (by decide)).trans (val4_arg9 V0)
theorem val5_arg10 : val5 V0 (Proc.devRef .tc main_arg10) = V0 (Proc.devRef .tc main_arg10) := by
  exact (opsL3_keep (val4 V0) main_arg10 (by decide)).trans (val4_arg10 V0)
theorem val5_arg11 : val5 V0 (Proc.devRef .tc main_arg11) = V0 (Proc.devRef .tc main_arg11) := by
  exact (opsL3_keep (val4 V0) main_arg11 (by decide)).trans (val4_arg11 V0)
theorem val5_arg12 : val5 V0 (Proc.devRef .tc main_arg12) = V0 (Proc.devRef .tc main_arg12) := by
  exact (opsL3_keep (val4 V0) main_arg12 (by decide)).trans (val4_arg12 V0)
theorem val5_arg13 : val5 V0 (Proc.devRef .tc main_arg13) = V0 (Proc.devRef .tc main_arg13) := by
  exact (opsL3_keep (val4 V0) main_arg13 (by decide)).trans (val4_arg13 V0)
theorem val5_v98 : val5 V0 (Proc.devRef .tc main_v98) = Spec.embed F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  exact (opsL3_keep (val4 V0) main_v98 (by decide)).trans (val4_v98 V0)

/-! ### After layer 4 -/

/-- Layer 4's output. -/
theorem val6_v144 : val6 V0 (Proc.devRef .tc main_v144) = Spec.dec2 F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  refine (L4_out (val5 V0)).trans ?_
  rw [val5_v3 V0, val5_v6 V0, val5_v30 V0, val5_v121 V0, val5_arg10 V0, val5_arg11 V0]; rfl
theorem val6_v3 : val6 V0 (Proc.devRef .tc main_v3) = Spec.src F (V0 (Proc.devRef .tc main_arg1)) := by
  exact (opsL4_keep (val5 V0) main_v3 (by decide)).trans (val5_v3 V0)
theorem val6_v6 : val6 V0 (Proc.devRef .tc main_v6) = Spec.tgt F (V0 (Proc.devRef .tc main_arg1)) := by
  exact (opsL4_keep (val5 V0) main_v6 (by decide)).trans (val5_v6 V0)
theorem val6_v30 : val6 V0 (Proc.devRef .tc main_v30) = Spec.norm F (V0 (Proc.devRef .tc main_arg1)) := by
  exact (opsL4_keep (val5 V0) main_v30 (by decide)).trans (val5_v30 V0)
theorem val6_arg0 : val6 V0 (Proc.devRef .tc main_arg0) = V0 (Proc.devRef .tc main_arg0) := by
  exact (opsL4_keep (val5 V0) main_arg0 (by decide)).trans (val5_arg0 V0)
theorem val6_arg1 : val6 V0 (Proc.devRef .tc main_arg1) = V0 (Proc.devRef .tc main_arg1) := by
  exact (opsL4_keep (val5 V0) main_arg1 (by decide)).trans (val5_arg1 V0)
theorem val6_arg2 : val6 V0 (Proc.devRef .tc main_arg2) = V0 (Proc.devRef .tc main_arg2) := by
  exact (opsL4_keep (val5 V0) main_arg2 (by decide)).trans (val5_arg2 V0)
theorem val6_arg3 : val6 V0 (Proc.devRef .tc main_arg3) = V0 (Proc.devRef .tc main_arg3) := by
  exact (opsL4_keep (val5 V0) main_arg3 (by decide)).trans (val5_arg3 V0)
theorem val6_arg4 : val6 V0 (Proc.devRef .tc main_arg4) = V0 (Proc.devRef .tc main_arg4) := by
  exact (opsL4_keep (val5 V0) main_arg4 (by decide)).trans (val5_arg4 V0)
theorem val6_arg5 : val6 V0 (Proc.devRef .tc main_arg5) = V0 (Proc.devRef .tc main_arg5) := by
  exact (opsL4_keep (val5 V0) main_arg5 (by decide)).trans (val5_arg5 V0)
theorem val6_arg6 : val6 V0 (Proc.devRef .tc main_arg6) = V0 (Proc.devRef .tc main_arg6) := by
  exact (opsL4_keep (val5 V0) main_arg6 (by decide)).trans (val5_arg6 V0)
theorem val6_arg7 : val6 V0 (Proc.devRef .tc main_arg7) = V0 (Proc.devRef .tc main_arg7) := by
  exact (opsL4_keep (val5 V0) main_arg7 (by decide)).trans (val5_arg7 V0)
theorem val6_arg8 : val6 V0 (Proc.devRef .tc main_arg8) = V0 (Proc.devRef .tc main_arg8) := by
  exact (opsL4_keep (val5 V0) main_arg8 (by decide)).trans (val5_arg8 V0)
theorem val6_arg9 : val6 V0 (Proc.devRef .tc main_arg9) = V0 (Proc.devRef .tc main_arg9) := by
  exact (opsL4_keep (val5 V0) main_arg9 (by decide)).trans (val5_arg9 V0)
theorem val6_arg10 : val6 V0 (Proc.devRef .tc main_arg10) = V0 (Proc.devRef .tc main_arg10) := by
  exact (opsL4_keep (val5 V0) main_arg10 (by decide)).trans (val5_arg10 V0)
theorem val6_arg11 : val6 V0 (Proc.devRef .tc main_arg11) = V0 (Proc.devRef .tc main_arg11) := by
  exact (opsL4_keep (val5 V0) main_arg11 (by decide)).trans (val5_arg11 V0)
theorem val6_arg12 : val6 V0 (Proc.devRef .tc main_arg12) = V0 (Proc.devRef .tc main_arg12) := by
  exact (opsL4_keep (val5 V0) main_arg12 (by decide)).trans (val5_arg12 V0)
theorem val6_arg13 : val6 V0 (Proc.devRef .tc main_arg13) = V0 (Proc.devRef .tc main_arg13) := by
  exact (opsL4_keep (val5 V0) main_arg13 (by decide)).trans (val5_arg13 V0)
theorem val6_v98 : val6 V0 (Proc.devRef .tc main_v98) = Spec.embed F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  exact (opsL4_keep (val5 V0) main_v98 (by decide)).trans (val5_v98 V0)

/-! ### After layer 5 -/

/-- Layer 5's output. -/
theorem val7_v166 : val7 V0 (Proc.devRef .tc main_v166) = Spec.recon F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  refine (L5_out (val6 V0)).trans ?_
  rw [val6_v3 V0, val6_v6 V0, val6_v30 V0, val6_v144 V0, val6_arg12 V0, val6_arg13 V0]; rfl
theorem val7_arg0 : val7 V0 (Proc.devRef .tc main_arg0) = V0 (Proc.devRef .tc main_arg0) := by
  exact (opsL5_keep (val6 V0) main_arg0 (by decide)).trans (val6_arg0 V0)
theorem val7_arg1 : val7 V0 (Proc.devRef .tc main_arg1) = V0 (Proc.devRef .tc main_arg1) := by
  exact (opsL5_keep (val6 V0) main_arg1 (by decide)).trans (val6_arg1 V0)
theorem val7_arg2 : val7 V0 (Proc.devRef .tc main_arg2) = V0 (Proc.devRef .tc main_arg2) := by
  exact (opsL5_keep (val6 V0) main_arg2 (by decide)).trans (val6_arg2 V0)
theorem val7_arg3 : val7 V0 (Proc.devRef .tc main_arg3) = V0 (Proc.devRef .tc main_arg3) := by
  exact (opsL5_keep (val6 V0) main_arg3 (by decide)).trans (val6_arg3 V0)
theorem val7_arg4 : val7 V0 (Proc.devRef .tc main_arg4) = V0 (Proc.devRef .tc main_arg4) := by
  exact (opsL5_keep (val6 V0) main_arg4 (by decide)).trans (val6_arg4 V0)
theorem val7_arg5 : val7 V0 (Proc.devRef .tc main_arg5) = V0 (Proc.devRef .tc main_arg5) := by
  exact (opsL5_keep (val6 V0) main_arg5 (by decide)).trans (val6_arg5 V0)
theorem val7_arg6 : val7 V0 (Proc.devRef .tc main_arg6) = V0 (Proc.devRef .tc main_arg6) := by
  exact (opsL5_keep (val6 V0) main_arg6 (by decide)).trans (val6_arg6 V0)
theorem val7_arg7 : val7 V0 (Proc.devRef .tc main_arg7) = V0 (Proc.devRef .tc main_arg7) := by
  exact (opsL5_keep (val6 V0) main_arg7 (by decide)).trans (val6_arg7 V0)
theorem val7_arg8 : val7 V0 (Proc.devRef .tc main_arg8) = V0 (Proc.devRef .tc main_arg8) := by
  exact (opsL5_keep (val6 V0) main_arg8 (by decide)).trans (val6_arg8 V0)
theorem val7_arg9 : val7 V0 (Proc.devRef .tc main_arg9) = V0 (Proc.devRef .tc main_arg9) := by
  exact (opsL5_keep (val6 V0) main_arg9 (by decide)).trans (val6_arg9 V0)
theorem val7_arg10 : val7 V0 (Proc.devRef .tc main_arg10) = V0 (Proc.devRef .tc main_arg10) := by
  exact (opsL5_keep (val6 V0) main_arg10 (by decide)).trans (val6_arg10 V0)
theorem val7_arg11 : val7 V0 (Proc.devRef .tc main_arg11) = V0 (Proc.devRef .tc main_arg11) := by
  exact (opsL5_keep (val6 V0) main_arg11 (by decide)).trans (val6_arg11 V0)
theorem val7_arg12 : val7 V0 (Proc.devRef .tc main_arg12) = V0 (Proc.devRef .tc main_arg12) := by
  exact (opsL5_keep (val6 V0) main_arg12 (by decide)).trans (val6_arg12 V0)
theorem val7_arg13 : val7 V0 (Proc.devRef .tc main_arg13) = V0 (Proc.devRef .tc main_arg13) := by
  exact (opsL5_keep (val6 V0) main_arg13 (by decide)).trans (val6_arg13 V0)
theorem val7_v98 : val7 V0 (Proc.devRef .tc main_v98) = Spec.embed F (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  exact (opsL5_keep (val6 V0) main_v98 (by decide)).trans (val6_v98 V0)

/-- On every device, for any float values, from any memory with zero counters: every weakly fair execution of the
    reference's @main terminates with the embedding and the reconstruction of the arguments in its two result buffers
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = Spec.embed F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v166) = Spec.recon F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v98).trans (by simp only [after_ops]; exact val7_v98 (launchContents m c)),
      (h c main_v166).trans (by simp only [after_ops]; exact val7_v166 (launchContents m c)),
      (h c main_arg0).trans (by simp only [after_ops]; exact val7_arg0 (launchContents m c)),
      (h c main_arg1).trans (by simp only [after_ops]; exact val7_arg1 (launchContents m c)),
      (h c main_arg2).trans (by simp only [after_ops]; exact val7_arg2 (launchContents m c)),
      (h c main_arg3).trans (by simp only [after_ops]; exact val7_arg3 (launchContents m c)),
      (h c main_arg4).trans (by simp only [after_ops]; exact val7_arg4 (launchContents m c)),
      (h c main_arg5).trans (by simp only [after_ops]; exact val7_arg5 (launchContents m c)),
      (h c main_arg6).trans (by simp only [after_ops]; exact val7_arg6 (launchContents m c)),
      (h c main_arg7).trans (by simp only [after_ops]; exact val7_arg7 (launchContents m c)),
      (h c main_arg8).trans (by simp only [after_ops]; exact val7_arg8 (launchContents m c)),
      (h c main_arg9).trans (by simp only [after_ops]; exact val7_arg9 (launchContents m c)),
      (h c main_arg10).trans (by simp only [after_ops]; exact val7_arg10 (launchContents m c)),
      (h c main_arg11).trans (by simp only [after_ops]; exact val7_arg11 (launchContents m c)),
      (h c main_arg12).trans (by simp only [after_ops]; exact val7_arg12 (launchContents m c)),
      (h c main_arg13).trans (by simp only [after_ops]; exact val7_arg13 (launchContents m c))⟩)
    (run_seq scopedRefs_eq scopedSems_eq defs main (fun _ => ops) main_eq (fun _ => ops_sub) m ρ)

end Cert.ReferenceIdeal.Segments

end
-- ==== Proof.lean ====
/-
  The certificate of a six-layer graph autoencoder: three encoder and three decoder graph convolutions on 100000 nodes
  and 1600000 edges (plus a self loop per node), the kernel against its jnp reference, over the extended reals.

  Each layer is  out = c₁ · (h · W) + c₂ · Â(h · W) + b  (then max with 0 on the four hidden layers), where Â gathers
  the rows of h · W at the edges' sources, scales them by the symmetric normalisation deg^(-1/2)[source] · deg^(-1/2)[target]
  and sums them at the edges' targets; (c₁, c₂) = (0, 1) in the encoder and (½, ½) in the decoder. The kernel computes
  h · W and the combination in Pallas kernels over ten blocks of 10000 rows and leaves the gather / scatter-add to the
  host; the reference computes everything on the host. At the ideal values

    * the dense kernel's product of operands cut to a shorter float format, into a zero accumulator, is the plain
      product of the block's rows, and the ten blocks are the rows of ONE product of the whole arrays — the host's
      `dot_general` (a row of a product depends on that row of the left operand only);
    * the combine kernel is entry by entry the host's combination, its bias row the bias vector reshaped;
    * the host operations between the kernels are the reference's own, operation for operation, so they are matched
      as whole functions and never opened (the gather, the scatter-add and the rsqrt stay opaque).

  So both programs end with the same two functions of the arguments, `Spec.embed` and `Spec.recon`, and no law of
  arithmetic on the extended reals is needed beyond that the two spellings are the same expression: the precondition
  (finite inputs) is never opened. The ideal pass rewrote nothing, so `preserves` is trivial.
-/
import proofs.«162297_j20255065768607_1_alg».proof.Defs
import proofs.«162297_j20255065768607_1_alg».proof.Proof.Gen.Kernel
import proofs.«162297_j20255065768607_1_alg».proof.Proof.Gen.Kernel.Skeleton
import proofs.«162297_j20255065768607_1_alg».proof.Proof.Gen.Kernel.Launch
import proofs.«162297_j20255065768607_1_alg».proof.Proof.Gen.Kernel.Points
import proofs.«162297_j20255065768607_1_alg».proof.Proof.Gen.Kernel.Frame
import proofs.«162297_j20255065768607_1_alg».proof.Proof.Gen.KernelIdeal
import proofs.«162297_j20255065768607_1_alg».proof.Proof.Gen.KernelIdeal.Skeleton
import proofs.«162297_j20255065768607_1_alg».proof.Proof.Gen.KernelIdeal.Launch
import proofs.«162297_j20255065768607_1_alg».proof.Proof.Gen.KernelIdeal.Points
import proofs.«162297_j20255065768607_1_alg».proof.Proof.Gen.KernelIdeal.Frame
import proofs.«162297_j20255065768607_1_alg».proof.Proof.Gen.ReferenceIdeal
import proofs.«162297_j20255065768607_1_alg».proof.Proof.Gen.Pre_finite_inputs
import proofs.«162297_j20255065768607_1_alg».proof.Proof.KernelRun
import proofs.«162297_j20255065768607_1_alg».proof.Proof.KernelChain
import proofs.«162297_j20255065768607_1_alg».proof.Proof.RefChain
import Idealize.ShloMosaic.Adequacy
import Idealize.ShloMosaic.Init

noncomputable section

namespace Cert.Proof

open Idealize.ShloMosaic Idealize.SL.Sem

/-- The kernel as printed and its idealization run, without a fault, and leave their arguments as launched. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments as launched: its run, read segment by segment, with the results dropped. -/
theorem frame_referenceIdeal : Cert.frame_ReferenceIdeal := fun m ρ _ =>
  (θ_run Cert.ReferenceIdeal.defs _ _).mono (fun _ h c => (h c).2.2) (Cert.ReferenceIdeal.Segments.run (F := Ideal) m ρ)

/-- The idealization is the kernel's own text read at the ideal values: the pass rewrote no operation. -/
theorem preserves : Cert.preserves_Kernel_KernelIdeal := trivial

/-- From memories that agree on the arguments both programs end with the embedding and the reconstruction of those
    arguments: the kernel's run read boundary by boundary, the reference's segment by segment. -/
theorem algebraic : Cert.algebraic_KernelIdeal_ReferenceIdeal := by
  intro m ρ m' ρ' _ hagree
  refine ⟨fun c => Cert.Spec.embed Ideal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.recon Ideal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Chain.at21_v78 m ρ c), (h c).2.1.trans (Cert.KernelIdeal.Chain.at21_v126 m ρ c), (h c).2.2⟩)
      (Cert.KernelIdeal.Results.run m ρ)
  · refine (θ_run Cert.ReferenceIdeal.defs _ _).mono (fun r h c => ?_) (Cert.ReferenceIdeal.Segments.run (F := Ideal) m' ρ')
    obtain ⟨a0, a1, a2, a3, a4, a5, a6, a7, a8, a9, a10, a11, a12, a13⟩ := hagree c
    refine ⟨(h c).1.trans ?_, (h c).2.1.trans ?_, (h c).2.2⟩
    · rw [a0, a1, a2, a3, a4, a5, a6, a7]
    · rw [a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
